-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v75_0)) (v1 : (c : Dev Cert.KernelIdeal.nD) → Buf (Elt Ideal) ((c.tc : Thread Cert.KernelIdeal.nD Cert.KernelIdeal.τ).loc Cert.KernelIdeal.main_v75_1)) (v2 : (c : Dev Cert.KernelIdeal.nD) → Buf (Elt Ideal) ((c.tc : Thread Cert.KernelIdeal.nD Cert.KernelIdeal.τ).loc Cert.KernelIdeal.main_v82)) (v3 : (c : Dev Cert.KernelIdeal.nD) → Buf (Elt Ideal) ((c.tc : Thread Cert.KernelIdeal.nD Cert.KernelIdeal.τ).loc Cert.KernelIdeal.main_v97)) (v4 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75_0) = v0 c
          ∧ r.2.mem ((c.tc : Thread Cert.KernelIdeal.nD Cert.KernelIdeal.τ).loc Cert.KernelIdeal.main_v75_1) = v1 c
          ∧ r.2.mem ((c.tc : Thread Cert.KernelIdeal.nD Cert.KernelIdeal.τ).loc Cert.KernelIdeal.main_v82) = v2 c
          ∧ r.2.mem ((c.tc : Thread Cert.KernelIdeal.nD Cert.KernelIdeal.τ).loc Cert.KernelIdeal.main_v97) = v3 c
          ∧ r.2.mem ((c.tc : Thread Cert.KernelIdeal.nD Cert.KernelIdeal.τ).loc Cert.KernelIdeal.main_v111) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v133) = v2 c
          ∧ r.2.mem ((c.tc : Thread Cert.ReferenceIdeal.nD Cert.ReferenceIdeal.τ).loc Cert.ReferenceIdeal.main_v162) = v3 c
          ∧ r.2.mem ((c.tc : Thread Cert.ReferenceIdeal.nD Cert.ReferenceIdeal.τ).loc Cert.ReferenceIdeal.main_v176) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x784 : Shape := ⟨2, ![512, 784]⟩
abbrev S784x512 : Shape := ⟨2, ![784, 512]⟩
abbrev S512x512 : Shape := ⟨2, ![512, 512]⟩
abbrev S512x1 : Shape := ⟨2, ![512, 1]⟩
abbrev S1x512 : Shape := ⟨2, ![1, 512]⟩
abbrev S1x1 : Shape := ⟨2, ![1, 1]⟩
abbrev S512 : Shape := ⟨1, ![512]⟩
abbrev S_ : Shape := ⟨0, ![]⟩

class Facts : Prop where
  bcast_S_S512x784 : S_.BroadcastsInDim S512x784 (![] : Fin 0 → Fin S512x784.rank)
  reducesTo_S512x784_S_d0_1 : S512x784.ReducesTo [0, 1] S_
  h_S_ : 0 < S_.numel
  bcast_S_S784x512 : S_.BroadcastsInDim S784x512 (![] : Fin 0 → Fin S784x512.rank)
  reducesTo_S784x512_S_d0_1 : S784x512.ReducesTo [0, 1] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1x512 : S_.BroadcastsInDim S1x512 (![] : Fin 0 → Fin S1x512.rank)
  reducesTo_S1x512_S_d0_1 : S1x512.ReducesTo [0, 1] S_
  bcast_S_S1x1 : S_.BroadcastsInDim S1x1 (![] : Fin 0 → Fin S1x1.rank)
  reducesTo_S1x1_S_d0_1 : S1x1.ReducesTo [0, 1] S_

variable [Facts]

def fn_part3 {F : FTy → Type} [FloatOps F] (main_arg11 : FVec F S1x512 .f32) (main_arg12 : FVec F S1x1 .f32) (main_v48 : IVec S_ 1) (main_v49 : FVec F S1x512 .f32) (main_v50 : FVec F S1x512 .f32) : IVec S_ 1 :=
  let main_v51 : IVec S1x512 1 := cmpf .olt main_v49 main_v50
  let main_c_19 : IVec S_ 1 := constantI S_ 1 1#1
  let main_v52 : IVec S_ 1 := (fun x v => Host.reduce IntOp.andi x v reducesTo_S1x512_S_d0_1 h_S_) main_v51 main_c_19
  let main_v53 : IVec S_ 1 := andi main_v48 main_v52
  let main_v54 : FVec F S1x512 .f32 := Host.absf main_arg11
  let main_cst_20 : FVec F S_ .f32 := constant S_ .f32 0x7F800000#32
  let main_v55 : FVec F S1x512 .f32 := broadcastInDim S1x512 ![] bcast_S_S1x512 main_cst_20
  let main_v56 : IVec S1x512 1 := cmpf .olt main_v54 main_v55
  let main_c_21 : IVec S_ 1 := constantI S_ 1 1#1
  let main_v57 : IVec S_ 1 := (fun x v => Host.reduce IntOp.andi x v reducesTo_S1x512_S_d0_1 h_S_) main_v56 main_c_21
  let main_v58 : IVec S_ 1 := andi main_v53 main_v57
  let main_v59 : FVec F S1x1 .f32 := Host.absf main_arg12
  let main_cst_22 : FVec F S_ .f32 := constant S_ .f32 0x7F800000#32
  let main_v60 : FVec F S1x1 .f32 := broadcastInDim S1x1 ![] bcast_S_S1x1 main_cst_22
  let main_v61 : IVec S1x1 1 := cmpf .olt main_v59 main_v60
  let main_c_23 : IVec S_ 1 := constantI S_ 1 1#1
  let main_v62 : IVec S_ 1 := (fun x v => Host.reduce IntOp.andi x v reducesTo_S1x1_S_d0_1 h_S_) main_v61 main_c_23
  let main_v63 : IVec S_ 1 := andi main_v58 main_v62
  main_v63

def fn_part2 {F : FTy → Type} [FloatOps F] (main_arg7 : FVec F S1x512 .f32) (main_arg8 : FVec F S1x512 .f32) (main_arg9 : FVec F S1x512 .f32) (main_arg10 : FVec F S1x512 .f32) (main_arg11 : FVec F S1x512 .f32) (main_arg12 : FVec F S1x1 .f32) (main_v33 : IVec S_ 1) : IVec S_ 1 :=
  let main_v34 : FVec F S1x512 .f32 := Host.absf main_arg7
  let main_cst_12 : FVec F S_ .f32 := constant S_ .f32 0x7F800000#32
  let main_v35 : FVec F S1x512 .f32 := broadcastInDim S1x512 ![] bcast_S_S1x512 main_cst_12
  let main_v36 : IVec S1x512 1 := cmpf .olt main_v34 main_v35
  let main_c_13 : IVec S_ 1 := constantI S_ 1 1#1
  let main_v37 : IVec S_ 1 := (fun x v => Host.reduce IntOp.andi x v reducesTo_S1x512_S_d0_1 h_S_) main_v36 main_c_13
  let main_v38 : IVec S_ 1 := andi main_v33 main_v37
  let main_v39 : FVec F S1x512 .f32 := Host.absf main_arg8
  let main_cst_14 : FVec F S_ .f32 := constant S_ .f32 0x7F800000#32
  let main_v40 : FVec F S1x512 .f32 := broadcastInDim S1x512 ![] bcast_S_S1x512 main_cst_14
  let main_v41 : IVec S1x512 1 := cmpf .olt main_v39 main_v40
  let main_c_15 : IVec S_ 1 := constantI S_ 1 1#1
  let main_v42 : IVec S_ 1 := (fun x v => Host.reduce IntOp.andi x v reducesTo_S1x512_S_d0_1 h_S_) main_v41 main_c_15
  let main_v43 : IVec S_ 1 := andi main_v38 main_v42
  let main_v44 : FVec F S1x512 .f32 := Host.absf main_arg9
  let main_cst_16 : FVec F S_ .f32 := constant S_ .f32 0x7F800000#32
  let main_v45 : FVec F S1x512 .f32 := broadcastInDim S1x512 ![] bcast_S_S1x512 main_cst_16
  let main_v46 : IVec S1x512 1 := cmpf .olt main_v44 main_v45
  let main_c_17 : IVec S_ 1 := constantI S_ 1 1#1
  let main_v47 : IVec S_ 1 := (fun x v => Host.reduce IntOp.andi x v reducesTo_S1x512_S_d0_1 h_S_) main_v46 main_c_17
  let main_v48 : IVec S_ 1 := andi main_v43 main_v47
  let main_v49 : FVec F S1x512 .f32 := Host.absf main_arg10
  let main_cst_18 : FVec F S_ .f32 := constant S_ .f32 0x7F800000#32
  let main_v50 : FVec F S1x512 .f32 := broadcastInDim S1x512 ![] bcast_S_S1x512 main_cst_18
  fn_part3 (F := F) main_arg11 main_arg12 main_v48 main_v49 main_v50

def fn_part1 {F : FTy → Type} [FloatOps F] (main_arg4 : FVec F S512x512 .f32) (main_arg5 : FVec F S512x512 .f32) (main_arg6 : FVec F S512x1 .f32) (main_arg7 : FVec F S1x512 .f32) (main_arg8 : FVec F S1x512 .f32) (main_arg9 : FVec F S1x512 .f32) (main_arg10 : FVec F S1x512 .f32) (main_arg11 : FVec F S1x512 .f32) (main_arg12 : FVec F S1x1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S512x784 .f32) (main_arg1 : FVec F S784x512 .f32) (main_arg2 : FVec F S512x512 .f32) (main_arg3 : FVec F S512x512 .f32) (main_arg4 : FVec F S512x512 .f32) (main_arg5 : FVec F S512x512 .f32) (main_arg6 : FVec F S512x1 .f32) (main_arg7 : FVec F S1x512 .f32) (main_arg8 : FVec F S1x512 .f32) (main_arg9 : FVec F S1x512 .f32) (main_arg10 : FVec F S1x512 .f32) (main_arg11 : FVec F S1x512 .f32) (main_arg12 : FVec F S1x1 .f32) (main_arg13 : IVec S512 32) : IVec S_ 1 :=
  let main_v0 : FVec F S512x784 .f32 := Host.absf main_arg0
  let main_cst : FVec F S_ .f32 := constant S_ .f32 0x7F800000#32
  let main_v1 : FVec F S512x784 .f32 := broadcastInDim S512x784 ![] bcast_S_S512x784 main_cst
  let main_v2 : IVec S512x784 1 := cmpf .olt main_v0 main_v1
  let main_c : IVec S_ 1 := constantI S_ 1 1#1
  let main_v3 : IVec S_ 1 := (fun x v => Host.reduce IntOp.andi x v reducesTo_S512x784_S_d0_1 h_S_) main_v2 main_c
  let main_v4 : FVec F S784x512 .f32 := Host.absf main_arg1
  let main_cst_0 : FVec F S_ .f32 := constant S_ .f32 0x7F800000#32
  let main_v5 : FVec F S784x512 .f32 := broadcastInDim S784x512 ![] bcast_S_S784x512 main_cst_0
  let main_v6 : IVec S784x512 1 := cmpf .olt main_v4 main_v5
  let main_c_1 : IVec S_ 1 := constantI S_ 1 1#1
  let main_v7 : IVec S_ 1 := (fun x v => Host.reduce IntOp.andi x v reducesTo_S784x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_v13 main_v16
-- ==== Kernel.lean ====
abbrev S512x784 : Shape := ⟨2, ![512, 784]⟩
abbrev S784x512 : Shape := ⟨2, ![784, 512]⟩
abbrev S512x512 : Shape := ⟨2, ![512, 512]⟩
abbrev S512x1 : Shape := ⟨2, ![512, 1]⟩
abbrev S1x512 : Shape := ⟨2, ![1, 512]⟩
abbrev S1x1 : Shape := ⟨2, ![1, 1]⟩
abbrev S512 : Shape := ⟨1, ![512]⟩
abbrev S_ : Shape := ⟨0, ![]⟩
abbrev S1 : Shape := ⟨1, ![1]⟩
abbrev S512x512x512 : Shape := ⟨3, ![512, 512, 512]⟩
abbrev S16x512 : Shape := ⟨2, ![16, 512]⟩
abbrev S16x512x512 : Shape := ⟨3, ![16, 512, 512]⟩
abbrev S1x512x512 : Shape := ⟨3, ![1, 512, 512]⟩
abbrev S16x1x512 : Shape := ⟨3, ![16, 1, 512]⟩

abbrev nBuf : Space → Nat
  | .hbm => 184
  | .vmem => 25
  | .smem => 0
  | _ => 0

abbrev hbmTy0_0 (i : Nat) : BufTy := match i % 128 with
  | 0 => ⟨S512x784, .f32⟩
  | 1 => ⟨S784x512, .f32⟩
  | 2 => ⟨S512x512, .f32⟩
  | 3 => ⟨S512x512, .f32⟩
  | 4 => ⟨S512x512, .f32⟩
  | 5 => ⟨S512x512, .f32⟩
  | 6 => ⟨S512x1, .f32⟩
  | 7 => ⟨S1x512, .f32⟩
  | 8 => ⟨S1x512, .f32⟩
  | 9 => ⟨S1x512, .f32⟩
  | 10 => ⟨S1x512, .f32⟩
  | 11 => ⟨S1x512, .f32⟩
  | 12 => ⟨S1x1, .f32⟩
  | 13 => ⟨S512, .i32⟩
  | 14 => ⟨S784x512, .f32⟩
  | 15 => ⟨S784x512, .f32⟩
  | 16 => ⟨S_, .f32⟩
  | 17 => ⟨S784x512, .f32⟩
  | 18 => ⟨S784x512, .f32⟩
  | 19 => ⟨S_, .f32⟩
  | 20 => ⟨S784x512, .f32⟩
  | 21 => ⟨S784x512, .f32⟩
  | 22 => ⟨S_, .f32⟩
  | 23 => ⟨S784x512, .f32⟩
  | 24 => ⟨S784x512, .f32⟩
  | 25 => ⟨S_, .f32⟩
  | 26 => ⟨S784x512, .f32⟩
  | 27 => ⟨S784x512, .f32⟩
  | 28 => ⟨S512x512, .f32⟩
  | 29 => ⟨S512x512, .f32⟩
  | 30 => ⟨S_, .f32⟩
  | 31 => ⟨S512x512, .f32⟩
  | 32 => ⟨S512x512, .f32⟩
  | 33 => ⟨S_, .f32⟩
  | 34 => ⟨S512x512, .f32⟩
  | 35 => ⟨S512x512, .f32⟩
  | 36 => ⟨S_, .f32⟩
  | 37 => ⟨S512x512, .f32⟩
  | 38 => ⟨S512x512, .f32⟩
  | 39 => ⟨S_, .f32⟩
  | 40 => ⟨S512x512, .f32⟩
  | 41 => ⟨S512x512, .f32⟩
  | 42 => ⟨S512x512, .f32⟩
  | 43 => ⟨S512x512, .f32⟩
  | 44 => ⟨S_, .f32⟩
  | 45 => ⟨S512x512, .f32⟩
  | 46 => ⟨S512x512, .f32⟩
  | 47 => ⟨S_, .f32⟩
  | 48 => ⟨S512x512, .f32⟩
  | 49 => ⟨S512x512, .f32⟩
  | 50 => ⟨S_, .f32⟩
  | 51 => ⟨S512x512, .f32⟩
  | 52 => ⟨S512x512, .f32⟩
  | 53 => ⟨S_, .f32⟩
  | 54 => ⟨S512x512, .f32⟩
  | 55 => ⟨S512x512, .f32⟩
  | 56 => ⟨S512x512, .f32⟩
  | 57 => ⟨S512x512, .f32⟩
  | 58 => ⟨S_, .f32⟩
  | 59 => ⟨S512x512, .f32⟩
  | 60 => ⟨S512x512, .f32⟩
  | 61 => ⟨S_, .f32⟩
  | 62 => ⟨S512x512, .f32⟩
  | 63 => ⟨S512x512, .f32⟩
  | 64 => ⟨S_, .f32⟩
  | 65 => ⟨S512x512, .f32⟩
  | 66 => ⟨S512x512, .f32⟩
  | 67 => ⟨S_, .f32⟩
  | 68 => ⟨S512x512, .f32⟩
  | 69 => ⟨S512x512, .f32⟩
  | 70 => ⟨S512x1, .f32⟩
  | 71 => ⟨S512x1, .f32⟩
  | 72 => ⟨S_, .f32⟩
  | 73 => ⟨S512x1, .f32⟩
  | 74 => ⟨S512x1, .f32⟩
  | 75 => ⟨S_, .f32⟩
  | 76 => ⟨S512x1, .f32⟩
  | 77 => ⟨S512x1, .f32⟩
  | 78 => ⟨S_, .f32⟩
  | 79 => ⟨S512x1, .f32⟩
  | 80 => ⟨S512x1, .f32⟩
  | 81 => ⟨S_, .f32⟩
  | 82 => ⟨S512x1, .f32⟩
  | 83 => ⟨S512x1, .f32⟩
  | 84 => ⟨S784x512, .f32⟩
  | 85 => ⟨S_, .f32⟩
  | 86 => ⟨S784x512, .f32⟩
  | 87 => ⟨S784x512, .f32⟩
  | 88 => ⟨S_, .f32⟩
  | 89 => ⟨S512, .f32⟩
  | 90 => ⟨S1x512, .f32⟩
  | 91 => ⟨S512x512, .f32⟩
  | 92 => ⟨S_, .f32⟩
  | 93 => ⟨S512x512, .f32⟩
  | 94 => ⟨S512x512, .f32⟩
  | 95 => ⟨S_, .f32⟩
  | 96 => ⟨S512, .f32⟩
  | 97 => ⟨S1x512, .f32⟩
  | 98 => ⟨S512x512, .f32⟩
  | 99 => ⟨S_, .f32⟩
  | 100 => ⟨S512x512, .f32⟩
  | 101 => ⟨S512x512, .f32⟩
  | 102 => ⟨S_, .f32⟩
  | 103 => ⟨S512, .f32⟩
  | 104 => ⟨S1x512, .f32⟩
  | 105 => ⟨S512x512, .f32⟩
  | 106 => ⟨S_, .f32⟩
  | 107 => ⟨S512x512, .f32⟩
  | 108 => ⟨S512x512, .f32⟩
  | 109 => ⟨S_, .f32⟩
  | 110 => ⟨S512, .f32⟩
  | 111 => ⟨S1x512, .f32⟩
  | 112 => ⟨S512x1, .f32⟩
  | 113 => ⟨S_, .f32⟩
  | 114 => ⟨S512x1, .f32⟩
  | 115 => ⟨S512x1, .f32⟩
  | 116 => ⟨S_, .f32⟩
  | 117 => ⟨S1, .f32⟩
  | 118 => ⟨S1x1, .f32⟩
  | 119 => ⟨S512x1, .f32⟩
  | 120 => ⟨S512x1, .f32⟩
  | 121 => ⟨S512x1, .f32⟩
  | 122 => ⟨S512x512, .f32⟩
  | 123 => ⟨S512x512, .i32⟩
  | 124 => ⟨S512x512, .i32⟩
  | 125 => ⟨S_, .i32⟩
  | 126 => ⟨S512x512, .i32⟩
  | 127 => ⟨S512x512, .i32⟩
  | _ => ⟨S512x784, .f32⟩

abbrev hbmTy0_1 (i : Nat) : BufTy := match i % 128 with
  | 0 => ⟨S512x512, .i1⟩
  | 1 => ⟨S512x512, .f32⟩
  | 2 => ⟨S512x512x512, .f32⟩
  | 3 => ⟨S512, .f32⟩
  | 4 => ⟨S512x1, .f32⟩
  | 5 => ⟨S512, .f32⟩
  | 6 => ⟨S512x1, .f32⟩
  | 7 => ⟨S512x1, .f32⟩
  | 8 => ⟨S_, .f32⟩
  | 9 => ⟨S512x1, .f32⟩
  | 10 => ⟨S512x1, .f32⟩
  | 11 => ⟨S512x1, .f32⟩
  | 12 => ⟨S512x1, .f32⟩
  | 13 => ⟨S512x1, .i1⟩
  | 14 => ⟨S512x1, .f32⟩
  | 15 => ⟨S512x1, .f32⟩
  | 16 => ⟨S512x1, .f32⟩
  | 17 => ⟨S512x1, .f32⟩
  | 18 => ⟨S512x1, .f32⟩
  | 19 => ⟨S512x1, .f32⟩
  | 20 => ⟨S512x1, .f32⟩
  | 21 => ⟨S512x1, .f32⟩
  | 22 => ⟨S512x1, .f32⟩
  | 23 => ⟨S512, .f32⟩
  | 24 => ⟨S512, .f32⟩
  | 25 => ⟨S_, .f32⟩
  | 26 => ⟨S512, .f32⟩
  | 27 => ⟨S512, .f32⟩
  | 28 => ⟨S512, .f32⟩
  | 29 => ⟨S512, .f32⟩
  | 30 => ⟨S512, .f32⟩
  | 31 => ⟨S_, .f32⟩
  | 32 => ⟨S_, .f32⟩
  | 33 => ⟨S_, .f32⟩
  | 34 => ⟨S_, .f32⟩
  | 35 => ⟨S_, .f32⟩
  | 36 => ⟨S512x1, .f32⟩
  | 37 => ⟨S512x1, .f32⟩
  | 38 => ⟨S_, .f32⟩
  | 39 => ⟨S512x1, .f32⟩
  | 40 => ⟨S512x1, .f32⟩
  | 41 => ⟨S_, .f32⟩
  | 42 => ⟨S512x1, .f32⟩
  | 43 => ⟨S512x1, .f32⟩
  | 44 => ⟨S_, .f32⟩
  | 45 => ⟨S512x1, .f32⟩
  | 46 => ⟨S512x1, .i1⟩
  | 47 => ⟨S512x1, .f32⟩
  | 48 => ⟨S512x1, .f32⟩
  | 49 => ⟨S512x1, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | _ => ⟨S512x784, .f32⟩

abbrev hbmTy (i : Nat) : BufTy := match i / 128 with
  | 0 => hbmTy0_0 i
  | 1 => hbmTy0_1 i
  | _ => ⟨S512x784, .f32⟩

abbrev bufTy : (tb : Table) → Fin (tcTables nBuf tb) → BufTy
  | .hbm, ⟨i, _⟩ => hbmTy i
  | .local _ .vmem, ⟨0, _⟩ => ⟨S512x784, .f32⟩
  | .local _ .vmem, ⟨1, _⟩ => ⟨S784x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x1, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x512, .f32⟩
  | .local _ .vmem, ⟨20, _⟩ => ⟨S16x512, .f32⟩
  | .local _ .vmem, ⟨21, _⟩ => ⟨S16x512, .f32⟩
  | .local _ .vmem, ⟨22, _⟩ => ⟨S512x512, .f32⟩
  | .local _ .vmem, ⟨23, _⟩ => ⟨S16x512x512, .f32⟩
  | .local _ .vmem, ⟨24, _⟩ => ⟨S16x512x512, .f32⟩
  | _, _ => ⟨S512x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_v14 : Ref sig .tc := ⟨.hbm, 34, rfl⟩
abbrev main_v15 : Ref sig .tc := ⟨.hbm, 35, rfl⟩
abbrev main_cst_5 : Ref sig .tc := ⟨.hbm, 36, rfl⟩
abbrev main_v16 : Ref sig .tc := ⟨.hbm, 37, rfl⟩
abbrev main_v17 : Ref sig .tc := ⟨.hbm, 38, rfl⟩
abbrev main_cst_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_7 : Ref sig .tc := ⟨.hbm, 44, rfl⟩
abbrev main_v22 : Ref sig .tc := ⟨.hbm, 45, rfl⟩
abbrev main_v23 : Ref sig .tc := ⟨.hbm, 46, rfl⟩
abbrev main_cst_8 : Ref sig .tc := ⟨.hbm, 47, rfl⟩
abbrev main_v24 : Ref sig .tc := ⟨.hbm, 48, rfl⟩
abbrev main_v25 : Ref sig .tc := ⟨.hbm, 49, rfl⟩
abbrev main_cst_9 : Ref sig .tc := ⟨.hbm, 50, rfl⟩
abbrev main_v26 : Ref sig .tc := ⟨.hbm, 51, rfl⟩
abbrev main_v27 : Ref sig .tc := ⟨.hbm, 52, rfl⟩
abbrev main_cst_10 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_11 : Ref sig .tc := ⟨.hbm, 58, rfl⟩
abbrev main_v32 : Ref sig .tc := ⟨.hbm, 59, rfl⟩
abbrev main_v33 : Ref sig .tc := ⟨.hbm, 60, rfl⟩
abbrev main_cst_12 : Ref sig .tc := ⟨.hbm, 61, rfl⟩
abbrev main_v34 : Ref sig .tc := ⟨.hbm, 62, rfl⟩
abbrev main_v35 : Ref sig .tc := ⟨.hbm, 63, rfl⟩
abbrev main_cst_13 : Ref sig .tc := ⟨.hbm, 64, rfl⟩
abbrev main_v36 : Ref sig .tc := ⟨.hbm, 65, rfl⟩
abbrev main_v37 : Ref sig .tc := ⟨.hbm, 66, rfl⟩
abbrev main_cst_14 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_15 : Ref sig .tc := ⟨.hbm, 72, rfl⟩
abbrev main_v42 : Ref sig .tc := ⟨.hbm, 73, rfl⟩
abbrev main_v43 : Ref sig .tc := ⟨.hbm, 74, rfl⟩
abbrev main_cst_16 : Ref sig .tc := ⟨.hbm, 75, rfl⟩
abbrev main_v44 : Ref sig .tc := ⟨.hbm, 76, rfl⟩
abbrev main_v45 : Ref sig .tc := ⟨.hbm, 77, rfl⟩
abbrev main_cst_17 : Ref sig .tc := ⟨.hbm, 78, rfl⟩
abbrev main_v46 : Ref sig .tc := ⟨.hbm, 79, rfl⟩
abbrev main_v47 : Ref sig .tc := ⟨.hbm, 80, rfl⟩
abbrev main_cst_18 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_19 : Ref sig .tc := ⟨.hbm, 85, rfl⟩
abbrev main_v51 : Ref sig .tc := ⟨.hbm, 86, rfl⟩
abbrev main_v52 : Ref sig .tc := ⟨.hbm, 87, rfl⟩
abbrev main_cst_20 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_21 : Ref sig .tc := ⟨.hbm, 92, rfl⟩
abbrev main_v56 : Ref sig .tc := ⟨.hbm, 93, rfl⟩
abbrev main_v57 : Ref sig .tc := ⟨.hbm, 94, rfl⟩
abbrev main_cst_22 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_23 : Ref sig .tc := ⟨.hbm, 99, rfl⟩
abbrev main_v61 : Ref sig .tc := ⟨.hbm, 100, rfl⟩
abbrev main_v62 : Ref sig .tc := ⟨.hbm, 101, rfl⟩
abbrev main_cst_24 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_25 : Ref sig .tc := ⟨.hbm, 106, rfl⟩
abbrev main_v66 : Ref sig .tc := ⟨.hbm, 107, rfl⟩
abbrev main_v67 : Ref sig .tc := ⟨.hbm, 108, rfl⟩
abbrev main_cst_26 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_27 : Ref sig .tc := ⟨.hbm, 113, rfl⟩
abbrev main_v71 : Ref sig .tc := ⟨.hbm, 114, rfl⟩
abbrev main_v72 : Ref sig .tc := ⟨.hbm, 115, rfl⟩
abbrev main_cst_28 : Ref sig .tc := ⟨.hbm, 116, rfl⟩
abbrev main_v73 : Ref sig .tc := ⟨.hbm, 117, rfl⟩
abbrev main_v74 : Ref sig .tc := ⟨.hbm, 118, rfl⟩
abbrev main_v75_0 : Ref sig .tc := ⟨.hbm, 119, rfl⟩
abbrev main_v75_1 : Ref sig .tc := ⟨.hbm, 120, rfl⟩
abbrev main_v75_2 : Ref sig .tc := ⟨.hbm, 121, rfl⟩
abbrev main_v75_3 : Ref sig .tc := ⟨.hbm, 122, rfl⟩
abbrev main_v76 : Ref sig .tc := ⟨.hbm, 123, rfl⟩
abbrev main_v77 : Ref sig .tc := ⟨.hbm, 124, rfl⟩
abbrev main_c : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_call0_v0 : Ref sig .tc := ⟨.hbm, 135, rfl⟩
abbrev main_call0_call0_cst : Ref sig .tc := ⟨.hbm, 136, rfl⟩
abbrev main_call0_call0_v0 : Ref sig .tc := ⟨.hbm, 137, rfl⟩
abbrev main_call0_call0_v1 : Ref sig .tc := ⟨.hbm, 138, rfl⟩
abbrev main_call0_call0_v2 : Ref sig .tc := ⟨.hbm, 139, rfl⟩
abbrev main_call0_call0_v3 : Ref sig .tc := ⟨.hbm, 140, rfl⟩
abbrev main_call0_call0_v4 : Ref sig .tc := ⟨.hbm, 141, rfl⟩
abbrev main_call0_call0_v5 : Ref sig .tc := ⟨.hbm, 142, rfl⟩
abbrev main_call0_call0_v6 : Ref sig .tc := ⟨.hbm, 143, rfl⟩
abbrev main_call0_call0_v7 : Ref sig .tc := ⟨.hbm, 144, rfl⟩
abbrev main_call0_call0_v8 : Ref sig .tc := ⟨.hbm, 145, rfl⟩
abbrev main_call0_call0_v9 : Ref sig .tc := ⟨.hbm, 146, rfl⟩
abbrev main_call0_call0_v10 : Ref sig .tc := ⟨.hbm, 147, rfl⟩
abbrev main_call0_call0_v11 : Ref sig .tc := ⟨.hbm, 148, rfl⟩
abbrev main_call0_v1 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_cst_29 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_cst_30 : Ref sig .tc := ⟨.hbm, 159, rfl⟩
abbrev main_v95 : Ref sig .tc := ⟨.hbm, 160, rfl⟩
abbrev main_cst_31 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_cst_32 : Ref sig .tc := ⟨.hbm, 166, rfl⟩
abbrev main_v100 : Ref sig .tc := ⟨.hbm, 167, rfl⟩
abbrev main_v101 : Ref sig .tc := ⟨.hbm, 168, rfl⟩
abbrev main_cst_33 : Ref sig .tc := ⟨.hbm, 169, rfl⟩
abbrev main_v102 : Ref sig .tc := ⟨.hbm, 170, rfl⟩
abbrev main_v103 : Ref sig .tc := ⟨.hbm, 171, rfl⟩
abbrev main_cst_34 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_cst_35 : Ref sig .tc := ⟨.hbm, 178, rfl⟩
abbrev main_v109 : Ref sig .tc := ⟨.hbm, 179, rfl⟩
abbrev main_cst_36 : Ref sig .tc := ⟨.hbm, 180, rfl⟩
abbrev main_v110 : Ref sig .tc := ⟨.hbm, 181, rfl⟩
abbrev main_cst_37 : Ref sig .tc := ⟨.hbm, 182, rfl⟩
abbrev main_v111 : Ref sig .tc := ⟨.hbm, 183, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc1_sem0_0 : DmaSem sig := 20
abbrev cc1_sem0_1 : DmaSem sig := 21
abbrev cc1_sem1_0 : DmaSem sig := 22
abbrev cc1_sem2_0 : DmaSem sig := 23
abbrev cc1_sem2_1 : DmaSem sig := 24

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x784 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S784x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S16x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S784x512 : S_.BroadcastsInDim S784x512 (![] : Fin 0 → Fin S784x512.rank)
  bcast_S_S512x512 : S_.BroadcastsInDim S512x512 (![] : Fin 0 → Fin S512x512.rank)
  bcast_S_S512x1 : S_.BroadcastsInDim S512x1 (![] : Fin 0 → Fin S512x1.rank)
  reducesTo_S784x512_S512_d0 : S784x512.ReducesTo [0] S512
  h_S_ : 0 < S_.numel
  bcast_S512_S1x512_1 : S512.BroadcastsInDim S1x512 (![1] : Fin 1 → Fin S1x512.rank)
  reducesTo_S512x512_S512_d0 : S512x512.ReducesTo [0] S512
  reducesTo_S512x1_S1_d0 : S512x1.ReducesTo [0] S1
  bcast_S1_S1x1_1 : S1.BroadcastsInDim S1x1 (![1] : Fin 1 → Fin S1x1.rank)
  inb_S512x784_S512x784_0_0 : ∀ a, (![0, 0] : Fin 2 → Nat) a + S512x784.size a ≤ S512x784.size a
  h_S512x784 : 0 < S512x784.numel
  inb_S784x512_S784x512_0_0 : ∀ a, (![0, 0] : Fin 2 → Nat) a + S784x512.size a ≤ S784x512.size a
  h_S784x512 : 0 < S784x512.numel
  shapeCasts_S784x512_S784x512 : S784x512.ShapeCasts S784x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  inb_S1x1_S1x1_0_0 : ∀ a, (![0, 0] : Fin 2 → Nat) a + S1x1.size a ≤ S1x1.size a
  h_S1x1 : 0 < S1x1.numel
  shapeCasts_S1x512_S1x512 : S1x512.ShapeCasts S1x512
  shapeCasts_S1x1_S1x1 : S1x1.ShapeCasts S1x1
  broadcasts_S1x512_S512x512 : S1x512.Broadcasts S512x512
  broadcasts_S1x1_S512x1 : S1x1.Broadcasts S512x1
  inb_S16x512_S16x512_0_0 : ∀ a, (![0, 0] : Fin 2 → Nat) a + S16x512.size a ≤ S16x512.size a
  h_S16x512 : 0 < S16x512.numel
  shapeCasts_S16x512_S16x512 : S16x512.ShapeCasts S16x512
  shapeCasts_S512x512_S1x512x512 : S512x512.ShapeCasts S1x512x512
  shapeCasts_S16x512_S16x1x512 : S16x512.ShapeCasts S16x1x512
  broadcasts_S1x512x512_S16x512x512 : S1x512x512.Broadcasts S16x512x512
  broadcasts_S16x1x512_S16x512x512 : S16x1x512.Broadcasts S16x512x512
  inb_S16x512x512_S16x512x512_0_0_0 : ∀ a, (![0, 0, 0] : Fin 3 → Nat) a + S16x512x512.size a ≤ S16x512x512.size a
  h_S16x512x512 : 0 < S16x512x512.numel
  bcast_S512_S512x1_0 : S512.BroadcastsInDim S512x1 (![0] : Fin 1 → Fin S512x1.rank)
  shapeCasts_S512x1_S512 : S512x1.ShapeCasts S512
  bcast_S_S512 : S_.BroadcastsInDim S512 (![] : Fin 0 → Fin S512.rank)
  reducesTo_S512_S_d0 : S512.ReducesTo [0] S_
  reducesTo_S512x1_S_d0_1 : S512x1.ReducesTo [0, 1] S_
  dot_S512x784_S784x512_S512x512_1_0_0_1_n_n_wf : DotDims.WF S512x784 S784x512 S512x512 [1] [0] [0] [1] [] []
  dot_S512x512_S512x512_S512x512_1_0_0_1_n_n_wf : DotDims.WF S512x512 S512x512 S512x512 [1] [0] [0] [1] [] []
  dot_S512x512_S512x1_S512x1_1_0_0_1_n_n_wf : DotDims.WF S512x512 S512x1 S512x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S512x784.size a
  hwx0_0 : ∀ i : grid0.Coords, EltTy.bits .f32 = 32 ∨ (Rect.block (s := S512x784) S512x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x512.size a ≤ S784x512.size a
  hwx0_1 : ∀ i : grid0.Coords, EltTy.bits .f32 = 32 ∨ (Rect.block (s := S784x512) S784x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .f32 = 32 ∨ (Rect.block (s := S512x1) S512x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x512.size a ≤ S1x512.size a
  hwx0_14 : ∀ i : grid0.Coords, EltTy.bits .f32 = 32 ∨ (Rect.block (s := S1x512) S1x512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x1.size a ≤ S512x1.size a
  hwx0_16 : ∀ i : grid0.Coords, EltTy.bits .f32 = 32 ∨ (Rect.block (s := S512x1) S512x1.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x1.size a ≤ S512x1.size a
  hwx0_17 : ∀ i : grid0.Coords, EltTy.bits .f32 = 32 ∨ (Rect.block (s := S512x1) S512x1.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512x1.size a ≤ S512x1.size a
  hwx0_18 : ∀ i : grid0.Coords, EltTy.bits .f32 = 32 ∨ (Rect.block (s := S512x1) S512x1.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S512x512.size a ≤ S512x512.size a
  hwx0_19 : ∀ i : grid0.Coords, EltTy.bits .f32 = 32 ∨ (Rect.block (s := S512x512) S512x512.size (cc0_transform_19 i) (hinb0_19 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x512.size a ≤ S512x512.size a
  hwx1_0 : ∀ i : grid1.Coords, EltTy.bits .f32 = 32 ∨ (Rect.block (s := S512x512) S16x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x512x512.size a ≤ S512x512x512.size a
  hwx1_2 : ∀ i : grid1.Coords, EltTy.bits .f32 = 32 ∨ (Rect.block (s := S512x512x512) S16x512x512.size (cc1_transform_2 i) (hinb1_2 i)).WholeWords (EltTy.packing .f32)

variable [Facts₀]

def dot_S512x784_S784x512_S512x512_1_0_0_1_n_n : DotDims S512x784 S784x512 S512x512 where
  lhsContracting := [1]
  rhsContracting := [0]
  lhsNonContracting := [0]
  rhsNonContracting := [1]
  lhsBatch := []
  rhsBatch := []
  wf := dot_S512x784_S784x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf

abbrev win0_0 : Pipeline.Window sig grid0 :=
  Pipeline.Window.ofSpec (Memref.whole main_arg0) S512x784.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v9) S784x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v49) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v54) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v59) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v64) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v69) S1x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v74) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v75_0) S512x1.size cc0_transform_16 reads0_16 true true 1 stage0_16 sem0_16
    hrank0 hreads0_16 hinb0_16 nbuf0_16 (Memref.isWhole_whole _) hwx0_16 hstage0_16

abbrev win0_17 : Pipeline.Window sig grid0 :=
  Pipeline.Window.ofSpec (Memref.whole main_v75_1) S512x1.size cc0_transform_17 reads0_17 true true 1 stage0_17 sem0_17
    hrank0 hreads0_17 hinb0_17 nbuf0_17 (Memref.isWhole_whole _) hwx0_17 hstage0_17

abbrev win0_18 : Pipeline.Window sig grid0 :=
  Pipeline.Window.ofSpec (Memref.whole main_v75_2) S512x1.size cc0_transform_18 reads0_18 true true 1 stage0_18 sem0_18
    hrank0 hreads0_18 hinb0_18 nbuf0_18 (Memref.isWhole_whole _) hwx0_18 hstage0_18

abbrev win0_19 : Pipeline.Window sig grid0 :=
  Pipeline.Window.ofSpec (Memref.whole main_v75_3) S512x512.size cc0_transform_19 reads0_19 true true 1 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

abbrev win1_0 : Pipeline.Window sig grid1 :=
  Pipeline.Window.ofSpec (Memref.whole main_v75_3) S16x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v81) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v82) S16x512x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x784 : Shape := ⟨2, ![512, 784]⟩
abbrev S784x512 : Shape := ⟨2, ![784, 512]⟩
abbrev S512x512 : Shape := ⟨2, ![512, 512]⟩
abbrev S512x1 : Shape := ⟨2, ![512, 1]⟩
abbrev S1x512 : Shape := ⟨2, ![1, 512]⟩
abbrev S1x1 : Shape := ⟨2, ![1, 1]⟩
abbrev S512 : Shape := ⟨1, ![512]⟩
abbrev S_ : Shape := ⟨0, ![]⟩
abbrev S1x512x512 : Shape := ⟨3, ![1, 512, 512]⟩
abbrev S512x1x512 : Shape := ⟨3, ![512, 1, 512]⟩
abbrev S512x512x512 : Shape := ⟨3, ![512, 512, 512]⟩
abbrev S1 : Shape := ⟨1, ![1]⟩

abbrev nBuf : Space → Nat
  | .hbm => 269
  | .vmem => 0
  | .smem => 0
  | _ => 0

abbrev hbmTy0_0 (i : Nat) : BufTy := match i % 128 with
  | 0 => ⟨S512x784, .f32⟩
  | 1 => ⟨S784x512, .f32⟩
  | 2 => ⟨S512x512, .f32⟩
  | 3 => ⟨S512x512, .f32⟩
  | 4 => ⟨S512x512, .f32⟩
  | 5 => ⟨S512x512, .f32⟩
  | 6 => ⟨S512x1, .f32⟩
  | 7 => ⟨S1x512, .f32⟩
  | 8 => ⟨S1x512, .f32⟩
  | 9 => ⟨S1x512, .f32⟩
  | 10 => ⟨S1x512, .f32⟩
  | 11 => ⟨S1x512, .f32⟩
  | 12 => ⟨S1x1, .f32⟩
  | 13 => ⟨S512, .i32⟩
  | 14 => ⟨S784x512, .f32⟩
  | 15 => ⟨S784x512, .f32⟩
  | 16 => ⟨S_, .f32⟩
  | 17 => ⟨S784x512, .f32⟩
  | 18 => ⟨S784x512, .f32⟩
  | 19 => ⟨S_, .f32⟩
  | 20 => ⟨S784x512, .f32⟩
  | 21 => ⟨S784x512, .f32⟩
  | 22 => ⟨S_, .f32⟩
  | 23 => ⟨S784x512, .f32⟩
  | 24 => ⟨S784x512, .f32⟩
  | 25 => ⟨S_, .f32⟩
  | 26 => ⟨S784x512, .f32⟩
  | 27 => ⟨S784x512, .f32⟩
  | 28 => ⟨S512x512, .f32⟩
  | 29 => ⟨S512x512, .f32⟩
  | 30 => ⟨S_, .f32⟩
  | 31 => ⟨S512x512, .f32⟩
  | 32 => ⟨S512x512, .f32⟩
  | 33 => ⟨S_, .f32⟩
  | 34 => ⟨S512x512, .f32⟩
  | 35 => ⟨S512x512, .f32⟩
  | 36 => ⟨S_, .f32⟩
  | 37 => ⟨S512x512, .f32⟩
  | 38 => ⟨S512x512, .f32⟩
  | 39 => ⟨S_, .f32⟩
  | 40 => ⟨S512x512, .f32⟩
  | 41 => ⟨S512x512, .f32⟩
  | 42 => ⟨S512x512, .f32⟩
  | 43 => ⟨S512x512, .f32⟩
  | 44 => ⟨S_, .f32⟩
  | 45 => ⟨S512x512, .f32⟩
  | 46 => ⟨S512x512, .f32⟩
  | 47 => ⟨S_, .f32⟩
  | 48 => ⟨S512x512, .f32⟩
  | 49 => ⟨S512x512, .f32⟩
  | 50 => ⟨S_, .f32⟩
  | 51 => ⟨S512x512, .f32⟩
  | 52 => ⟨S512x512, .f32⟩
  | 53 => ⟨S_, .f32⟩
  | 54 => ⟨S512x512, .f32⟩
  | 55 => ⟨S512x512, .f32⟩
  | 56 => ⟨S512x512, .f32⟩
  | 57 => ⟨S512x512, .f32⟩
  | 58 => ⟨S_, .f32⟩
  | 59 => ⟨S512x512, .f32⟩
  | 60 => ⟨S512x512, .f32⟩
  | 61 => ⟨S_, .f32⟩
  | 62 => ⟨S512x512, .f32⟩
  | 63 => ⟨S512x512, .f32⟩
  | 64 => ⟨S_, .f32⟩
  | 65 => ⟨S512x512, .f32⟩
  | 66 => ⟨S512x512, .f32⟩
  | 67 => ⟨S_, .f32⟩
  | 68 => ⟨S512x512, .f32⟩
  | 69 => ⟨S512x512, .f32⟩
  | 70 => ⟨S512x1, .f32⟩
  | 71 => ⟨S512x1, .f32⟩
  | 72 => ⟨S_, .f32⟩
  | 73 => ⟨S512x1, .f32⟩
  | 74 => ⟨S512x1, .f32⟩
  | 75 => ⟨S_, .f32⟩
  | 76 => ⟨S512x1, .f32⟩
  | 77 => ⟨S512x1, .f32⟩
  | 78 => ⟨S_, .f32⟩
  | 79 => ⟨S512x1, .f32⟩
  | 80 => ⟨S512x1, .f32⟩
  | 81 => ⟨S_, .f32⟩
  | 82 => ⟨S512x1, .f32⟩
  | 83 => ⟨S512x1, .f32⟩
  | 84 => ⟨S512, .f32⟩
  | 85 => ⟨S512x1, .f32⟩
  | 86 => ⟨S784x512, .f32⟩
  | 87 => ⟨S_, .f32⟩
  | 88 => ⟨S784x512, .f32⟩
  | 89 => ⟨S784x512, .f32⟩
  | 90 => ⟨S_, .f32⟩
  | 91 => ⟨S512, .f32⟩
  | 92 => ⟨S512x512, .f32⟩
  | 93 => ⟨S512x512, .f32⟩
  | 94 => ⟨S512x512, .f32⟩
  | 95 => ⟨S_, .f32⟩
  | 96 => ⟨S512x512, .f32⟩
  | 97 => ⟨S512x512, .f32⟩
  | 98 => ⟨S512, .f32⟩
  | 99 => ⟨S1x512, .f32⟩
  | 100 => ⟨S512x512, .f32⟩
  | 101 => ⟨S512x512, .f32⟩
  | 102 => ⟨S512x512, .f32⟩
  | 103 => ⟨S512x512, .f32⟩
  | 104 => ⟨S_, .f32⟩
  | 105 => ⟨S512x512, .f32⟩
  | 106 => ⟨S512x512, .f32⟩
  | 107 => ⟨S512x512, .f32⟩
  | 108 => ⟨S512x512, .f32⟩
  | 109 => ⟨S_, .f32⟩
  | 110 => ⟨S512x512, .f32⟩
  | 111 => ⟨S512x512, .f32⟩
  | 112 => ⟨S_, .f32⟩
  | 113 => ⟨S512, .f32⟩
  | 114 => ⟨S1x512, .f32⟩
  | 115 => ⟨S512x512, .f32⟩
  | 116 => ⟨S512x512, .f32⟩
  | 117 => ⟨S512x512, .f32⟩
  | 118 => ⟨S512x512, .f32⟩
  | 119 => ⟨S512x512, .f32⟩
  | 120 => ⟨S_, .f32⟩
  | 121 => ⟨S512x512, .f32⟩
  | 122 => ⟨S512x512, .f32⟩
  | 123 => ⟨S512x512, .f32⟩
  | 124 => ⟨S512x512, .f32⟩
  | 125 => ⟨S512x512, .f32⟩
  | 126 => ⟨S512x512, .f32⟩
  | 127 => ⟨S_, .f32⟩
  | _ => ⟨S512x784, .f32⟩

abbrev hbmTy0_1 (i : Nat) : BufTy := match i % 128 with
  | 0 => ⟨S512x512, .f32⟩
  | 1 => ⟨S512x512, .f32⟩
  | 2 => ⟨S512x512, .f32⟩
  | 3 => ⟨S512x512, .f32⟩
  | 4 => ⟨S_, .f32⟩
  | 5 => ⟨S512x512, .f32⟩
  | 6 => ⟨S512x512, .f32⟩
  | 7 => ⟨S_, .f32⟩
  | 8 => ⟨S512, .f32⟩
  | 9 => ⟨S1x512, .f32⟩
  | 10 => ⟨S512x512, .f32⟩
  | 11 => ⟨S512x512, .f32⟩
  | 12 => ⟨S512x512, .f32⟩
  | 13 => ⟨S512x512, .f32⟩
  | 14 => ⟨S512x512, .f32⟩
  | 15 => ⟨S_, .f32⟩
  | 16 => ⟨S512x512, .f32⟩
  | 17 => ⟨S512x512, .f32⟩
  | 18 => ⟨S512x512, .f32⟩
  | 19 => ⟨S512x512, .f32⟩
  | 20 => ⟨S512x512, .f32⟩
  | 21 => ⟨S512x512, .f32⟩
  | 22 => ⟨S512x512, .f32⟩
  | 23 => ⟨S_, .f32⟩
  | 24 => ⟨S512x512, .f32⟩
  | 25 => ⟨S512x512, .f32⟩
  | 26 => ⟨S_, .f32⟩
  | 27 => ⟨S512, .f32⟩
  | 28 => ⟨S1x512, .f32⟩
  | 29 => ⟨S512x512, .f32⟩
  | 30 => ⟨S512x512, .f32⟩
  | 31 => ⟨S512x512, .f32⟩
  | 32 => ⟨S512x512, .f32⟩
  | 33 => ⟨S512x512, .f32⟩
  | 34 => ⟨S_, .f32⟩
  | 35 => ⟨S512x512, .f32⟩
  | 36 => ⟨S512x512, .f32⟩
  | 37 => ⟨S512x512, .f32⟩
  | 38 => ⟨S512x512, .f32⟩
  | 39 => ⟨S512x512, .f32⟩
  | 40 => ⟨S512x512, .f32⟩
  | 41 => ⟨S_, .f32⟩
  | 42 => ⟨S512x512, .f32⟩
  | 43 => ⟨S512x512, .f32⟩
  | 44 => ⟨S512x512, .i32⟩
  | 45 => ⟨S512x512, .i32⟩
  | 46 => ⟨S_, .i32⟩
  | 47 => ⟨S512x512, .i32⟩
  | 48 => ⟨S512x512, .i32⟩
  | 49 => ⟨S512x512, .i1⟩
  | 50 => ⟨S512x512, .f32⟩
  | 51 => ⟨S1x512x512, .f32⟩
  | 52 => ⟨S512x1x512, .f32⟩
  | 53 => ⟨S512x512x512, .f32⟩
  | 54 => ⟨S512x512x512, .f32⟩
  | 55 => ⟨S512x512x512, .f32⟩
  | 56 => ⟨S512x1, .f32⟩
  | 57 => ⟨S512x1, .f32⟩
  | 58 => ⟨S_, .f32⟩
  | 59 => ⟨S512x1, .f32⟩
  | 60 => ⟨S512x1, .f32⟩
  | 61 => ⟨S_, .f32⟩
  | 62 => ⟨S1, .f32⟩
  | 63 => ⟨S1x1, .f32⟩
  | 64 => ⟨S512x1, .f32⟩
  | 65 => ⟨S512x1, .f32⟩
  | 66 => ⟨S512x1, .f32⟩
  | 67 => ⟨S512x1, .f32⟩
  | 68 => ⟨S512x1, .f32⟩
  | 69 => ⟨S_, .f32⟩
  | 70 => ⟨S512x1, .f32⟩
  | 71 => ⟨S512x1, .f32⟩
  | 72 => ⟨S512x1, .f32⟩
  | 73 => ⟨S512x1, .f32⟩
  | 74 => ⟨S512x1, .f32⟩
  | 75 => ⟨S_, .f32⟩
  | 76 => ⟨S512x1, .f32⟩
  | 77 => ⟨S512x1, .f32⟩
  | 78 => ⟨S512x1, .f32⟩
  | 79 => ⟨S512x1, .f32⟩
  | 80 => ⟨S512x1, .i1⟩
  | 81 => ⟨S512x1, .f32⟩
  | 82 => ⟨S512x1, .f32⟩
  | 83 => ⟨S512x1, .f32⟩
  | 84 => ⟨S512x1, .f32⟩
  | 85 => ⟨S512x1, .f32⟩
  | 86 => ⟨S512x1, .f32⟩
  | 87 => ⟨S512x1, .f32⟩
  | 88 => ⟨S512x1, .f32⟩
  | 89 => ⟨S512x1, .f32⟩
  | 90 => ⟨S512x1, .f32⟩
  | 91 => ⟨S512x1, .f32⟩
  | 92 => ⟨S_, .f32⟩
  | 93 => ⟨S512x1, .f32⟩
  | 94 => ⟨S512x1, .f32⟩
  | 95 => ⟨S512x1, .f32⟩
  | 96 => ⟨S512x1, .f32⟩
  | 97 => ⟨S512x1, .i1⟩
  | 98 => ⟨S512x1, .f32⟩
  | 99 => ⟨S512x1, .f32⟩
  | 100 => ⟨S512x1, .f32⟩
  | 101 => ⟨S512x1, .f32⟩
  | 102 => ⟨S512x1, .f32⟩
  | 103 => ⟨S512x1, .f32⟩
  | 104 => ⟨S512x1, .f32⟩
  | 105 => ⟨S512x1, .f32⟩
  | 106 => ⟨S512x1, .f32⟩
  | 107 => ⟨S512, .f32⟩
  | 108 => ⟨S512, .f32⟩
  | 109 => ⟨S512, .f32⟩
  | 110 => ⟨S_, .f32⟩
  | 111 => ⟨S512, .f32⟩
  | 112 => ⟨S512, .f32⟩
  | 113 => ⟨S512, .f32⟩
  | 114 => ⟨S512, .f32⟩
  | 115 => ⟨S512, .f32⟩
  | 116 => ⟨S_, .f32⟩
  | 117 => ⟨S_, .f32⟩
  | 118 => ⟨S_, .f32⟩
  | 119 => ⟨S_, .f32⟩
  | 120 => ⟨S_, .f32⟩
  | 121 => ⟨S512x1, .f32⟩
  | 122 => ⟨S512x1, .f32⟩
  | 123 => ⟨S_, .f32⟩
  | 124 => ⟨S512x1, .f32⟩
  | 125 => ⟨S512x1, .f32⟩
  | 126 => ⟨S_, .f32⟩
  | 127 => ⟨S512x1, .f32⟩
  | _ => ⟨S512x784, .f32⟩

abbrev hbmTy0_2 (i : Nat) : BufTy := match i % 128 with
  | 0 => ⟨S512x1, .f32⟩
  | 1 => ⟨S_, .f32⟩
  | 2 => ⟨S512x1, .f32⟩
  | 3 => ⟨S512x1, .i1⟩
  | 4 => ⟨S512x1, .f32⟩
  | 5 => ⟨S512x1, .f32⟩
  | 6 => ⟨S512x1, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | _ => ⟨S512x784, .f32⟩

abbrev hbmTy (i : Nat) : BufTy := match i / 128 with
  | 0 => hbmTy0_0 i
  | 1 => hbmTy0_1 i
  | 2 => hbmTy0_2 i
  | _ => ⟨S512x784, .f32⟩

abbrev bufTy : (tb : Table) → Fin (tcTables nBuf tb) → BufTy
  | .hbm, ⟨i, _⟩ => hbmTy i
  | _, _ => ⟨S512x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_v14 : Ref sig .tc := ⟨.hbm, 34, rfl⟩
abbrev main_v15 : Ref sig .tc := ⟨.hbm, 35, rfl⟩
abbrev main_cst_5 : Ref sig .tc := ⟨.hbm, 36, rfl⟩
abbrev main_v16 : Ref sig .tc := ⟨.hbm, 37, rfl⟩
abbrev main_v17 : Ref sig .tc := ⟨.hbm, 38, rfl⟩
abbrev main_cst_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_7 : Ref sig .tc := ⟨.hbm, 44, rfl⟩
abbrev main_v22 : Ref sig .tc := ⟨.hbm, 45, rfl⟩
abbrev main_v23 : Ref sig .tc := ⟨.hbm, 46, rfl⟩
abbrev main_cst_8 : Ref sig .tc := ⟨.hbm, 47, rfl⟩
abbrev main_v24 : Ref sig .tc := ⟨.hbm, 48, rfl⟩
abbrev main_v25 : Ref sig .tc := ⟨.hbm, 49, rfl⟩
abbrev main_cst_9 : Ref sig .tc := ⟨.hbm, 50, rfl⟩
abbrev main_v26 : Ref sig .tc := ⟨.hbm, 51, rfl⟩
abbrev main_v27 : Ref sig .tc := ⟨.hbm, 52, rfl⟩
abbrev main_cst_10 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_11 : Ref sig .tc := ⟨.hbm, 58, rfl⟩
abbrev main_v32 : Ref sig .tc := ⟨.hbm, 59, rfl⟩
abbrev main_v33 : Ref sig .tc := ⟨.hbm, 60, rfl⟩
abbrev main_cst_12 : Ref sig .tc := ⟨.hbm, 61, rfl⟩
abbrev main_v34 : Ref sig .tc := ⟨.hbm, 62, rfl⟩
abbrev main_v35 : Ref sig .tc := ⟨.hbm, 63, rfl⟩
abbrev main_cst_13 : Ref sig .tc := ⟨.hbm, 64, rfl⟩
abbrev main_v36 : Ref sig .tc := ⟨.hbm, 65, rfl⟩
abbrev main_v37 : Ref sig .tc := ⟨.hbm, 66, rfl⟩
abbrev main_cst_14 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_15 : Ref sig .tc := ⟨.hbm, 72, rfl⟩
abbrev main_v42 : Ref sig .tc := ⟨.hbm, 73, rfl⟩
abbrev main_v43 : Ref sig .tc := ⟨.hbm, 74, rfl⟩
abbrev main_cst_16 : Ref sig .tc := ⟨.hbm, 75, rfl⟩
abbrev main_v44 : Ref sig .tc := ⟨.hbm, 76, rfl⟩
abbrev main_v45 : Ref sig .tc := ⟨.hbm, 77, rfl⟩
abbrev main_cst_17 : Ref sig .tc := ⟨.hbm, 78, rfl⟩
abbrev main_v46 : Ref sig .tc := ⟨.hbm, 79, rfl⟩
abbrev main_v47 : Ref sig .tc := ⟨.hbm, 80, rfl⟩
abbrev main_cst_18 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_19 : Ref sig .tc := ⟨.hbm, 87, rfl⟩
abbrev main_v53 : Ref sig .tc := ⟨.hbm, 88, rfl⟩
abbrev main_v54 : Ref sig .tc := ⟨.hbm, 89, rfl⟩
abbrev main_cst_20 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_21 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_22 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_23 : Ref sig .tc := ⟨.hbm, 109, rfl⟩
abbrev main_v71 : Ref sig .tc := ⟨.hbm, 110, rfl⟩
abbrev main_v72 : Ref sig .tc := ⟨.hbm, 111, rfl⟩
abbrev main_cst_24 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_25 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_26 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_27 : Ref sig .tc := ⟨.hbm, 132, rfl⟩
abbrev main_v90 : Ref sig .tc := ⟨.hbm, 133, rfl⟩
abbrev main_v91 : Ref sig .tc := ⟨.hbm, 134, rfl⟩
abbrev main_cst_28 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_29 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_30 : Ref sig .tc := ⟨.hbm, 151, rfl⟩
abbrev main_v106 : Ref sig .tc := ⟨.hbm, 152, rfl⟩
abbrev main_v107 : Ref sig .tc := ⟨.hbm, 153, rfl⟩
abbrev main_cst_31 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_32 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_33 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_c : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_34 : Ref sig .tc := ⟨.hbm, 186, rfl⟩
abbrev main_v136 : Ref sig .tc := ⟨.hbm, 187, rfl⟩
abbrev main_v137 : Ref sig .tc := ⟨.hbm, 188, rfl⟩
abbrev main_cst_35 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_cst_36 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_call0_v0 : Ref sig .tc := ⟨.hbm, 202, rfl⟩
abbrev main_call0_call0_cst : Ref sig .tc := ⟨.hbm, 203, rfl⟩
abbrev main_call0_call0_v0 : Ref sig .tc := ⟨.hbm, 204, rfl⟩
abbrev main_call0_call0_v1 : Ref sig .tc := ⟨.hbm, 205, rfl⟩
abbrev main_call0_call0_v2 : Ref sig .tc := ⟨.hbm, 206, rfl⟩
abbrev main_call0_call0_v3 : Ref sig .tc := ⟨.hbm, 207, rfl⟩
abbrev main_call0_call0_v4 : Ref sig .tc := ⟨.hbm, 208, rfl⟩
abbrev main_call0_call0_v5 : Ref sig .tc := ⟨.hbm, 209, rfl⟩
abbrev main_call0_call0_v6 : Ref sig .tc := ⟨.hbm, 210, rfl⟩
abbrev main_call0_call0_v7 : Ref sig .tc := ⟨.hbm, 211, rfl⟩
abbrev main_call0_call0_v8 : Ref sig .tc := ⟨.hbm, 212, rfl⟩
abbrev main_call0_call0_v9 : Ref sig .tc := ⟨.hbm, 213, rfl⟩
abbrev main_call0_call0_v10 : Ref sig .tc := ⟨.hbm, 214, rfl⟩
abbrev main_call0_call0_v11 : Ref sig .tc := ⟨.hbm, 215, rfl⟩
abbrev main_call0_v1 : Ref sig .tc := ⟨.hbm, 216, rfl⟩
abbrev main_v149 : Ref sig .tc := ⟨.hbm, 217, rfl⟩
abbrev main_v150 : Ref sig .tc := ⟨.hbm, 218, rfl⟩
abbrev main_call1_v0 : Ref sig .tc := ⟨.hbm, 219, rfl⟩
abbrev main_call1_call0_cst : Ref sig .tc := ⟨.hbm, 220, rfl⟩
abbrev main_call1_call0_v0 : Ref sig .tc := ⟨.hbm, 221, rfl⟩
abbrev main_call1_call0_v1 : Ref sig .tc := ⟨.hbm, 222, rfl⟩
abbrev main_call1_call0_v2 : Ref sig .tc := ⟨.hbm, 223, rfl⟩
abbrev main_call1_call0_v3 : Ref sig .tc := ⟨.hbm, 224, rfl⟩
abbrev main_call1_call0_v4 : Ref sig .tc := ⟨.hbm, 225, rfl⟩
abbrev main_call1_call0_v5 : Ref sig .tc := ⟨.hbm, 226, rfl⟩
abbrev main_call1_call0_v6 : Ref sig .tc := ⟨.hbm, 227, rfl⟩
abbrev main_call1_call0_v7 : Ref sig .tc := ⟨.hbm, 228, rfl⟩
abbrev main_call1_call0_v8 : Ref sig .tc := ⟨.hbm, 229, rfl⟩
abbrev main_call1_call0_v9 : Ref sig .tc := ⟨.hbm, 230, rfl⟩
abbrev main_call1_call0_v10 : Ref sig .tc := ⟨.hbm, 231, rfl⟩
abbrev main_call1_call0_v11 : Ref sig .tc := ⟨.hbm, 232, rfl⟩
abbrev main_call1_v1 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_cst_37 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_cst_38 : Ref sig .tc := ⟨.hbm, 244, rfl⟩
abbrev main_v160 : Ref sig .tc := ⟨.hbm, 245, rfl⟩
abbrev main_cst_39 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_cst_40 : Ref sig .tc := ⟨.hbm, 251, rfl⟩
abbrev main_v165 : Ref sig .tc := ⟨.hbm, 252, rfl⟩
abbrev main_v166 : Ref sig .tc := ⟨.hbm, 253, rfl⟩
abbrev main_cst_41 : Ref sig .tc := ⟨.hbm, 254, rfl⟩
abbrev main_v167 : Ref sig .tc := ⟨.hbm, 255, rfl⟩
abbrev main_v168 : Ref sig .tc := ⟨.hbm, 256, rfl⟩
abbrev main_cst_42 : Ref sig .tc := ⟨.hbm, 257, rfl⟩
abbrev main_v169 : Ref sig .tc := ⟨.hbm, 258, rfl⟩
abbrev main_v170 : Ref sig .tc := ⟨.hbm, 259, rfl⟩
abbrev main_v171 : Ref sig .tc := ⟨.hbm, 260, rfl⟩
abbrev main_v172 : Ref sig .tc := ⟨.hbm, 261, rfl⟩
abbrev main_v173 : Ref sig .tc := ⟨.hbm, 262, rfl⟩
abbrev main_cst_43 : Ref sig .tc := ⟨.hbm, 263, rfl⟩
abbrev main_v174 : Ref sig .tc := ⟨.hbm, 264, rfl⟩
abbrev main_cst_44 : Ref sig .tc := ⟨.hbm, 265, rfl⟩
abbrev main_v175 : Ref sig .tc := ⟨.hbm, 266, rfl⟩
abbrev main_cst_45 : Ref sig .tc := ⟨.hbm, 267, rfl⟩
abbrev main_v176 : Ref sig .tc := ⟨.hbm, 268, rfl⟩

abbrev nD : Nat := 1
abbrev τ : Topo := Topo.v7x

variable {F : FTy → Type} [FloatOps F]

class Facts₀ : Prop where
  bcast_S_S784x512 : S_.BroadcastsInDim S784x512 (![] : Fin 0 → Fin S784x512.rank)
  bcast_S_S512x512 : S_.BroadcastsInDim S512x512 (![] : Fin 0 → Fin S512x512.rank)
  bcast_S_S512x1 : S_.BroadcastsInDim S512x1 (![] : Fin 0 → Fin S512x1.rank)
  bcast_S512_S512x1_0 : S512.BroadcastsInDim S512x1 (![0] : Fin 1 → Fin S512x1.rank)
  reducesTo_S784x512_S512_d0 : S784x512.ReducesTo [0] S512
  h_S_ : 0 < S_.numel
  bcast_S1x512_S512x512_0_1 : S1x512.BroadcastsInDim S512x512 (![0, 1] : Fin 2 → Fin S512x512.rank)
  bcast_S512_S1x512_1 : S512.BroadcastsInDim S1x512 (![1] : Fin 1 → Fin S1x512.rank)
  reducesTo_S512x512_S512_d0 : S512x512.ReducesTo [0] S512
  bcast_S512x512_S1x512x512_1_2 : S512x512.BroadcastsInDim S1x512x512 (![1, 2] : Fin 2 → Fin S1x512x512.rank)
  bcast_S512x512_S512x1x512_0_2 : S512x512.BroadcastsInDim S512x1x512 (![0, 2] : Fin 2 → Fin S512x1x512.rank)
  bcast_S1x512x512_S512x512x512_0_1_2 : S1x512x512.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  reducesTo_S512x1_S1_d0 : S512x1.ReducesTo [0] S1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  bcast_S_S512 : S_.BroadcastsInDim S512 (![] : Fin 0 → Fin S512.rank)
  reducesTo_S512_S_d0 : S512.ReducesTo [0] S_
  reducesTo_S512x1_S_d0_1 : S512x1.ReducesTo [0, 1] S_
  dot_S512x784_S784x512_S512x512_1_0_0_1_n_n_wf : DotDims.WF S512x784 S784x512 S512x512 [1] [0] [0] [1] [] []
  dot_S512x512_S512x512_S512x512_1_0_0_1_n_n_wf : DotDims.WF S512x512 S512x512 S512x512 [1] [0] [0] [1] [] []
  dot_S512x512_S512x1_S512x1_1_0_0_1_n_n_wf : DotDims.WF S512x512 S512x1 S512x1 [1] [0] [0] [1] [] []

variable [Facts₀]

def dot_S512x784_S784x512_S512x512_1_0_0_1_n_n : DotDims S512x784 S784x512 S512x512 where
  lhsContracting := [1]
  rhsContracting := [0]
  lhsNonContracting := [0]
  rhsNonContracting := [1]
  lhsBatch := []
  rhsBatch := []
  wf := dot_S512x784_S784x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf

class Facts : Prop extends Facts₀ where

variable [Facts]
-- ==== Proof.Spec.lean ====
/-
  The reference network as named stages.

  An expectation-backpropagation binary net, evaluated once: each weight matrix w gives the mean weight
  m = 2·σ(w) − 1; a layer takes the previous layer's mean activation x̄ and variance diagonal d and returns
  tanh(c · (x̄·m + θ) / √(d·m² + Σ_k (1 − m²)_k)), with c the word 0x3F4C422A; the first layer has no incoming
  variance; the head stops before the tanh.  Every stage below is the reference's own host operation, in its own
  order, so that its run reads back as these definitions by unfolding.
-/
import proofs.«173796_j40003325394948_2_alg».proof.ReferenceIdeal

noncomputable section

namespace Cert.Spec

open Idealize.ShloMosaic Cert.ReferenceIdeal Cert.ReferenceIdeal.Facts₀

variable {F : FTy → Type} [FloatOps F] [Cert.ReferenceIdeal.Facts]

/-- The scalar word w spread over a shape. -/
def splat (S : Shape) (h : S_.BroadcastsInDim S (![] : Fin 0 → Fin S.rank)) (w : BitVec 32) : FVec F S .f32 :=
  broadcastInDim S ![] h (constant S_ .f32 w)

/-- The mean weight 2·σ(w) − 1, with σ(w) = 1 / (1 + e^(−w)). -/
def meanW (S : Shape) (h : S_.BroadcastsInDim S (![] : Fin 0 → Fin S.rank)) (w : FVec F S .f32) : FVec F S .f32 :=
  subf (mulf (splat S h 0x40000000#32)
      (Host.divf (splat S h 0x3F800000#32) (addf (splat S h 0x3F800000#32) (Host.exp (Host.negf w)))))
    (splat S h 0x3F800000#32)

/-- 1 − t² entry by entry: the variance of a ±1 variable of mean t. -/
def oneMinusSq (S : Shape) (h : S_.BroadcastsInDim S (![] : Fin 0 → Fin S.rank)) (t : FVec F S .f32) : FVec F S .f32 :=
  subf (splat S h 0x3F800000#32) (mulf t t)

/-- A [1,512] row repeated down 512 rows. -/
def rows (v : FVec F S1x512 .f32) : FVec F S512x512 .f32 :=
  broadcastInDim S512x512 ![0, 1] bcast_S1x512_S512x512_0_1 v

/-- A length-512 vector as a [1,512] row. -/
def asRow (v : FVec F S512 .f32) : FVec F S1x512 .f32 :=
  broadcastInDim S1x512 ![1] bcast_S512_S1x512_1 v

/-- Column sums of 1 − m² for the 784×512 first-layer weights. -/
def colVar0 (m0 : FVec F S784x512 .f32) : FVec F S512 .f32 :=
  Host.reduceAdd (subf (splat S784x512 bcast_S_S784x512 0x3F800000#32) (mulf m0 m0)) (constant S_ .f32 0x00000000#32)
    reducesTo_S784x512_S512_d0 h_S_

/-- Column sums of 1 − q for a 512×512 matrix q of squared mean weights. -/
def colVar (q : FVec F S512x512 .f32) : FVec F S512 .f32 :=
  Host.reduceAdd (subf (splat S512x512 bcast_S_S512x512 0x3F800000#32) q) (constant S_ .f32 0x00000000#32)
    reducesTo_S512x512_S512_d0 h_S_

/-- The first layer's mean activation: tanh(c·(x·m0 + θ0) / √Σ_k(1 − m0²)). -/
def act0 (x : FVec F S512x784 .f32) (m0 : FVec F S784x512 .f32) (th0 : FVec F S1x512 .f32) : FVec F S512x512 .f32 :=
  Host.tanh (Host.divf
    (mulf (splat S512x512 bcast_S_S512x512 0x3F4C422A#32)
      (addf (Host.dotGeneral dot_S512x784_S784x512_S512x512_1_0_0_1_n_n none x m0) (rows th0)))
    (rows (asRow (Host.sqrt (colVar0 m0)))))

/-- The variance diagonal a layer sees: d·m² + Σ_k(1 − m²). -/
def preVar (d m : FVec F S512x512 .f32) : FVec F S512x512 .f32 :=
  addf (Host.dotGeneral dot_S512x512_S512x512_S512x512_1_0_0_1_n_n none d (mulf m m)) (rows (asRow (colVar (mulf m m))))

/-- The scaled pre-activation mean c·(x̄·m + θ). -/
def preMean (xb m : FVec F S512x512 .f32) (th : FVec F S1x512 .f32) : FVec F S512x512 .f32 :=
  mulf (splat S512x512 bcast_S_S512x512 0x3F4C422A#32)
    (addf (Host.dotGeneral dot_S512x512_S512x512_S512x512_1_0_0_1_n_n none xb m) (rows th))

/-- One hidden layer: tanh(c·(x̄·m + θ) / √(d·m² + Σ_k(1 − m²))). -/
def act (xb d m : FVec F S512x512 .f32) (th : FVec F S1x512 .f32) : FVec F S512x512 .f32 :=
  Host.tanh (Host.divf (preMean xb m th) (Host.sqrt (preVar d m)))

/-- The identity matrix as the reference builds it: rows and columns compared. -/
def eye : FVec F S512x512 .f32 :=
  uitofp .f32 (cmpi .eq (addi (iotaInDim S512x512 32 0)
    (broadcastInDim S512x512 ![] bcast_S_S512x512 (constantI S_ 32 0#32))) (iotaInDim S512x512 32 1))

/-- The dense covariance output: entry (i,a,b) is eye(a,b)·d(i,b). -/
def diagEmbed (d : FVec F S512x512 .f32) : FVec F S512x512x512 .f32 :=
  mulf (broadcastInDim S512x512x512 ![0, 1, 2] bcast_S1x512x512_S512x512x512_0_1_2
        (broadcastInDim S1x512x512 ![1, 2] bcast_S512x512_S1x512x512_1_2 (eye (F := F))))
    (broadcastInDim S512x512x512 ![0, 1, 2] bcast_S512x1x512_S512x512x512_0_1_2
        (broadcastInDim S512x1x512 ![0, 2] bcast_S512x512_S512x1x512_0_2 d))

/-- A [1,1] value repeated down a [512,1] column. -/
def col1 (v : FVec F S1x1 .f32) : FVec F S512x1 .f32 :=
  broadcastInDim S512x1 ![0, 1] bcast_S1x1_S512x1_0_1 v

/-- The head's variance d·mℓ² + Σ_k(1 − mℓ²), a [512,1] column. -/
def headVar (d : FVec F S512x512 .f32) (ml : FVec F S512x1 .f32) : FVec F S512x1 .f32 :=
  addf (Host.dotGeneral dot_S512x512_S512x1_S512x1_1_0_0_1_n_n none d (mulf ml ml))
    (col1 (broadcastInDim S1x1 ![1] bcast_S1_S1x1_1
      (Host.reduceAdd (subf (splat S512x1 bcast_S_S512x1 0x3F800000#32) (mulf ml ml)) (constant S_ .f32 0x00000000#32)
        reducesTo_S512x1_S1_d0 h_S_)))

/-- The head's mean x̄·mℓ + θℓ (the first result). -/
def headMean (xb : FVec F S512x512 .f32) (ml : FVec F S512x1 .f32) (thl : FVec F S1x1 .f32) : FVec F S512x1 .f32 :=
  addf (Host.dotGeneral dot_S512x512_S512x1_S512x1_1_0_0_1_n_n none xb ml) (col1 thl)

/-- The head's standardized mean c·h̄ / √var. -/
def headStd (hbar var : FVec F S512x1 .f32) : FVec F S512x1 .f32 :=
  Host.divf (mulf (splat S512x1 bcast_S_S512x1 0x3F4C422A#32) hbar) (Host.sqrt var)

/-- softplus as the reference's library spells it: max(a,0) + log1p(e^(−|a − 0|)), guarded by a ≠ a. -/
def softplus (a : FVec F S512x1 .f32) : FVec F S512x1 .f32 :=
  select (cmpf .une (subf a (splat S512x1 bcast_S_S512x1 0x00000000#32)) (subf a (splat S512x1 bcast_S_S512x1 0x00000000#32)))
    (addf a (splat S512x1 bcast_S_S512x1 0x00000000#32))
    (addf (maximumf a (splat S512x1 bcast_S_S512x1 0x00000000#32))
      (Host.log1p (Host.exp (Host.negf (Host.absf (subf a (splat S512x1 bcast_S_S512x1 0x00000000#32)))))))

/-- log σ(h) = −softplus(−h). -/
def logSigmoid (h : FVec F S512x1 .f32) : FVec F S512x1 .f32 :=
  Host.negf (softplus (Host.negf h))

/-- The labels as a [512,1] float column. -/
def labels (target : IVec S512 32) : FVec F S512x1 .f32 :=
  broadcastInDim S512x1 ![0] bcast_S512_S512x1_0 (sitofp .f32 target)

/-- The expected loss −mean(y·log p + (1 − y)·log q) with log q = log σ(−h). -/
def loss (target : IVec S512 32) (logp h : FVec F S512x1 .f32) : FVec F S_ .f32 :=
  Host.negf (Host.divf
    (Host.reduceAdd
      (addf (mulf (shapeCast S512 (labels (F := F) target) shapeCasts_S512x1_S512) (shapeCast S512 logp shapeCasts_S512x1_S512))
        (mulf (subf (splat S512 bcast_S_S512 0x3F800000#32) (shapeCast S512 (labels (F := F) target) shapeCasts_S512x1_S512))
          (shapeCast S512 (logSigmoid (Host.negf h)) shapeCasts_S512x1_S512)))
      (constant S_ .f32 0x00000000#32) reducesTo_S512_S_d0 h_S_)
    (constant S_ .f32 0x44000000#32))

/-- The fraction of samples whose thresholded prediction σ(h) > 1/2 equals the label. -/
def fracCorrect (target : IVec S512 32) (h : FVec F S512x1 .f32) : FVec F S_ .f32 :=
  Host.divf
    (subf (constant S_ .f32 0x44000000#32)
      (Host.reduceAdd
        (Host.absf (subf
          (uitofp .f32 (cmpf .ogt
            (Host.divf (splat S512x1 bcast_S_S512x1 0x3F800000#32)
              (addf (splat S512x1 bcast_S_S512x1 0x3F800000#32) (Host.exp (Host.negf h))))
            (splat S512x1 bcast_S_S512x1 0x3F000000#32)))
          (labels (F := F) target)))
        (constant S_ .f32 0x00000000#32) reducesTo_S512x1_S_d0_1 h_S_))
    (constant S_ .f32 0x44000000#32)

/-! ## The network -/

section Net
variable (x : FVec F S512x784 .f32) (w0 : FVec F S784x512 .f32) (w1 w2 w3 : FVec F S512x512 .f32)
  (wl : FVec F S512x1 .f32) (th0 th1 th2 th3 : FVec F S1x512 .f32) (thl : FVec F S1x1 .f32)

def m0 : FVec F S784x512 .f32 := meanW S784x512 bcast_S_S784x512 w0
def mk (w : FVec F S512x512 .f32) : FVec F S512x512 .f32 := meanW S512x512 bcast_S_S512x512 w
def ml : FVec F S512x1 .f32 := meanW S512x1 bcast_S_S512x1 wl
def var (t : FVec F S512x512 .f32) : FVec F S512x512 .f32 := oneMinusSq S512x512 bcast_S_S512x512 t

def x1 : FVec F S512x512 .f32 := act0 x (m0 w0) th0
def x2 : FVec F S512x512 .f32 := act (x1 x w0 th0) (var (x1 x w0 th0)) (mk w1) th1
def x3 : FVec F S512x512 .f32 := act (x2 x w0 w1 th0 th1) (var (x2 x w0 w1 th0 th1)) (mk w2) th2
/-- The fourth activation takes the variance of the SECOND (the source network's own quirk). -/
def x4 : FVec F S512x512 .f32 := act (x3 x w0 w1 w2 th0 th1 th2) (var (x2 x w0 w1 th0 th1)) (mk w3) th3
def d4 : FVec F S512x512 .f32 := var (x4 x w0 w1 w2 w3 th0 th1 th2 th3)
def hbar : FVec F S512x1 .f32 := headMean (x4 x w0 w1 w2 w3 th0 th1 th2 th3) (ml wl) thl
def hstd : FVec F S512x1 .f32 :=
  headStd (hbar x w0 w1 w2 w3 wl th0 th1 th2 th3 thl) (headVar (d4 x w0 w1 w2 w3 th0 th1 th2 th3) (ml wl))

end Net

end Cert.Spec

end
-- ==== Proof.RefOps.lean ====
/-
  The reference program's @main as one straight line of host operations.

  @main is 225 operations printed in four consecutive windows; two of them are calls of @log_sigmoid, which
  negates its operand, calls @softplus on that, and negates the result.  A call executes the callee's body on the
  call's own buffers, so each call is written out here as the sixteen operations it runs (one negation, softplus's
  fourteen, one negation) over that call's record.  The line is then 255 operations,
  `ops0 ++ ops1 ++ ops2 ++ ops3`, the last window itself cut before the first call and after the second:
  `ops3 = ops3a ++ ops3b ++ ops3c`.

  What is proved: @main is `seq ops`; every operation touches TensorCore references only and allocates nothing;
  hence (`run_seq`) every weakly fair execution terminates with every buffer at the fold `after ops` of the
  launch contents.
-/
import proofs.«173796_j40003325394948_2_alg».proof.ReferenceIdeal
import Idealize.ShloMosaic.Lib.StableHlo.Run
import Idealize.ShloMosaic.Lib.Pipeline.Frame

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- The line's operations 1 … 60 of 255 (@main's window 0). -/
abbrev ops0 : List (HloOp τ sig (Elt F)) :=
  [ StableHlo.unary main_arg1 main_v0 (Host.negf : (⟨S784x512, .f32⟩ : BufTy).Contents (Elt F) → (⟨S784x512, .f32⟩ : BufTy).Contents (Elt F)),
    StableHlo.unary main_v0 main_v1 (Host.exp : (⟨S784x512, .f32⟩ : BufTy).Contents (Elt F) → (⟨S784x512, .f32⟩ : BufTy).Contents (Elt F)),
    StableHlo.nullary main_cst (constant S_ .f32 0x3F800000#32),
    StableHlo.unary main_cst main_v2 (broadcastInDim S784x512 ![] bcast_S_S784x512 : (⟨S_, .f32⟩ : BufTy).Contents (Elt F) → (⟨S784x512, .f32⟩ : BufTy).Contents (Elt F)),
    StableHlo.binary main_v2 main_v1 main_v3 (addf : (⟨S784x512, .f32⟩ : BufTy).Contents (Elt F) → (⟨S784x512, .f32⟩ : BufTy).Contents (Elt F) → (⟨S784x512, .f32⟩ : BufTy).Contents (Elt F)),
    StableHlo.nullary main_cst_0 (constant S_ .f32 0x3F800000#32),
    StableHlo.unary main_cst_0 main_v4 (broadcastInDim S784x512 ![] bcast_S_S784x512 : (⟨S_, .f32⟩ : BufTy).Contents (Elt F) → (⟨S784x512, .f32⟩ : BufTy).Contents (Elt F)),
    StableHlo.binary main_v4 main_v3 main_v5 (Host.divf : (⟨S784x512, .f32⟩ : BufTy).Contents (Elt F) → (⟨S784x512, .f32⟩ : BufTy).Contents (Elt F) → (⟨S784x512, .f32⟩ : BufTy).Contents (Elt F)),
    StableHlo.nullary main_cst_1 (constant S_ .f32 0x40000000#32),
    StableHlo.unary main_cst_1 main_v6 (broadcastInDim S784x512 ![] bcast_S_S784x512 : (⟨S_, .f32⟩ : BufTy).Contents (Elt F) → (⟨S784x512, .f32⟩ : BufTy).Contents (Elt F)),
    StableHlo.binary main_v6 main_v5 main_v7 (mulf : (⟨S784x512, .f32⟩ : BufTy).Contents (Elt F) → (⟨S784x512, .f32⟩ : BufTy).Contents (Elt F) → (⟨S784x512, .f32⟩ : BufTy).Contents (Elt F)),
    StableHlo.nullary main_cst_2 (constant S_ .f32 0x3F800000#32),
    StableHlo.unary main_cst_2 main_v8 (broadcastInDim S784x512 ![] bcast_S_S784x512 : (⟨S_, .f32⟩ : BufTy).Contents (Elt F) → (⟨S784x512, .f32⟩ : BufTy).Contents (Elt F)),
    StableHlo.binary main_v7 main_v8 main_v9 (subf : (⟨S784x512, .f32⟩ : BufTy).Contents (Elt F) → (⟨S784x512, .f32⟩ : BufTy).Contents (Elt F) → (⟨S784x512, .f32⟩ : BufTy).Contents (Elt F)),
    StableHlo.unary main_arg2 main_v10 (Host.negf : (⟨S512x512, .f32⟩ : BufTy).Contents (Elt F) → (⟨S512x512, .f32⟩ : BufTy).Contents (Elt F)),
    StableHlo.unary main_v10 main_v11 (Host.exp : (⟨S512x512, .f32⟩ : BufTy).Contents (Elt F) → (⟨S512x512, .f32⟩ : BufTy).Contents (Elt F)),
    StableHlo.nullary main_cst_3 (constant S_ .f32 0x3F800000#32),
    StableHlo.unary main_cst_3 main_v12 (broadcastInDim S512x512 ![] bcast_S_S512x512 : (⟨S_, .f32⟩ : BufTy).Contents (Elt F) → (⟨S512x512, .f32⟩ : BufTy).Contents (Elt F)),
    StableHlo.binary main_v12 main_v11 main_v13 (addf : (⟨S512x512, .f32⟩ : BufTy).Contents (Elt F) → (⟨S512x512, .f32⟩ : BufTy).Contents (Elt F) → (⟨S512x512, .f32⟩ : BufTy).Contents (Elt F)),
    StableHlo.nullary main_cst_4 (constant S_ .f32 0x3F800000#32),
    StableHlo.unary main_cst_4 main_v14 (broadcastInDim S512x512 ![] bcast_S_S512x512 : (⟨S_, .f32⟩ : BufTy).Contents (Elt F) → (⟨S512x512, .f32⟩ : BufTy).Contents (Elt F)),
    StableHlo.binary main_v14 main_v13 main_v15 (Host.divf : (⟨S512x512, .f32⟩ : BufTy).Contents (Elt F) → (⟨S512x512, .f32⟩ : BufTy).Contents (Elt F) → (⟨S512x512, .f32⟩ : BufTy).Contents (Elt F)),
    StableHlo.nullary main_cst_5 (constant S_ .f32 0x40000000#32),
    StableHlo.unary main_cst_5 main_v16 (broadcastInDim S512x512 ![] bcast_S_S512x512 : (⟨S_, .f32⟩ : BufTy).Contents (Elt F) → (⟨S512x512, .f32⟩ : BufTy).Contents (Elt F)),
    StableHlo.binary main_v16 main_v15 main_v17 (mulf : (⟨S512x512, .f32⟩ : BufTy).Contents (Elt F) → (⟨S512x512, .f32⟩ : BufTy).Contents (Elt F) → (⟨S512x512, .f32⟩ : BufTy).Contents (Elt F)),
    StableHlo.nullary main_cst_6 (constant S_ .f32 0x3F800000#32),
    StableHlo.unary main_cst_6 main_v18 (broadcastInDim S512x512 ![] bcast_S_S512x512 : (⟨S_, .f32⟩ : BufTy).Contents (Elt F) → (⟨S512x512, .f32⟩ : BufTy).Contents (Elt F)),
    StableHlo.binary main_v17 main_v18 main_v19 (subf : (⟨S512x512, .f32⟩ : BufTy).Contents (Elt F) → (⟨S512x512, .f32⟩ : BufTy).Contents (Elt F) → (⟨S512x512, .f32⟩ : BufTy).Contents (Elt F)),
    StableHlo.unary main_arg3 main_v20 (Host.negf : (⟨S512x512, .f32⟩ : BufTy).Contents (Elt F) → (⟨S512x512, .f32⟩ : BufTy).Contents (Elt F)),
    StableHlo.unary main_v20 main_v21 (Host.exp : (⟨S512x512, .f32⟩ : BufTy).Contents (Elt F) → (⟨S512x512, .f32⟩ : BufTy).Contents (Elt F)),
    StableHlo.nullary main_cst_7 (constant S_ .f32 0x3F800000#32),
    StableHlo.unary main_cst_7 main_v22 (broadcastInDim S512x512 ![] bcast_S_S512x512 : (⟨S_, .f32⟩ : BufTy).Contents (Elt F) → (⟨S512x512, .f32⟩ : BufTy).Contents (Elt F)),
    StableHlo.binary main_v22 main_v21 main_v23 (addf : (⟨S512x512, .f32⟩ : BufTy).Contents (Elt F) → (⟨S512x512, .f32⟩ : BufTy).Contents (Elt F) → (⟨S512x512, .f32⟩ : BufTy).Contents (Elt F)),
    StableHlo.nullary main_cst_8 (constant S_ .f32 0x3F800000#32),
    StableHlo.unary main_cst_8 main_v24 (broadcastInDim S512x512 ![] bcast_S_S512x512 : (⟨S_, .f32⟩ : BufTy).Contents (Elt F) → (⟨S512x512, .f32⟩ : BufTy).Contents (Elt F)),
    StableHlo.binary main_v24 main_v23 main_v25 (Host.divf : (⟨S512x512, .f32⟩ : BufTy).Contents (Elt F) → (⟨S512x512, .f32⟩ : BufTy).Contents (Elt F) → (⟨S512x512, .f32⟩ : BufTy).Contents (Elt F)),
    StableHlo.nullary main_cst_9 (constant S_ .f32 0x40000000#32),
    StableHlo.unary main_cst_9 main_v26 (broadcastInDim S512x512 ![] bcast_S_S512x512 : (⟨S_, .f32⟩ : BufTy).Contents (Elt F) → (⟨S512x512, .f32⟩ : BufTy).Contents (Elt F)),
    StableHlo.binary main_v26 main_v25 main_v27 (mulf : (⟨S512x512, .f32⟩ : BufTy).Contents (Elt F) → (⟨S512x512, .f32⟩ : BufTy).Contents (Elt F) → (⟨S512x512, .f32⟩ : BufTy).Contents (Elt F)),
    StableHlo.nullary main_cst_10 (constant S_ .f32 0x3F800000#32),
    StableHlo.unary main_cst_10 main_v28 (broadcastInDim S512x512 ![] bcast_S_S512x512 : (⟨S_, .f32⟩ : BufTy).Contents (Elt F) → (⟨S512x512, .f32⟩ : BufTy).Contents (Elt F)),
    StableHlo.binary main_v27 main_v28 main_v29 (subf : (⟨S512x512, .f32⟩ : BufTy).Contents (Elt F) → (⟨S512x512, .f32⟩ : BufTy).Contents (Elt F) → (⟨S512x512, .f32⟩ : BufTy).Contents (Elt F)),
    StableHlo.unary main_arg4 main_v30 (Host.negf : (⟨S512x512, .f32⟩ : BufTy).Contents (Elt F) → (⟨S512x512, .f32⟩ : BufTy).Contents (Elt F)),
    StableHlo.unary main_v30 main_v31 (Host.exp : (⟨S512x512, .f32⟩ : BufTy).Contents (Elt F) → (⟨S512x512, .f32⟩ : BufTy).Contents (Elt F)),
    StableHlo.nullary main_cst_11 (constant S_ .f32 0x3F800000#32),
    StableHlo.unary main_cst_11 main_v32 (broadcastInDim S512x512 ![] bcast_S_S512x512 : (⟨S_, .f32⟩ : BufTy).Contents (Elt F) → (⟨S512x512, .f32⟩ : BufTy).Contents (Elt F)),
    StableHlo.binary main_v32 main_v31 main_v33 (addf : (⟨S512x512, .f32⟩ : BufTy).Contents (Elt F) → (⟨S512x512, .f32⟩ : BufTy).Contents (Elt F) → (⟨S512x512, .f32⟩ : BufTy).Contents (Elt F)),
    StableHlo.nullary main_cst_12 (constant S_ .f32 0x3F800000#32),
    StableHlo.unary main_cst_12 main_v34 (broadcastInDim S512x512 ![] bcast_S_S512x512 : (⟨S_, .f32⟩ : BufTy).Contents (Elt F) → (⟨S512x512, .f32⟩ : BufTy).Contents (Elt F)),
    StableHlo.binary main_v34 main_v33 main_v35 (Host.divf : (⟨S512x512, .f32⟩ : BufTy).Contents (Elt F) → (⟨S512x512, .f32⟩ : BufTy).Contents (Elt F) → (⟨S512x512, .f32⟩ : BufTy).Contents (Elt F)),
    StableHlo.nullary main_cst_13 (constant S_ .f32 0x40000000#32),
    StableHlo.unary main_cst_13 main_v36 (broadcastInDim S512x512 ![] bcast_S_S512x512 : (⟨S_, .f32⟩ : BufTy).Contents (Elt F) → (⟨S512x512, .f32⟩ : BufTy).Contents (Elt F)),
    StableHlo.binary main_v36 main_v35 main_v37 (mulf : (⟨S512x512, .f32⟩ : BufTy).Contents (Elt F) → (⟨S512x512, .f32⟩ : BufTy).Contents (Elt F) → (⟨S512x512, .f32⟩ : BufTy).Contents (Elt F)),
    StableHlo.nullary main_cst_14 (constant S_ .f32 0x3F800000#32),
    StableHlo.unary main_cst_14 main_v38 (broadcastInDim S512x512 ![] bcast_S_S512x512 : (⟨S_, .f32⟩ : BufTy).Contents (Elt F) → (⟨S512x512, .f32⟩ : BufTy).Contents (Elt F)),
    StableHlo.binary main_v37 main_v38 main_v39 (subf : (⟨S512x512, .f32⟩ : BufTy).Contents (Elt F) → (⟨S512x512, .f32⟩ : BufTy).Contents (Elt F) → (⟨S512x512, .f32⟩ : BufTy).Contents (Elt F)),
    StableHlo.unary main_arg6 main_v40 (Host.negf : (⟨S512x1, .f32⟩ : BufTy).Contents (Elt F) → (⟨S512x1, .f32⟩ : BufTy).Contents (Elt F)),
    StableHlo.unary main_v40 main_v41 (Host.exp : (⟨S512x1, .f32⟩ : BufTy).Contents (Elt F) → (⟨S512x1, .f32⟩ : BufTy).Contents (Elt F)),
    StableHlo.nullary main_cst_15 (constant S_ .f32 0x3F800000#32),
    StableHlo.unary main_cst_15 main_v42 (broadcastInDim S512x1 ![] bcast_S_S512x1 : (⟨S_, .f32⟩ : BufTy).Contents (Elt F) → (⟨S512x1, .f32⟩ : BufTy).Contents (Elt F)) ]

/-- The line's operations 61 … 120 of 255 (@main's window 1). -/
abbrev ops1 : List (HloOp τ sig (Elt F)) :=
  [ StableHlo.binary main_v42 main_v41 main_v43 (addf : (⟨S512x1, .f32⟩ : BufTy).Contents (Elt F) → (⟨S512x1, .f32⟩ : BufTy).Contents (Elt F) → (⟨S512x1, .f32⟩ : BufTy).Contents (Elt F)),
    StableHlo.nullary main_cst_16 (constant S_ .f32 0x3F800000#32),
    StableHlo.unary main_cst_16 main_v44 (broadcastInDim S512x1 ![] bcast_S_S512x1 : (⟨S_, .f32⟩ : BufTy).Contents (Elt F) → (⟨S512x1, .f32⟩ : BufTy).Contents (Elt F)),
    StableHlo.binary main_v44 main_v43 main_v45 (Host.divf : (⟨S512x1, .f32⟩ : BufTy).Contents (Elt F) → (⟨S512x1, .f32⟩ : BufTy).Contents (Elt F) → (⟨S512x1, .f32⟩ : BufTy).Contents (Elt F)),
    StableHlo.nullary main_cst_17 (constant S_ .f32 0x40000000#32),
    StableHlo.unary main_cst_17 main_v46 (broadcastInDim S512x1 ![] bcast_S_S512x1 : (⟨S_, .f32⟩ : BufTy).Contents (Elt F) → (⟨S512x1, .f32⟩ : BufTy).Contents (Elt F)),
    StableHlo.binary main_v46 main_v45 main_v47 (mulf : (⟨S512x1, .f32⟩ : BufTy).Contents (Elt F) → (⟨S512x1, .f32⟩ : BufTy).Contents (Elt F) → (⟨S512x1, .f32⟩ : BufTy).Contents (Elt F)),
    StableHlo.nullary main_cst_18 (constant S_ .f32 0x3F800000#32),
    StableHlo.unary main_cst_18 main_v48 (broadcastInDim S512x1 ![] bcast_S_S512x1 : (⟨S_, .f32⟩ : BufTy).Contents (Elt F) → (⟨S512x1, .f32⟩ : BufTy).Contents (Elt F)),
    StableHlo.binary main_v47 main_v48 main_v49 (subf : (⟨S512x1, .f32⟩ : BufTy).Contents (Elt F) → (⟨S512x1, .f32⟩ : BufTy).Contents (Elt F) → (⟨S512x1, .f32⟩ : BufTy).Contents (Elt F)),
    StableHlo.unary main_arg13 main_v50 (sitofp .f32 : (⟨S512, .i32⟩ : BufTy).Contents (Elt F) → (⟨S512, .f32⟩ : BufTy).Contents (Elt F)),
    StableHlo.unary main_v50 main_v51 (broadcastInDim S512x1 ![0] bcast_S512_S512x1_0 : (⟨S512, .f32⟩ : BufTy).Contents (Elt F) → (⟨S512x1, .f32⟩ : BufTy).Contents (Elt F)),
    StableHlo.binary main_v9 main_v9 main_v52 (mulf : (⟨S784x512, .f32⟩ : BufTy).Contents (Elt F) → (⟨S784x512, .f32⟩ : BufTy).Contents (Elt F) → (⟨S784x512, .f32⟩ : BufTy).Contents (Elt F)),
    StableHlo.nullary main_cst_19 (constant S_ .f32 0x3F800000#32),
    StableHlo.unary main_cst_19 main_v53 (broadcastInDim S784x512 ![] bcast_S_S784x512 : (⟨S_, .f32⟩ : BufTy).Contents (Elt F) → (⟨S784x512, .f32⟩ : BufTy).Contents (Elt F)),
    StableHlo.binary main_v53 main_v52 main_v54 (subf : (⟨S784x512, .f32⟩ : BufTy).Contents (Elt F) → (⟨S784x512, .f32⟩ : BufTy).Contents (Elt F) → (⟨S784x512, .f32⟩ : BufTy).Contents (Elt F)),
    StableHlo.nullary main_cst_20 (constant S_ .f32 0x00000000#32),
    StableHlo.binary main_v54 main_cst_20 main_v55 ((fun x v => Host.reduceAdd x v reducesTo_S784x512_S512_d0 h_S_) : (⟨S784x512, .f32⟩ : BufTy).Contents (Elt F) → (⟨S_, .f32⟩ : BufTy).Contents (Elt F) → (⟨S512, .f32⟩ : BufTy).Contents (Elt F)),
    StableHlo.binary main_arg0 main_v9 main_v56 ((fun l r => Host.dotGeneral dot_S512x784_S784x512_S512x512_1_0_0_1_n_n none l r) : (⟨S512x784, .f32⟩ : BufTy).Contents (Elt F) → (⟨S784x512, .f32⟩ : BufTy).Contents (Elt F) → (⟨S512x512, .f32⟩ : BufTy).Contents (Elt F)),
    StableHlo.unary main_arg7 main_v57 (broadcastInDim S512x512 ![0, 1] bcast_S1x512_S512x512_0_1 : (⟨S1x512, .f32⟩ : BufTy).Contents (Elt F) → (⟨S512x512, .f32⟩ : BufTy).Contents (Elt F)),
    StableHlo.binary main_v56 main_v57 main_v58 (addf : (⟨S512x512, .f32⟩ : BufTy).Contents (Elt F) → (⟨S512x512, .f32⟩ : BufTy).Contents (Elt F) → (⟨S512x512, .f32⟩ : BufTy).Contents (Elt F)),
    StableHlo.nullary main_cst_21 (constant S_ .f32 0x3F4C422A#32),
    StableHlo.unary main_cst_21 main_v59 (broadcastInDim S512x512 ![] bcast_S_S512x512 : (⟨S_, .f32⟩ : BufTy).Contents (Elt F) → (⟨S512x512, .f32⟩ : BufTy).Contents (Elt F)),
    StableHlo.binary main_v59 main_v58 main_v60 (mulf : (⟨S512x512, .f32⟩ : BufTy).Contents (Elt F) → (⟨S512x512, .f32⟩ : BufTy).Contents (Elt F) → (⟨S512x512, .f32⟩ : BufTy).Contents (Elt F)),
    StableHlo.unary main_v55 main_v61 (Host.sqrt : (⟨S512, .f32⟩ : BufTy).Contents (Elt F) → (⟨S512, .f32⟩ : BufTy).Contents (Elt F)),
    StableHlo.unary main_v61 main_v62 (broadcastInDim S1x512 ![1] bcast_S512_S1x512_1 : (⟨S512, .f32⟩ : BufTy).Contents (Elt F) → (⟨S1x512, .f32⟩ : BufTy).Contents (Elt F)),
    StableHlo.unary main_v62 main_v63 (broadcastInDim S512x512 ![0, 1] bcast_S1x512_S512x512_0_1 : (⟨S1x512, .f32⟩ : BufTy).Contents (Elt F) → (⟨S512x512, .f32⟩ : BufTy).Contents (Elt F)),
    StableHlo.binary main_v60 main_v63 main_v64 (Host.divf : (⟨S512x512, .f32⟩ : BufTy).Contents (Elt F) → (⟨S512x512, .f32⟩ : BufTy).Contents (Elt F) → (⟨S512x512, .f32⟩ : BufTy).Contents (Elt F)),
    StableHlo.unary main_v64 main_v65 (Host.tanh : (⟨S512x512, .f32⟩ : BufTy).Contents (Elt F) → (⟨S512x512, .f32⟩ : BufTy).Contents (Elt F)),
    StableHlo.binary main_v65 main_v65 main_v66 (mulf : (⟨S512x512, .f32⟩ : BufTy).Contents (Elt F) → (⟨S512x512, .f32⟩ : BufTy).Contents (Elt F) → (⟨S512x512, .f32⟩ : BufTy).Contents (Elt F)),
    StableHlo.nullary main_cst_22 (constant S_ .f32 0x3F800000#32),
    StableHlo.unary main_cst_22 main_v67 (broadcastInDim S512x512 ![] bcast_S_S512x512 : (⟨S_, .f32⟩ : BufTy).Contents (Elt F) → (⟨S512x512, .f32⟩ : BufTy).Contents (Elt F)),
    StableHlo.binary main_v67 main_v66 main_v68 (subf : (⟨S512x512, .f32⟩ : BufTy).Contents (Elt F) → (⟨S512x512, .f32⟩ : BufTy).Contents (Elt F) → (⟨S512x512, .f32⟩ : BufTy).Contents (Elt F)),
    StableHlo.binary main_v19 main_v19 main_v69 (mulf : (⟨S512x512, .f32⟩ : BufTy).Contents (Elt F) → (⟨S512x512, .f32⟩ : BufTy).Contents (Elt F) → (⟨S512x512, .f32⟩ : BufTy).Contents (Elt F)),
    StableHlo.binary main_v68 main_v69 main_v70 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.nullary main_cst_23 (constant S_ .f32 0x3F800000#32),
    StableHlo.unary main_cst_23 main_v71 (broadcastInDim S512x512 ![] bcast_S_S512x512 : (⟨S_, .f32⟩ : BufTy).Contents (Elt F) → (⟨S512x512, .f32⟩ : BufTy).Contents (Elt F)),
    StableHlo.binary main_v71 main_v69 main_v72 (subf : (⟨S512x512, .f32⟩ : BufTy).Contents (Elt F) → (⟨S512x512, .f32⟩ : BufTy).Contents (Elt F) → (⟨S512x512, .f32⟩ : BufTy).Contents (Elt F)),
    StableHlo.nullary main_cst_24 (constant S_ .f32 0x00000000#32),
    StableHlo.binary main_v72 main_cst_24 main_v73 ((fun x v => Host.reduceAdd x v reducesTo_S512x512_S512_d0 h_S_) : (⟨S512x512, .f32⟩ : BufTy).Contents (Elt F) → (⟨S_, .f32⟩ : BufTy).Contents (Elt F) → (⟨S512, .f32⟩ : BufTy).Contents (Elt F)),
    StableHlo.unary main_v73 main_v74 (broadcastInDim S1x512 ![1] bcast_S512_S1x512_1 : (⟨S512, .f32⟩ : BufTy).Contents (Elt F) → (⟨S1x512, .f32⟩ : BufTy).Contents (Elt F)),
    StableHlo.unary main_v74 main_v75 (broadcastInDim S512x512 ![0, 1] bcast_S1x512_S512x512_0_1 : (⟨S1x512, .f32⟩ : BufTy).Contents (Elt F) → (⟨S512x512, .f32⟩ : BufTy).Contents (Elt F)),
    StableHlo.binary main_v70 main_v75 main_v76 (addf : (⟨S512x512, .f32⟩ : BufTy).Contents (Elt F) → (⟨S512x512, .f32⟩ : BufTy).Contents (Elt F) → (⟨S512x512, .f32⟩ : BufTy).Contents (Elt F)),
    StableHlo.binary main_v65 main_v19 main_v77 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.unary main_arg8 main_v78 (broadcastInDim S512x512 ![0, 1] bcast_S1x512_S512x512_0_1 : (⟨S1x512, .f32⟩ : BufTy).Contents (Elt F) → (⟨S512x512, .f32⟩ : BufTy).Contents (Elt F)),
    StableHlo.binary main_v77 main_v78 main_v79 (addf : (⟨S512x512, .f32⟩ : BufTy).Contents (Elt F) → (⟨S512x512, .f32⟩ : BufTy).Contents (Elt F) → (⟨S512x512, .f32⟩ : BufTy).Contents (Elt F)),
    StableHlo.nullary main_cst_25 (constant S_ .f32 0x3F4C422A#32),
    StableHlo.unary main_cst_25 main_v80 (broadcastInDim S512x512 ![] bcast_S_S512x512 : (⟨S_, .f32⟩ : BufTy).Contents (Elt F) → (⟨S512x512, .f32⟩ : BufTy).Contents (Elt F)),
    StableHlo.binary main_v80 main_v79 main_v81 (mulf : (⟨S512x512, .f32⟩ : BufTy).Contents (Elt F) → (⟨S512x512, .f32⟩ : BufTy).Contents (Elt F) → (⟨S512x512, .f32⟩ : BufTy).Contents (Elt F)),
    StableHlo.unary main_v76 main_v82 (Host.sqrt : (⟨S512x512, .f32⟩ : BufTy).Contents (Elt F) → (⟨S512x512, .f32⟩ : BufTy).Contents (Elt F)),
    StableHlo.binary main_v81 main_v82 main_v83 (Host.divf : (⟨S512x512, .f32⟩ : BufTy).Contents (Elt F) → (⟨S512x512, .f32⟩ : BufTy).Contents (Elt F) → (⟨S512x512, .f32⟩ : BufTy).Contents (Elt F)),
    StableHlo.unary main_v83 main_v84 (Host.tanh : (⟨S512x512, .f32⟩ : BufTy).Contents (Elt F) → (⟨S512x512, .f32⟩ : BufTy).Contents (Elt F)),
    StableHlo.binary main_v84 main_v84 main_v85 (mulf : (⟨S512x512, .f32⟩ : BufTy).Contents (Elt F) → (⟨S512x512, .f32⟩ : BufTy).Contents (Elt F) → (⟨S512x512, .f32⟩ : BufTy).Contents (Elt F)),
    StableHlo.nullary main_cst_26 (constant S_ .f32 0x3F800000#32),
    StableHlo.unary main_cst_26 main_v86 (broadcastInDim S512x512 ![] bcast_S_S512x512 : (⟨S_, .f32⟩ : BufTy).Contents (Elt F) → (⟨S512x512, .f32⟩ : BufTy).Contents (Elt F)),
    StableHlo.binary main_v86 main_v85 main_v87 (subf : (⟨S512x512, .f32⟩ : BufTy).Contents (Elt F) → (⟨S512x512, .f32⟩ : BufTy).Contents (Elt F) → (⟨S512x512, .f32⟩ : BufTy).Contents (Elt F)),
    StableHlo.binary main_v29 main_v29 main_v88 (mulf : (⟨S512x512, .f32⟩ : BufTy).Contents (Elt F) → (⟨S512x512, .f32⟩ : BufTy).Contents (Elt F) → (⟨S512x512, .f32⟩ : BufTy).Contents (Elt F)),
    StableHlo.binary main_v87 main_v88 main_v89 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.nullary main_cst_27 (constant S_ .f32 0x3F800000#32),
    StableHlo.unary main_cst_27 main_v90 (broadcastInDim S512x512 ![] bcast_S_S512x512 : (⟨S_, .f32⟩ : BufTy).Contents (Elt F) → (⟨S512x512, .f32⟩ : BufTy).Contents (Elt F)) ]

/-- The line's operations 121 … 180 of 255 (@main's window 2). -/
abbrev ops2 : List (HloOp τ sig (Elt F)) :=
  [ StableHlo.binary main_v90 main_v88 main_v91 (subf : (⟨S512x512, .f32⟩ : BufTy).Contents (Elt F) → (⟨S512x512, .f32⟩ : BufTy).Contents (Elt F) → (⟨S512x512, .f32⟩ : BufTy).Contents (Elt F)),
    StableHlo.nullary main_cst_28 (constant S_ .f32 0x00000000#32),
    StableHlo.binary main_v91 main_cst_28 main_v92 ((fun x v => Host.reduceAdd x v reducesTo_S512x512_S512_d0 h_S_) : (⟨S512x512, .f32⟩ : BufTy).Contents (Elt F) → (⟨S_, .f32⟩ : BufTy).Contents (Elt F) → (⟨S512, .f32⟩ : BufTy).Contents (Elt F)),
    StableHlo.unary main_v92 main_v93 (broadcastInDim S1x512 ![1] bcast_S512_S1x512_1 : (⟨S512, .f32⟩ : BufTy).Contents (Elt F) → (⟨S1x512, .f32⟩ : BufTy).Contents (Elt F)),
    StableHlo.unary main_v93 main_v94 (broadcastInDim S512x512 ![0, 1] bcast_S1x512_S512x512_0_1 : (⟨S1x512, .f32⟩ : BufTy).Contents (Elt F) → (⟨S512x512, .f32⟩ : BufTy).Contents (Elt F)),
    StableHlo.binary main_v89 main_v94 main_v95 (addf : (⟨S512x512, .f32⟩ : BufTy).Contents (Elt F) → (⟨S512x512, .f32⟩ : BufTy).Contents (Elt F) → (⟨S512x512, .f32⟩ : BufTy).Contents (Elt F)),
    StableHlo.binary main_v84 main_v29 main_v96 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.unary main_arg9 main_v97 (broadcastInDim S512x512 ![0, 1] bcast_S1x512_S512x512_0_1 : (⟨S1x512, .f32⟩ : BufTy).Contents (Elt F) → (⟨S512x512, .f32⟩ : BufTy).Contents (Elt F)),
    StableHlo.binary main_v96 main_v97 main_v98 (addf : (⟨S512x512, .f32⟩ : BufTy).Contents (Elt F) → (⟨S512x512, .f32⟩ : BufTy).Contents (Elt F) → (⟨S512x512, .f32⟩ : BufTy).Contents (Elt F)),
    StableHlo.nullary main_cst_29 (constant S_ .f32 0x3F4C422A#32),
    StableHlo.unary main_cst_29 main_v99 (broadcastInDim S512x512 ![] bcast_S_S512x512 : (⟨S_, .f32⟩ : BufTy).Contents (Elt F) → (⟨S512x512, .f32⟩ : BufTy).Contents (Elt F)),
    StableHlo.binary main_v99 main_v98 main_v100 (mulf : (⟨S512x512, .f32⟩ : BufTy).Contents (Elt F) → (⟨S512x512, .f32⟩ : BufTy).Contents (Elt F) → (⟨S512x512, .f32⟩ : BufTy).Contents (Elt F)),
    StableHlo.unary main_v95 main_v101 (Host.sqrt : (⟨S512x512, .f32⟩ : BufTy).Contents (Elt F) → (⟨S512x512, .f32⟩ : BufTy).Contents (Elt F)),
    StableHlo.binary main_v100 main_v101 main_v102 (Host.divf : (⟨S512x512, .f32⟩ : BufTy).Contents (Elt F) → (⟨S512x512, .f32⟩ : BufTy).Contents (Elt F) → (⟨S512x512, .f32⟩ : BufTy).Contents (Elt F)),
    StableHlo.unary main_v102 main_v103 (Host.tanh : (⟨S512x512, .f32⟩ : BufTy).Contents (Elt F) → (⟨S512x512, .f32⟩ : BufTy).Contents (Elt F)),
    StableHlo.binary main_v39 main_v39 main_v104 (mulf : (⟨S512x512, .f32⟩ : BufTy).Contents (Elt F) → (⟨S512x512, .f32⟩ : BufTy).Contents (Elt F) → (⟨S512x512, .f32⟩ : BufTy).Contents (Elt F)),
    StableHlo.binary main_v87 main_v104 main_v105 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.nullary main_cst_30 (constant S_ .f32 0x3F800000#32),
    StableHlo.unary main_cst_30 main_v106 (broadcastInDim S512x512 ![] bcast_S_S512x512 : (⟨S_, .f32⟩ : BufTy).Contents (Elt F) → (⟨S512x512, .f32⟩ : BufTy).Contents (Elt F)),
    StableHlo.binary main_v106 main_v104 main_v107 (subf : (⟨S512x512, .f32⟩ : BufTy).Contents (Elt F) → (⟨S512x512, .f32⟩ : BufTy).Contents (Elt F) → (⟨S512x512, .f32⟩ : BufTy).Contents (Elt F)),
    StableHlo.nullary main_cst_31 (constant S_ .f32 0x00000000#32),
    StableHlo.binary main_v107 main_cst_31 main_v108 ((fun x v => Host.reduceAdd x v reducesTo_S512x512_S512_d0 h_S_) : (⟨S512x512, .f32⟩ : BufTy).Contents (Elt F) → (⟨S_, .f32⟩ : BufTy).Contents (Elt F) → (⟨S512, .f32⟩ : BufTy).Contents (Elt F)),
    StableHlo.unary main_v108 main_v109 (broadcastInDim S1x512 ![1] bcast_S512_S1x512_1 : (⟨S512, .f32⟩ : BufTy).Contents (Elt F) → (⟨S1x512, .f32⟩ : BufTy).Contents (Elt F)),
    StableHlo.unary main_v109 main_v110 (broadcastInDim S512x512 ![0, 1] bcast_S1x512_S512x512_0_1 : (⟨S1x512, .f32⟩ : BufTy).Contents (Elt F) → (⟨S512x512, .f32⟩ : BufTy).Contents (Elt F)),
    StableHlo.binary main_v105 main_v110 main_v111 (addf : (⟨S512x512, .f32⟩ : BufTy).Contents (Elt F) → (⟨S512x512, .f32⟩ : BufTy).Contents (Elt F) → (⟨S512x512, .f32⟩ : BufTy).Contents (Elt F)),
    StableHlo.binary main_v103 main_v39 main_v112 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    StableHlo.unary main_arg10 main_v113 (broadcastInDim S512x512 ![0, 1] bcast_S1x512_S512x512_0_1 : (⟨S1x512, .f32⟩ : BufTy).Contents (Elt F) → (⟨S512x512, .f32⟩ : BufTy).Contents (Elt F)),
    StableHlo.binary main_v112 main_v113 main_v114 (addf : (⟨S512x512, .f32⟩ : BufTy).Contents (Elt F) → (⟨S512x512, .f32⟩ : BufTy).Contents (Elt F) → (⟨S512x512, .f32⟩ : BufTy).Contents (Elt F)),
    StableHlo.nullary main_cst_32 (constant S_ .f32 0x3F4C422A#32),
    StableHlo.unary main_cst_32 main_v115 (broadcastInDim S512x512 ![] bcast_S_S512x512 : (⟨S_, .f32⟩ : BufTy).Contents (Elt F) → (⟨S512x512, .f32⟩ : BufTy).Contents (Elt F)),
    StableHlo.binary main_v115 main_v114 main_v116 (mulf : (⟨S512x512, .f32⟩ : BufTy).Contents (Elt F) → (⟨S512x512, .f32⟩ : BufTy).Contents (Elt F) → (⟨S512x512, .f32⟩ : BufTy).Contents (Elt F)),
    StableHlo.unary main_v111 main_v117 (Host.sqrt : (⟨S512x512, .f32⟩ : BufTy).Contents (Elt F) → (⟨S512x512, .f32⟩ : BufTy).Contents (Elt F)),
    StableHlo.binary main_v116 main_v117 main_v118 (Host.divf : (⟨S512x512, .f32⟩ : BufTy).Contents (Elt F) → (⟨S512x512, .f32⟩ : BufTy).Contents (Elt F) → (⟨S512x512, .f32⟩ : BufTy).Contents (Elt F)),
    StableHlo.unary main_v118 main_v119 (Host.tanh : (⟨S512x512, .f32⟩ : BufTy).Contents (Elt F) → (⟨S512x512, .f32⟩ : BufTy).Contents (Elt F)),
    StableHlo.binary main_v119 main_v119 main_v120 (mulf : (⟨S512x512, .f32⟩ : BufTy).Contents (Elt F) → (⟨S512x512, .f32⟩ : BufTy).Contents (Elt F) → (⟨S512x512, .f32⟩ : BufTy).Contents (Elt F)),
    StableHlo.nullary main_cst_33 (constant S_ .f32 0x3F800000#32),
    StableHlo.unary main_cst_33 main_v121 (broadcastInDim S512x512 ![] bcast_S_S512x512 : (⟨S_, .f32⟩ : BufTy).Contents (Elt F) → (⟨S512x512, .f32⟩ : BufTy).Contents (Elt F)),
    StableHlo.binary main_v121 main_v120 main_v122 (subf : (⟨S512x512, .f32⟩ : BufTy).Contents (Elt F) → (⟨S512x512, .f32⟩ : BufTy).Contents (Elt F) → (⟨S512x512, .f32⟩ : BufTy).Contents (Elt F)),
    StableHlo.nullary main_v123 (iotaInDim S512x512 32 0),
    StableHlo.nullary main_v124 (iotaInDim S512x512 32 1),
    StableHlo.nullary main_c (constantI S_ 32 0#32),
    StableHlo.unary main_c main_v125 (broadcastInDim S512x512 ![] bcast_S_S512x512 : (⟨S_, .i32⟩ : BufTy).Contents (Elt F) → (⟨S512x512, .i32⟩ : BufTy).Contents (Elt F)),
    StableHlo.binary main_v123 main_v125 main_v126 (addi : (⟨S512x512, .i32⟩ : BufTy).Contents (Elt F) → (⟨S512x512, .i32⟩ : BufTy).Contents (Elt F) → (⟨S512x512, .i32⟩ : BufTy).Contents (Elt F)),
    StableHlo.binary main_v126 main_v124 main_v127 (cmpi .eq : (⟨S512x512, .i32⟩ : BufTy).Contents (Elt F) → (⟨S512x512, .i32⟩ : BufTy).Contents (Elt F) → (⟨S512x512, .i1⟩ : BufTy).Contents (Elt F)),
    StableHlo.unary main_v127 main_v128 (uitofp .f32 : (⟨S512x512, .i1⟩ : BufTy).Contents (Elt F) → (⟨S512x512, .f32⟩ : BufTy).Contents (Elt F)),
    StableHlo.unary main_v128 main_v129 (broadcastInDim S1x512x512 ![1, 2] bcast_S512x512_S1x512x512_1_2 : (⟨S512x512, .f32⟩ : BufTy).Contents (Elt F) → (⟨S1x512x512, .f32⟩ : BufTy).Contents (Elt F)),
    StableHlo.unary main_v122 main_v130 (broadcastInDim S512x1x512 ![0, 2] bcast_S512x512_S512x1x512_0_2 : (⟨S512x512, .f32⟩ : BufTy).Contents (Elt F) → (⟨S512x1x512, .f32⟩ : BufTy).Contents (Elt F)),
    StableHlo.unary main_v129 main_v131 (broadcastInDim S512x512x512 ![0, 1, 2] bcast_S1x512x512_S512x512x512_0_1_2 : (⟨S1x512x512, .f32⟩ : BufTy).Contents (Elt F) → (⟨S512x512x512, .f32⟩ : BufTy).Contents (Elt F)),
    StableHlo.unary main_v130 main_v132 (broadcastInDim S512x512x512 ![0, 1, 2] bcast_S512x1x512_S512x512x512_0_1_2 : (⟨S512x1x512, .f32⟩ : BufTy).Contents (Elt F) → (⟨S512x512x512, .f32⟩ : BufTy).Contents (Elt F)),
    StableHlo.binary main_v131 main_v132 main_v133 (mulf : (⟨S512x512x512, .f32⟩ : BufTy).Contents (Elt F) → (⟨S512x512x512, .f32⟩ : BufTy).Contents (Elt F) → (⟨S512x512x512, .f32⟩ : BufTy).Contents (Elt F)),
    StableHlo.binary main_v49 main_v49 main_v134 (mulf : (⟨S512x1, .f32⟩ : BufTy).Contents (Elt F) → (⟨S512x1, .f32⟩ : BufTy).Contents (Elt F) → (⟨S512x1, .f32⟩ : BufTy).Contents (Elt F)),
    StableHlo.binary main_v122 main_v134 main_v135 ((fun l r => Host.dotGeneral dot_S512x512_S512x1_S512x1_1_0_0_1_n_n none l r) : (⟨S512x512, .f32⟩ : BufTy).Contents (Elt F) → (⟨S512x1, .f32⟩ : BufTy).Contents (Elt F) → (⟨S512x1, .f32⟩ : BufTy).Contents (Elt F)),
    StableHlo.nullary main_cst_34 (constant S_ .f32 0x3F800000#32),
    StableHlo.unary main_cst_34 main_v136 (broadcastInDim S512x1 ![] bcast_S_S512x1 : (⟨S_, .f32⟩ : BufTy).Contents (Elt F) → (⟨S512x1, .f32⟩ : BufTy).Contents (Elt F)),
    StableHlo.binary main_v136 main_v134 main_v137 (subf : (⟨S512x1, .f32⟩ : BufTy).Contents (Elt F) → (⟨S512x1, .f32⟩ : BufTy).Contents (Elt F) → (⟨S512x1, .f32⟩ : BufTy).Contents (Elt F)),
    StableHlo.nullary main_cst_35 (constant S_ .f32 0x00000000#32),
    StableHlo.binary main_v137 main_cst_35 main_v138 ((fun x v => Host.reduceAdd x v reducesTo_S512x1_S1_d0 h_S_) : (⟨S512x1, .f32⟩ : BufTy).Contents (Elt F) → (⟨S_, .f32⟩ : BufTy).Contents (Elt F) → (⟨S1, .f32⟩ : BufTy).Contents (Elt F)),
    StableHlo.unary main_v138 main_v139 (broadcastInDim S1x1 ![1] bcast_S1_S1x1_1 : (⟨S1, .f32⟩ : BufTy).Contents (Elt F) → (⟨S1x1, .f32⟩ : BufTy).Contents (Elt F)),
    StableHlo.unary main_v139 main_v140 (broadcastInDim S512x1 ![0, 1] bcast_S1x1_S512x1_0_1 : (⟨S1x1, .f32⟩ : BufTy).Contents (Elt F) → (⟨S512x1, .f32⟩ : BufTy).Contents (Elt F)),
    StableHlo.binary main_v135 main_v140 main_v141 (addf : (⟨S512x1, .f32⟩ : BufTy).Contents (Elt F) → (⟨S512x1, .f32⟩ : BufTy).Contents (Elt F) → (⟨S512x1, .f32⟩ : BufTy).Contents (Elt F)) ]

/-- The line's operations 181 … 188 of 255 (@main's window 3 up to the head's standardized mean). -/
abbrev ops3a : List (HloOp τ sig (Elt F)) :=
  [ StableHlo.binary main_v119 main_v49 main_v142 ((fun l r => Host.dotGeneral dot_S512x512_S512x1_S512x1_1_0_0_1_n_n none l r) : (⟨S512x512, .f32⟩ : BufTy).Contents (Elt F) → (⟨S512x1, .f32⟩ : BufTy).Contents (Elt F) → (⟨S512x1, .f32⟩ : BufTy).Contents (Elt F)),
    StableHlo.unary main_arg12 main_v143 (broadcastInDim S512x1 ![0, 1] bcast_S1x1_S512x1_0_1 : (⟨S1x1, .f32⟩ : BufTy).Contents (Elt F) → (⟨S512x1, .f32⟩ : BufTy).Contents (Elt F)),
    StableHlo.binary main_v142 main_v143 main_v144 (addf : (⟨S512x1, .f32⟩ : BufTy).Contents (Elt F) → (⟨S512x1, .f32⟩ : BufTy).Contents (Elt F) → (⟨S512x1, .f32⟩ : BufTy).Contents (Elt F)),
    StableHlo.nullary main_cst_36 (constant S_ .f32 0x3F4C422A#32),
    StableHlo.unary main_cst_36 main_v145 (broadcastInDim S512x1 ![] bcast_S_S512x1 : (⟨S_, .f32⟩ : BufTy).Contents (Elt F) → (⟨S512x1, .f32⟩ : BufTy).Contents (Elt F)),
    StableHlo.binary main_v145 main_v144 main_v146 (mulf : (⟨S512x1, .f32⟩ : BufTy).Contents (Elt F) → (⟨S512x1, .f32⟩ : BufTy).Contents (Elt F) → (⟨S512x1, .f32⟩ : BufTy).Contents (Elt F)),
    StableHlo.unary main_v141 main_v147 (Host.sqrt : (⟨S512x1, .f32⟩ : BufTy).Contents (Elt F) → (⟨S512x1, .f32⟩ : BufTy).Contents (Elt F)),
    StableHlo.binary main_v146 main_v147 main_v148 (Host.divf : (⟨S512x1, .f32⟩ : BufTy).Contents (Elt F) → (⟨S512x1, .f32⟩ : BufTy).Contents (Elt F) → (⟨S512x1, .f32⟩ : BufTy).Contents (Elt F)) ]

/-- The line's operations 189 … 221 of 255 (the call of @log_sigmoid on it, its negation, the call on the negation). -/
abbrev ops3b : List (HloOp τ sig (Elt F)) :=
  [ StableHlo.TRef.unary (.of main_v148 : StableHlo.TRef sig ⟨S512x1, .f32⟩) (.of main_call0_v0 : StableHlo.TRef sig ⟨S512x1, .f32⟩) Host.negf,
    StableHlo.TRef.nullary (.of main_call0_call0_cst : StableHlo.TRef sig ⟨S_, .f32⟩) (constant S_ .f32 0x00000000#32),
    StableHlo.TRef.unary (.of main_call0_call0_cst : StableHlo.TRef sig ⟨S_, .f32⟩) (.of main_call0_call0_v0 : StableHlo.TRef sig ⟨S512x1, .f32⟩) (broadcastInDim S512x1 ![] bcast_S_S512x1),
    StableHlo.TRef.binary (.of main_call0_v0 : StableHlo.TRef sig ⟨S512x1, .f32⟩) (.of main_call0_call0_v0 : StableHlo.TRef sig ⟨S512x1, .f32⟩) (.of main_call0_call0_v1 : StableHlo.TRef sig ⟨S512x1, .f32⟩) maximumf,
    StableHlo.TRef.unary (.of main_call0_call0_cst : StableHlo.TRef sig ⟨S_, .f32⟩) (.of main_call0_call0_v2 : StableHlo.TRef sig ⟨S512x1, .f32⟩) (broadcastInDim S512x1 ![] bcast_S_S512x1),
    StableHlo.TRef.binary (.of main_call0_v0 : StableHlo.TRef sig ⟨S512x1, .f32⟩) (.of main_call0_call0_v2 : StableHlo.TRef sig ⟨S512x1, .f32⟩) (.of main_call0_call0_v3 : StableHlo.TRef sig ⟨S512x1, .f32⟩) subf,
    StableHlo.TRef.binary (.of main_call0_call0_v3 : StableHlo.TRef sig ⟨S512x1, .f32⟩) (.of main_call0_call0_v3 : StableHlo.TRef sig ⟨S512x1, .f32⟩) (.of main_call0_call0_v4 : StableHlo.TRef sig ⟨S512x1, .i1⟩) (cmpf .une),
    StableHlo.TRef.unary (.of main_call0_call0_cst : StableHlo.TRef sig ⟨S_, .f32⟩) (.of main_call0_call0_v5 : StableHlo.TRef sig ⟨S512x1, .f32⟩) (broadcastInDim S512x1 ![] bcast_S_S512x1),
    StableHlo.TRef.binary (.of main_call0_v0 : StableHlo.TRef sig ⟨S512x1, .f32⟩) (.of main_call0_call0_v5 : StableHlo.TRef sig ⟨S512x1, .f32⟩) (.of main_call0_call0_v6 : StableHlo.TRef sig ⟨S512x1, .f32⟩) addf,
    StableHlo.TRef.unary (.of main_call0_call0_v3 : StableHlo.TRef sig ⟨S512x1, .f32⟩) (.of main_call0_call0_v7 : StableHlo.TRef sig ⟨S512x1, .f32⟩) Host.absf,
    StableHlo.TRef.unary (.of main_call0_call0_v7 : StableHlo.TRef sig ⟨S512x1, .f32⟩) (.of main_call0_call0_v8 : StableHlo.TRef sig ⟨S512x1, .f32⟩) Host.negf,
    StableHlo.TRef.unary (.of main_call0_call0_v8 : StableHlo.TRef sig ⟨S512x1, .f32⟩) (.of main_call0_call0_v9 : StableHlo.TRef sig ⟨S512x1, .f32⟩) Host.exp,
    StableHlo.TRef.unary (.of main_call0_call0_v9 : StableHlo.TRef sig ⟨S512x1, .f32⟩) (.of main_call0_call0_v10 : StableHlo.TRef sig ⟨S512x1, .f32⟩) Host.log1p,
    StableHlo.TRef.binary (.of main_call0_call0_v1 : StableHlo.TRef sig ⟨S512x1, .f32⟩) (.of main_call0_call0_v10 : StableHlo.TRef sig ⟨S512x1, .f32⟩) (.of main_call0_call0_v11 : StableHlo.TRef sig ⟨S512x1, .f32⟩) addf,
    StableHlo.TRef.ternary (.of main_call0_call0_v4 : StableHlo.TRef sig ⟨S512x1, .i1⟩) (.of main_call0_call0_v6 : StableHlo.TRef sig ⟨S512x1, .f32⟩) (.of main_call0_call0_v11 : StableHlo.TRef sig ⟨S512x1, .f32⟩) (.of main_call0_v1 : StableHlo.TRef sig ⟨S512x1, .f32⟩) select,
    StableHlo.TRef.unary (.of main_call0_v1 : StableHlo.TRef sig ⟨S512x1, .f32⟩) (.of main_v149 : StableHlo.TRef sig ⟨S512x1, .f32⟩) Host.negf,
    StableHlo.unary main_v148 main_v150 (Host.negf : (⟨S512x1, .f32⟩ : BufTy).Contents (Elt F) → (⟨S512x1, .f32⟩ : BufTy).Contents (Elt F)),
    StableHlo.TRef.unary (.of main_v150 : StableHlo.TRef sig ⟨S512x1, .f32⟩) (.of main_call1_v0 : StableHlo.TRef sig ⟨S512x1, .f32⟩) Host.negf,
    StableHlo.TRef.nullary (.of main_call1_call0_cst : StableHlo.TRef sig ⟨S_, .f32⟩) (constant S_ .f32 0x00000000#32),
    StableHlo.TRef.unary (.of main_call1_call0_cst : StableHlo.TRef sig ⟨S_, .f32⟩) (.of main_call1_call0_v0 : StableHlo.TRef sig ⟨S512x1, .f32⟩) (broadcastInDim S512x1 ![] bcast_S_S512x1),
    StableHlo.TRef.binary (.of main_call1_v0 : StableHlo.TRef sig ⟨S512x1, .f32⟩) (.of main_call1_call0_v0 : StableHlo.TRef sig ⟨S512x1, .f32⟩) (.of main_call1_call0_v1 : StableHlo.TRef sig ⟨S512x1, .f32⟩) maximumf,
    StableHlo.TRef.unary (.of main_call1_call0_cst : StableHlo.TRef sig ⟨S_, .f32⟩) (.of main_call1_call0_v2 : StableHlo.TRef sig ⟨S512x1, .f32⟩) (broadcastInDim S512x1 ![] bcast_S_S512x1),
    StableHlo.TRef.binary (.of main_call1_v0 : StableHlo.TRef sig ⟨S512x1, .f32⟩) (.of main_call1_call0_v2 : StableHlo.TRef sig ⟨S512x1, .f32⟩) (.of main_call1_call0_v3 : StableHlo.TRef sig ⟨S512x1, .f32⟩) subf,
    StableHlo.TRef.binary (.of main_call1_call0_v3 : StableHlo.TRef sig ⟨S512x1, .f32⟩) (.of main_call1_call0_v3 : StableHlo.TRef sig ⟨S512x1, .f32⟩) (.of main_call1_call0_v4 : StableHlo.TRef sig ⟨S512x1, .i1⟩) (cmpf .une),
    StableHlo.TRef.unary (.of main_call1_call0_cst : StableHlo.TRef sig ⟨S_, .f32⟩) (.of main_call1_call0_v5 : StableHlo.TRef sig ⟨S512x1, .f32⟩) (broadcastInDim S512x1 ![] bcast_S_S512x1),
    StableHlo.TRef.binary (.of main_call1_v0 : StableHlo.TRef sig ⟨S512x1, .f32⟩) (.of main_call1_call0_v5 : StableHlo.TRef sig ⟨S512x1, .f32⟩) (.of main_call1_call0_v6 : StableHlo.TRef sig ⟨S512x1, .f32⟩) addf,
    StableHlo.TRef.unary (.of main_call1_call0_v3 : StableHlo.TRef sig ⟨S512x1, .f32⟩) (.of main_call1_call0_v7 : StableHlo.TRef sig ⟨S512x1, .f32⟩) Host.absf,
    StableHlo.TRef.unary (.of main_call1_call0_v7 : StableHlo.TRef sig ⟨S512x1, .f32⟩) (.of main_call1_call0_v8 : StableHlo.TRef sig ⟨S512x1, .f32⟩) Host.negf,
    StableHlo.TRef.unary (.of main_call1_call0_v8 : StableHlo.TRef sig ⟨S512x1, .f32⟩) (.of main_call1_call0_v9 : StableHlo.TRef sig ⟨S512x1, .f32⟩) Host.exp,
    StableHlo.TRef.unary (.of main_call1_call0_v9 : StableHlo.TRef sig ⟨S512x1, .f32⟩) (.of main_call1_call0_v10 : StableHlo.TRef sig ⟨S512x1, .f32⟩) Host.log1p,
    StableHlo.TRef.binary (.of main_call1_call0_v1 : StableHlo.TRef sig ⟨S512x1, .f32⟩) (.of main_call1_call0_v10 : StableHlo.TRef sig ⟨S512x1, .f32⟩) (.of main_call1_call0_v11 : StableHlo.TRef sig ⟨S512x1, .f32⟩) addf,
    StableHlo.TRef.ternary (.of main_call1_call0_v4 : StableHlo.TRef sig ⟨S512x1, .i1⟩) (.of main_call1_call0_v6 : StableHlo.TRef sig ⟨S512x1, .f32⟩) (.of main_call1_call0_v11 : StableHlo.TRef sig ⟨S512x1, .f32⟩) (.of main_call1_v1 : StableHlo.TRef sig ⟨S512x1, .f32⟩) select,
    StableHlo.TRef.unary (.of main_call1_v1 : StableHlo.TRef sig ⟨S512x1, .f32⟩) (.of main_v151 : StableHlo.TRef sig ⟨S512x1, .f32⟩) Host.negf ]

/-- The line's operations 222 … 255 of 255 (the rest of @main's window 3: the loss and the fraction of correct predictions). -/
abbrev ops3c : List (HloOp τ sig (Elt F)) :=
  [ StableHlo.reshape main_v51 main_v152 rfl shapeCasts_S512x1_S512,
    StableHlo.reshape main_v149 main_v153 rfl shapeCasts_S512x1_S512,
    StableHlo.binary main_v152 main_v153 main_v154 (mulf : (⟨S512, .f32⟩ : BufTy).Contents (Elt F) → (⟨S512, .f32⟩ : BufTy).Contents (Elt F) → (⟨S512, .f32⟩ : BufTy).Contents (Elt F)),
    StableHlo.nullary main_cst_37 (constant S_ .f32 0x3F800000#32),
    StableHlo.unary main_cst_37 main_v155 (broadcastInDim S512 ![] bcast_S_S512 : (⟨S_, .f32⟩ : BufTy).Contents (Elt F) → (⟨S512, .f32⟩ : BufTy).Contents (Elt F)),
    StableHlo.binary main_v155 main_v152 main_v156 (subf : (⟨S512, .f32⟩ : BufTy).Contents (Elt F) → (⟨S512, .f32⟩ : BufTy).Contents (Elt F) → (⟨S512, .f32⟩ : BufTy).Contents (Elt F)),
    StableHlo.reshape main_v151 main_v157 rfl shapeCasts_S512x1_S512,
    StableHlo.binary main_v156 main_v157 main_v158 (mulf : (⟨S512, .f32⟩ : BufTy).Contents (Elt F) → (⟨S512, .f32⟩ : BufTy).Contents (Elt F) → (⟨S512, .f32⟩ : BufTy).Contents (Elt F)),
    StableHlo.binary main_v154 main_v158 main_v159 (addf : (⟨S512, .f32⟩ : BufTy).Contents (Elt F) → (⟨S512, .f32⟩ : BufTy).Contents (Elt F) → (⟨S512, .f32⟩ : BufTy).Contents (Elt F)),
    StableHlo.nullary main_cst_38 (constant S_ .f32 0x00000000#32),
    StableHlo.binary main_v159 main_cst_38 main_v160 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    StableHlo.nullary main_cst_39 (constant S_ .f32 0x44000000#32),
    StableHlo.binary main_v160 main_cst_39 main_v161 (Host.divf : (⟨S_, .f32⟩ : BufTy).Contents (Elt F) → (⟨S_, .f32⟩ : BufTy).Contents (Elt F) → (⟨S_, .f32⟩ : BufTy).Contents (Elt F)),
    StableHlo.unary main_v161 main_v162 (Host.negf : (⟨S_, .f32⟩ : BufTy).Contents (Elt F) → (⟨S_, .f32⟩ : BufTy).Contents (Elt F)),
    StableHlo.unary main_v148 main_v163 (Host.negf : (⟨S512x1, .f32⟩ : BufTy).Contents (Elt F) → (⟨S512x1, .f32⟩ : BufTy).Contents (Elt F)),
    StableHlo.unary main_v163 main_v164 (Host.exp : (⟨S512x1, .f32⟩ : BufTy).Contents (Elt F) → (⟨S512x1, .f32⟩ : BufTy).Contents (Elt F)),
    StableHlo.nullary main_cst_40 (constant S_ .f32 0x3F800000#32),
    StableHlo.unary main_cst_40 main_v165 (broadcastInDim S512x1 ![] bcast_S_S512x1 : (⟨S_, .f32⟩ : BufTy).Contents (Elt F) → (⟨S512x1, .f32⟩ : BufTy).Contents (Elt F)),
    StableHlo.binary main_v165 main_v164 main_v166 (addf : (⟨S512x1, .f32⟩ : BufTy).Contents (Elt F) → (⟨S512x1, .f32⟩ : BufTy).Contents (Elt F) → (⟨S512x1, .f32⟩ : BufTy).Contents (Elt F)),
    StableHlo.nullary main_cst_41 (constant S_ .f32 0x3F800000#32),
    StableHlo.unary main_cst_41 main_v167 (broadcastInDim S512x1 ![] bcast_S_S512x1 : (⟨S_, .f32⟩ : BufTy).Contents (Elt F) → (⟨S512x1, .f32⟩ : BufTy).Contents (Elt F)),
    StableHlo.binary main_v167 main_v166 main_v168 (Host.divf : (⟨S512x1, .f32⟩ : BufTy).Contents (Elt F) → (⟨S512x1, .f32⟩ : BufTy).Contents (Elt F) → (⟨S512x1, .f32⟩ : BufTy).Contents (Elt F)),
    StableHlo.nullary main_cst_42 (constant S_ .f32 0x3F000000#32),
    StableHlo.unary main_cst_42 main_v169 (broadcastInDim S512x1 ![] bcast_S_S512x1 : (⟨S_, .f32⟩ : BufTy).Contents (Elt F) → (⟨S512x1, .f32⟩ : BufTy).Contents (Elt F)),
    StableHlo.binary main_v168 main_v169 main_v170 (cmpf .ogt : (⟨S512x1, .f32⟩ : BufTy).Contents (Elt F) → (⟨S512x1, .f32⟩ : BufTy).Contents (Elt F) → (⟨S512x1, .i1⟩ : BufTy).Contents (Elt F)),
    StableHlo.unary main_v170 main_v171 (uitofp .f32 : (⟨S512x1, .i1⟩ : BufTy).Contents (Elt F) → (⟨S512x1, .f32⟩ : BufTy).Contents (Elt F)),
    StableHlo.binary main_v171 main_v51 main_v172 (subf : (⟨S512x1, .f32⟩ : BufTy).Contents (Elt F) → (⟨S512x1, .f32⟩ : BufTy).Contents (Elt F) → (⟨S512x1, .f32⟩ : BufTy).Contents (Elt F)),
    StableHlo.unary main_v172 main_v173 (Host.absf : (⟨S512x1, .f32⟩ : BufTy).Contents (Elt F) → (⟨S512x1, .f32⟩ : BufTy).Contents (Elt F)),
    StableHlo.nullary main_cst_43 (constant S_ .f32 0x00000000#32),
    StableHlo.binary main_v173 main_cst_43 main_v174 ((fun x v => Host.reduceAdd x v reducesTo_S512x1_S_d0_1 h_S_) : (⟨S512x1, .f32⟩ : BufTy).Contents (Elt F) → (⟨S_, .f32⟩ : BufTy).Contents (Elt F) → (⟨S_, .f32⟩ : BufTy).Contents (Elt F)),
    StableHlo.nullary main_cst_44 (constant S_ .f32 0x44000000#32),
    StableHlo.binary main_cst_44 main_v174 main_v175 (subf : (⟨S_, .f32⟩ : BufTy).Contents (Elt F) → (⟨S_, .f32⟩ : BufTy).Contents (Elt F) → (⟨S_, .f32⟩ : BufTy).Contents (Elt F)),
    StableHlo.nullary main_cst_45 (constant S_ .f32 0x44000000#32),
    StableHlo.binary main_v175 main_cst_45 main_v176 (Host.divf : (⟨S_, .f32⟩ : BufTy).Contents (Elt F) → (⟨S_, .f32⟩ : BufTy).Contents (Elt F) → (⟨S_, .f32⟩ : BufTy).Contents (Elt F)) ]

/-- @main's window 3: the line's operations 181 … 255. -/
abbrev ops3 : List (HloOp τ sig (Elt F)) := ops3a ++ (ops3b ++ ops3c)

/-- The whole line, in order. -/
abbrev ops : List (HloOp τ sig (Elt F)) := ops0 ++ (ops1 ++ (ops2 ++ ops3))

/-! ## @main is the line -/

theorem main_part0_eq (c : Dev nD) : main_part0 (F := F) c = seq ops0 := rfl
theorem main_part1_eq (c : Dev nD) : main_part1 (F := F) c = seq ops1 := rfl
theorem main_part2_eq (c : Dev nD) : main_part2 (F := F) c = seq ops2 := rfl
/-- The last window holds the two calls: unfolding the callees at their calls and reassociating the sequencing
    (`bind_assoc`, `pure_bind`) leaves one chain of steps on both sides. -/
theorem main_part3_eq (c : Dev nD) : main_part3 (F := F) c = seq ops3 := by
  simp only [main_part3, fn_log_sigmoid.body, fn_softplus.body, ops3, seq_append, seq, bind_assoc, pure_bind] <;> rfl
theorem main_eq (c : Dev nD) : main (F := F) c = seq ops := by
  simp only [ops, seq_append, ← main_part0_eq c, ← main_part1_eq c, ← main_part2_eq c, ← main_part3_eq c] <;> rfl

/-! ## Side conditions of the run -/

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., nullary_bufs_sub .., unary_bufs_sub ..⟩
theorem ops1_sub : (ops1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., binary_bufs_sub .., binary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., binary_bufs_sub .., unary_bufs_sub .., unary_bufs_sub .., binary_bufs_sub .., binary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., binary_bufs_sub .., binary_bufs_sub .., nullary_bufs_sub .., unary_bufs_sub ..⟩
theorem ops2_sub : (ops2 : List (HloOp τ sig (Elt F))).Forall fun op => op.bufs ⊆ tcRefs τ sig :=
  ⟨binary_bufs_sub .., nullary_bufs_sub .., binary_bufs_sub .., unary_bufs_sub .., unary_bufs_sub .., binary_bufs_sub .., binary_bufs_sub .., unary_bufs_sub .., binary_bufs_sub .., nullary_bufs_sub .., unary_bufs_sub .., binary_bufs_sub .., unary_bufs_sub .., binary_bufs_sub .., unary_bufs_sub .., binary_bufs_sub .., binary_bufs_sub .., nullary_bufs_sub .., unary_bufs_sub .., binary_bufs_sub .., nullary_bufs_sub .., binary_bufs_sub .., unary_bufs_sub .., unary_bufs_sub .., binary_bufs_sub .., binary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., nullary_bufs_sub .., nullary_bufs_sub .., unary_bufs_sub .., binary_bufs_sub .., binary_bufs_sub .., unary_bufs_sub .., unary_bufs_sub .., unary_bufs_sub .., unary_bufs_sub .., unary_bufs_sub .., binary_bufs_sub .., binary_bufs_sub .., binary_bufs_sub .., nullary_bufs_sub .., unary_bufs_sub .., binary_bufs_sub .., nullary_bufs_sub .., binary_bufs_sub .., unary_bufs_sub .., unary_bufs_sub .., binary_bufs_sub ..⟩
theorem ops3a_sub : (ops3a : List (HloOp τ sig (Elt F))).Forall fun op => op.bufs ⊆ tcRefs τ sig :=
  ⟨binary_bufs_sub .., unary_bufs_sub .., binary_bufs_sub .., nullary_bufs_sub .., unary_bufs_sub .., binary_bufs_sub .., unary_bufs_sub .., binary_bufs_sub ..⟩
theorem ops3b_sub : (ops3b : List (HloOp τ sig (Elt F))).Forall fun op => op.bufs ⊆ tcRefs τ sig :=
  ⟨unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub ..⟩
theorem ops3c_sub : (ops3c : List (HloOp τ sig (Elt F))).Forall fun op => op.bufs ⊆ tcRefs τ sig :=
  ⟨reshape_bufs_sub .., reshape_bufs_sub .., binary_bufs_sub .., nullary_bufs_sub .., unary_bufs_sub .., binary_bufs_sub .., reshape_bufs_sub .., binary_bufs_sub .., binary_bufs_sub .., nullary_bufs_sub .., binary_bufs_sub .., nullary_bufs_sub .., binary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., nullary_bufs_sub .., binary_bufs_sub .., nullary_bufs_sub .., binary_bufs_sub .., nullary_bufs_sub .., binary_bufs_sub ..⟩
theorem ops_sub : (ops : List (HloOp τ sig (Elt F))).Forall fun op => op.bufs ⊆ tcRefs τ sig :=
  List.forall_iff_forall_mem.mpr fun op h => by
    simp only [ops, ops3, List.mem_append] at h
    rcases h with h | h | h | h | h | h
    exacts [List.forall_iff_forall_mem.mp ops0_sub op h,
      List.forall_iff_forall_mem.mp ops1_sub op h,
      List.forall_iff_forall_mem.mp ops2_sub op h,
      List.forall_iff_forall_mem.mp ops3a_sub op h,
      List.forall_iff_forall_mem.mp ops3b_sub op h,
      List.forall_iff_forall_mem.mp ops3c_sub op h]

theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3a_fresh : ∀ op ∈ (ops3a : List (HloOp τ sig (Elt F))), op.fresh = ∅ := by
  intro _ h; (repeat (cases h with | head => rfl | tail _ h => ?_)); exact nomatch h
theorem ops3b_fresh : ∀ op ∈ (ops3b : List (HloOp τ sig (Elt F))), op.fresh = ∅ := by
  intro _ h; (repeat (cases h with | head => rfl | tail _ h => ?_)); exact nomatch h
theorem ops3c_fresh : ∀ op ∈ (ops3c : List (HloOp τ sig (Elt F))), op.fresh = ∅ := by
  intro _ h; (repeat (cases h with | head => rfl | tail _ h => ?_)); exact nomatch h
/-- No operation of the line allocates: each determines its results. -/
theorem ops_fresh : ∀ op ∈ (ops : List (HloOp τ sig (Elt F))), op.fresh = ∅ := fun op h => by
  simp only [ops, ops3, List.mem_append] at h
  rcases h with h | h | h | h | h | h
  exacts [ops0_fresh op h, ops1_fresh op h, ops2_fresh op h, ops3a_fresh op h, ops3b_fresh op h, ops3c_fresh op h]

/-! ## The run -/

/-- On every device, for any float values, from any memory with zero counters: every weakly fair execution of
    @main terminates, and every final state has each TensorCore buffer at the line's fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefRun.lean ====
/-
  The reference's run read back as the specification's stages.

  The line of 255 host operations (`ops`) is read window by window: after each window, every buffer still
  needed is one of the specification's named stages applied to the contents the run started from, at the argument
  buffers.  At the end the five returned buffers are: the head's mean, log σ of the head's standardized mean, the
  dense covariance of the last activation, the expected loss, and the fraction of correct predictions; and no
  argument is written.  Composed with the run of the line, this gives what every weakly fair execution of @main
  leaves in the results and in the arguments.
-/
import proofs.«173796_j40003325394948_2_alg».proof.Proof.RefOps
import proofs.«173796_j40003325394948_2_alg».proof.Proof.Spec

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

variable (V : Valuation τ sig (Elt F))

/-! ## The line read window by window

`val k V` is the device's contents after the first k windows, from any contents `V`.  For every buffer written by
then and read later (or returned) a lemma gives its contents as a stage of the specification applied to `V` at the
arguments: the window's operations are unfolded at that buffer, the buffers they read from earlier windows are
replaced by those windows' lemmas, and what remains is the stage's own definition.  A buffer a window does not write
is carried through it. -/

/-- The buffers that window `ops0` writes. -/
abbrev ops0_W : List (Ref sig .tc) := [main_v0, main_v1, main_cst, main_v2, main_v3, main_cst_0, main_v4, main_v5, main_cst_1, main_v6, main_v7, main_cst_2, main_v8, main_v9, main_v10, main_v11, main_cst_3, main_v12, main_v13, main_cst_4, main_v14, main_v15, main_cst_5, main_v16, main_v17, main_cst_6, main_v18, main_v19, main_v20, main_v21, main_cst_7, main_v22, main_v23, main_cst_8, main_v24, main_v25, main_cst_9, main_v26, main_v27, main_cst_10, main_v28, main_v29, main_v30, main_v31, main_cst_11, main_v32, main_v33, main_cst_12, main_v34, main_v35, main_cst_13, main_v36, main_v37, main_cst_14, main_v38, main_v39, main_v40, main_v41, main_cst_15, main_v42]
theorem ops0_writes : (ops0 : List (HloOp τ sig (Elt F))).Forall fun op => op.writes ⊆ (ops0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's contents after the first 1 window. -/
def val1 : Valuation τ sig (Elt F) := after ops0 V
/-- A buffer that window `ops0` does not write keeps its contents through it. -/
theorem val1_keep (r : Ref sig .tc) (h : r ∉ ops0_W) : val1 V (Proc.devRef .tc r) = V (Proc.devRef .tc r) :=
  after_of_writes_sub ops0 _ ops0_writes h
theorem val1_main_arg0 : val1 V (no_index (Proc.devRef .tc main_arg0)) = V (Proc.devRef .tc main_arg0) :=
  val1_keep V main_arg0 (by decide)
theorem val1_main_arg1 : val1 V (no_index (Proc.devRef .tc main_arg1)) = V (Proc.devRef .tc main_arg1) :=
  val1_keep V main_arg1 (by decide)
theorem val1_main_arg2 : val1 V (no_index (Proc.devRef .tc main_arg2)) = V (Proc.devRef .tc main_arg2) :=
  val1_keep V main_arg2 (by decide)
theorem val1_main_arg3 : val1 V (no_index (Proc.devRef .tc main_arg3)) = V (Proc.devRef .tc main_arg3) :=
  val1_keep V main_arg3 (by decide)
theorem val1_main_arg4 : val1 V (no_index (Proc.devRef .tc main_arg4)) = V (Proc.devRef .tc main_arg4) :=
  val1_keep V main_arg4 (by decide)
theorem val1_main_arg5 : val1 V (no_index (Proc.devRef .tc main_arg5)) = V (Proc.devRef .tc main_arg5) :=
  val1_keep V main_arg5 (by decide)
theorem val1_main_arg6 : val1 V (no_index (Proc.devRef .tc main_arg6)) = V (Proc.devRef .tc main_arg6) :=
  val1_keep V main_arg6 (by decide)
theorem val1_main_arg7 : val1 V (no_index (Proc.devRef .tc main_arg7)) = V (Proc.devRef .tc main_arg7) :=
  val1_keep V main_arg7 (by decide)
theorem val1_main_arg8 : val1 V (no_index (Proc.devRef .tc main_arg8)) = V (Proc.devRef .tc main_arg8) :=
  val1_keep V main_arg8 (by decide)
theorem val1_main_arg9 : val1 V (no_index (Proc.devRef .tc main_arg9)) = V (Proc.devRef .tc main_arg9) :=
  val1_keep V main_arg9 (by decide)
theorem val1_main_arg10 : val1 V (no_index (Proc.devRef .tc main_arg10)) = V (Proc.devRef .tc main_arg10) :=
  val1_keep V main_arg10 (by decide)
theorem val1_main_arg11 : val1 V (no_index (Proc.devRef .tc main_arg11)) = V (Proc.devRef .tc main_arg11) :=
  val1_keep V main_arg11 (by decide)
theorem val1_main_arg12 : val1 V (no_index (Proc.devRef .tc main_arg12)) = V (Proc.devRef .tc main_arg12) :=
  val1_keep V main_arg12 (by decide)
theorem val1_main_arg13 : val1 V (no_index (Proc.devRef .tc main_arg13)) = V (Proc.devRef .tc main_arg13) :=
  val1_keep V main_arg13 (by decide)
set_option maxHeartbeats 2000000 in
theorem val1_main_v9 : val1 V (no_index (Proc.devRef .tc main_v9)) = Spec.m0 (V (Proc.devRef .tc main_arg1)) := by
  unfold val1
  simp only [ops0]
  after_results_simp
  all_goals rfl
set_option maxHeartbeats 2000000 in
theorem val1_main_v19 : val1 V (no_index (Proc.devRef .tc main_v19)) = Spec.mk (V (Proc.devRef .tc main_arg2)) := by
  unfold val1
  simp only [ops0]
  after_results_simp
  all_goals rfl
set_option maxHeartbeats 2000000 in
theorem val1_main_v29 : val1 V (no_index (Proc.devRef .tc main_v29)) = Spec.mk (V (Proc.devRef .tc main_arg3)) := by
  unfold val1
  simp only [ops0]
  after_results_simp
  all_goals rfl
set_option maxHeartbeats 2000000 in
theorem val1_main_v39 : val1 V (no_index (Proc.devRef .tc main_v39)) = Spec.mk (V (Proc.devRef .tc main_arg4)) := by
  unfold val1
  simp only [ops0]
  after_results_simp
  all_goals rfl
set_option maxHeartbeats 2000000 in
theorem val1_main_v41 : val1 V (no_index (Proc.devRef .tc main_v41)) = Host.exp (Host.negf (V (Proc.devRef .tc main_arg6))) := by
  unfold val1
  simp only [ops0]
  after_results_simp
  all_goals rfl
set_option maxHeartbeats 2000000 in
theorem val1_main_v42 : val1 V (no_index (Proc.devRef .tc main_v42)) = Spec.splat S512x1 bcast_S_S512x1 0x3F800000#32 := by
  unfold val1
  simp only [ops0]
  after_results_simp
  all_goals rfl

/-- The buffers that window `ops1` writes. -/
abbrev ops1_W : List (Ref sig .tc) := [main_v43, main_cst_16, main_v44, main_v45, main_cst_17, main_v46, main_v47, main_cst_18, main_v48, main_v49, main_v50, main_v51, main_v52, main_cst_19, main_v53, main_v54, main_cst_20, main_v55, main_v56, main_v57, main_v58, main_cst_21, main_v59, main_v60, main_v61, main_v62, main_v63, main_v64, main_v65, main_v66, main_cst_22, main_v67, main_v68, main_v69, main_v70, main_cst_23, main_v71, main_v72, main_cst_24, main_v73, main_v74, main_v75, main_v76, main_v77, main_v78, main_v79, main_cst_25, main_v80, main_v81, main_v82, main_v83, main_v84, main_v85, main_cst_26, main_v86, main_v87, main_v88, main_v89, main_cst_27, main_v90]
theorem ops1_writes : (ops1 : List (HloOp τ sig (Elt F))).Forall fun op => op.writes ⊆ (ops1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's contents after the first 2 windows. -/
def val2 : Valuation τ sig (Elt F) := after ops1 (val1 V)
/-- A buffer that window `ops1` does not write keeps its contents through it. -/
theorem val2_keep (r : Ref sig .tc) (h : r ∉ ops1_W) : val2 V (Proc.devRef .tc r) = val1 V (Proc.devRef .tc r) :=
  after_of_writes_sub ops1 _ ops1_writes h
theorem val2_main_arg0 : val2 V (no_index (Proc.devRef .tc main_arg0)) = V (Proc.devRef .tc main_arg0) :=
  (val2_keep V main_arg0 (by decide)).trans (val1_main_arg0 V)
theorem val2_main_arg1 : val2 V (no_index (Proc.devRef .tc main_arg1)) = V (Proc.devRef .tc main_arg1) :=
  (val2_keep V main_arg1 (by decide)).trans (val1_main_arg1 V)
theorem val2_main_arg2 : val2 V (no_index (Proc.devRef .tc main_arg2)) = V (Proc.devRef .tc main_arg2) :=
  (val2_keep V main_arg2 (by decide)).trans (val1_main_arg2 V)
theorem val2_main_arg3 : val2 V (no_index (Proc.devRef .tc main_arg3)) = V (Proc.devRef .tc main_arg3) :=
  (val2_keep V main_arg3 (by decide)).trans (val1_main_arg3 V)
theorem val2_main_arg4 : val2 V (no_index (Proc.devRef .tc main_arg4)) = V (Proc.devRef .tc main_arg4) :=
  (val2_keep V main_arg4 (by decide)).trans (val1_main_arg4 V)
theorem val2_main_arg5 : val2 V (no_index (Proc.devRef .tc main_arg5)) = V (Proc.devRef .tc main_arg5) :=
  (val2_keep V main_arg5 (by decide)).trans (val1_main_arg5 V)
theorem val2_main_arg6 : val2 V (no_index (Proc.devRef .tc main_arg6)) = V (Proc.devRef .tc main_arg6) :=
  (val2_keep V main_arg6 (by decide)).trans (val1_main_arg6 V)
theorem val2_main_arg7 : val2 V (no_index (Proc.devRef .tc main_arg7)) = V (Proc.devRef .tc main_arg7) :=
  (val2_keep V main_arg7 (by decide)).trans (val1_main_arg7 V)
theorem val2_main_arg8 : val2 V (no_index (Proc.devRef .tc main_arg8)) = V (Proc.devRef .tc main_arg8) :=
  (val2_keep V main_arg8 (by decide)).trans (val1_main_arg8 V)
theorem val2_main_arg9 : val2 V (no_index (Proc.devRef .tc main_arg9)) = V (Proc.devRef .tc main_arg9) :=
  (val2_keep V main_arg9 (by decide)).trans (val1_main_arg9 V)
theorem val2_main_arg10 : val2 V (no_index (Proc.devRef .tc main_arg10)) = V (Proc.devRef .tc main_arg10) :=
  (val2_keep V main_arg10 (by decide)).trans (val1_main_arg10 V)
theorem val2_main_arg11 : val2 V (no_index (Proc.devRef .tc main_arg11)) = V (Proc.devRef .tc main_arg11) :=
  (val2_keep V main_arg11 (by decide)).trans (val1_main_arg11 V)
theorem val2_main_arg12 : val2 V (no_index (Proc.devRef .tc main_arg12)) = V (Proc.devRef .tc main_arg12) :=
  (val2_keep V main_arg12 (by decide)).trans (val1_main_arg12 V)
theorem val2_main_arg13 : val2 V (no_index (Proc.devRef .tc main_arg13)) = V (Proc.devRef .tc main_arg13) :=
  (val2_keep V main_arg13 (by decide)).trans (val1_main_arg13 V)
theorem val2_main_v29 : val2 V (no_index (Proc.devRef .tc main_v29)) = Spec.mk (V (Proc.devRef .tc main_arg3)) :=
  (val2_keep V main_v29 (by decide)).trans (val1_main_v29 V)
theorem val2_main_v39 : val2 V (no_index (Proc.devRef .tc main_v39)) = Spec.mk (V (Proc.devRef .tc main_arg4)) :=
  (val2_keep V main_v39 (by decide)).trans (val1_main_v39 V)
set_option maxHeartbeats 2000000 in
theorem val2_main_v49 : val2 V (no_index (Proc.devRef .tc main_v49)) = Spec.ml (V (Proc.devRef .tc main_arg6)) := by
  unfold val2
  simp only [ops1]
  after_results_simp
  simp only [val1_main_v41, val1_main_v42] <;> rfl
set_option maxHeartbeats 2000000 in
theorem val2_main_v51 : val2 V (no_index (Proc.devRef .tc main_v51)) = Spec.labels (V (Proc.devRef .tc main_arg13)) := by
  unfold val2
  simp only [ops1]
  after_results_simp
  simp only [val1_main_arg13] <;> rfl
set_option maxHeartbeats 2000000 in
theorem val2_main_v84 : val2 V (no_index (Proc.devRef .tc main_v84)) = Spec.x2 (V (Proc.devRef .tc main_arg0)) (V (Proc.devRef .tc main_arg1)) (V (Proc.devRef .tc main_arg2)) (V (Proc.devRef .tc main_arg7)) (V (Proc.devRef .tc main_arg8)) := by
  unfold val2
  simp only [ops1]
  after_results_simp
  simp only [val1_main_v19, val1_main_v9, val1_main_arg7, val1_main_arg0, val1_main_arg8] <;> rfl
set_option maxHeartbeats 2000000 in
theorem val2_main_v87 : val2 V (no_index (Proc.devRef .tc main_v87)) = Spec.var (Spec.x2 (V (Proc.devRef .tc main_arg0)) (V (Proc.devRef .tc main_arg1)) (V (Proc.devRef .tc main_arg2)) (V (Proc.devRef .tc main_arg7)) (V (Proc.devRef .tc main_arg8))) := by
  unfold val2
  simp only [ops1]
  after_results_simp
  simp only [val1_main_v19, val1_main_v9, val1_main_arg7, val1_main_arg0, val1_main_arg8] <;> rfl
set_option maxHeartbeats 2000000 in
theorem val2_main_v88 : val2 V (no_index (Proc.devRef .tc main_v88)) = mulf (Spec.mk (V (Proc.devRef .tc main_arg3))) (Spec.mk (V (Proc.devRef .tc main_arg3))) := by
  unfold val2
  simp only [ops1]
  after_results_simp
  simp only [val1_main_v29] <;> rfl
set_option maxHeartbeats 2000000 in
theorem val2_main_v89 : val2 V (no_index (Proc.devRef .tc main_v89)) = Host.dotGeneral dot_S512x512_S512x512_S512x512_1_0_0_1_n_n none (Spec.var (Spec.x2 (V (Proc.devRef .tc main_arg0)) (V (Proc.devRef .tc main_arg1)) (V (Proc.devRef .tc main_arg2)) (V (Proc.devRef .tc main_arg7)) (V (Proc.devRef .tc main_arg8)))) (mulf (Spec.mk (V (Proc.devRef .tc main_arg3))) (Spec.mk (V (Proc.devRef .tc main_arg3)))) := by
  unfold val2
  simp only [ops1]
  after_results_simp
  simp only [val1_main_v29, val1_main_v19, val1_main_v9, val1_main_arg7, val1_main_arg0, val1_main_arg8] <;> rfl
set_option maxHeartbeats 2000000 in
theorem val2_main_v90 : val2 V (no_index (Proc.devRef .tc main_v90)) = Spec.splat S512x512 bcast_S_S512x512 0x3F800000#32 := by
  unfold val2
  simp only [ops1]
  after_results_simp
  all_goals rfl

/-- The buffers that window `ops2` writes. -/
abbrev ops2_W : List (Ref sig .tc) := [main_v91, main_cst_28, main_v92, main_v93, main_v94, main_v95, main_v96, main_v97, main_v98, main_cst_29, main_v99, main_v100, main_v101, main_v102, main_v103, main_v104, main_v105, main_cst_30, main_v106, main_v107, main_cst_31, main_v108, main_v109, main_v110, main_v111, main_v112, main_v113, main_v114, main_cst_32, main_v115, main_v116, main_v117, main_v118, main_v119, main_v120, main_cst_33, main_v121, main_v122, main_v123, main_v124, main_c, main_v125, main_v126, main_v127, main_v128, main_v129, main_v130, main_v131, main_v132, main_v133, main_v134, main_v135, main_cst_34, main_v136, main_v137, main_cst_35, main_v138, main_v139, main_v140, main_v141]
theorem ops2_writes : (ops2 : List (HloOp τ sig (Elt F))).Forall fun op => op.writes ⊆ (ops2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's contents after the first 3 windows. -/
def val3 : Valuation τ sig (Elt F) := after ops2 (val2 V)
/-- A buffer that window `ops2` does not write keeps its contents through it. -/
theorem val3_keep (r : Ref sig .tc) (h : r ∉ ops2_W) : val3 V (Proc.devRef .tc r) = val2 V (Proc.devRef .tc r) :=
  after_of_writes_sub ops2 _ ops2_writes h
theorem val3_main_arg0 : val3 V (no_index (Proc.devRef .tc main_arg0)) = V (Proc.devRef .tc main_arg0) :=
  (val3_keep V main_arg0 (by decide)).trans (val2_main_arg0 V)
theorem val3_main_arg1 : val3 V (no_index (Proc.devRef .tc main_arg1)) = V (Proc.devRef .tc main_arg1) :=
  (val3_keep V main_arg1 (by decide)).trans (val2_main_arg1 V)
theorem val3_main_arg2 : val3 V (no_index (Proc.devRef .tc main_arg2)) = V (Proc.devRef .tc main_arg2) :=
  (val3_keep V main_arg2 (by decide)).trans (val2_main_arg2 V)
theorem val3_main_arg3 : val3 V (no_index (Proc.devRef .tc main_arg3)) = V (Proc.devRef .tc main_arg3) :=
  (val3_keep V main_arg3 (by decide)).trans (val2_main_arg3 V)
theorem val3_main_arg4 : val3 V (no_index (Proc.devRef .tc main_arg4)) = V (Proc.devRef .tc main_arg4) :=
  (val3_keep V main_arg4 (by decide)).trans (val2_main_arg4 V)
theorem val3_main_arg5 : val3 V (no_index (Proc.devRef .tc main_arg5)) = V (Proc.devRef .tc main_arg5) :=
  (val3_keep V main_arg5 (by decide)).trans (val2_main_arg5 V)
theorem val3_main_arg6 : val3 V (no_index (Proc.devRef .tc main_arg6)) = V (Proc.devRef .tc main_arg6) :=
  (val3_keep V main_arg6 (by decide)).trans (val2_main_arg6 V)
theorem val3_main_arg7 : val3 V (no_index (Proc.devRef .tc main_arg7)) = V (Proc.devRef .tc main_arg7) :=
  (val3_keep V main_arg7 (by decide)).trans (val2_main_arg7 V)
theorem val3_main_arg8 : val3 V (no_index (Proc.devRef .tc main_arg8)) = V (Proc.devRef .tc main_arg8) :=
  (val3_keep V main_arg8 (by decide)).trans (val2_main_arg8 V)
theorem val3_main_arg9 : val3 V (no_index (Proc.devRef .tc main_arg9)) = V (Proc.devRef .tc main_arg9) :=
  (val3_keep V main_arg9 (by decide)).trans (val2_main_arg9 V)
theorem val3_main_arg10 : val3 V (no_index (Proc.devRef .tc main_arg10)) = V (Proc.devRef .tc main_arg10) :=
  (val3_keep V main_arg10 (by decide)).trans (val2_main_arg10 V)
theorem val3_main_arg11 : val3 V (no_index (Proc.devRef .tc main_arg11)) = V (Proc.devRef .tc main_arg11) :=
  (val3_keep V main_arg11 (by decide)).trans (val2_main_arg11 V)
theorem val3_main_arg12 : val3 V (no_index (Proc.devRef .tc main_arg12)) = V (Proc.devRef .tc main_arg12) :=
  (val3_keep V main_arg12 (by decide)).trans (val2_main_arg12 V)
theorem val3_main_arg13 : val3 V (no_index (Proc.devRef .tc main_arg13)) = V (Proc.devRef .tc main_arg13) :=
  (val3_keep V main_arg13 (by decide)).trans (val2_main_arg13 V)
theorem val3_main_v49 : val3 V (no_index (Proc.devRef .tc main_v49)) = Spec.ml (V (Proc.devRef .tc main_arg6)) :=
  (val3_keep V main_v49 (by decide)).trans (val2_main_v49 V)
theorem val3_main_v51 : val3 V (no_index (Proc.devRef .tc main_v51)) = Spec.labels (V (Proc.devRef .tc main_arg13)) :=
  (val3_keep V main_v51 (by decide)).trans (val2_main_v51 V)
set_option maxHeartbeats 2000000 in
theorem val3_main_v119 : val3 V (no_index (Proc.devRef .tc main_v119)) = Spec.x4 (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10)) := by
  unfold val3
  simp only [ops2]
  after_results_simp
  simp only [val2_main_v39, val2_main_v87, val2_main_arg10, val2_main_v88, val2_main_v90, val2_main_v89, val2_main_arg9, val2_main_v29, val2_main_v84] <;> rfl
set_option maxHeartbeats 2000000 in
theorem val3_main_v133 : val3 V (no_index (Proc.devRef .tc main_v133)) = Spec.diagEmbed (Spec.d4 (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10))) := by
  unfold val3
  simp only [ops2]
  after_results_simp
  simp only [val2_main_v39, val2_main_v87, val2_main_arg10, val2_main_v88, val2_main_v90, val2_main_v89, val2_main_arg9, val2_main_v29, val2_main_v84] <;> rfl
set_option maxHeartbeats 2000000 in
theorem val3_main_v141 : val3 V (no_index (Proc.devRef .tc main_v141)) = Spec.headVar (Spec.d4 (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10))) (Spec.ml (V (Proc.devRef .tc main_arg6))) := by
  unfold val3
  simp only [ops2]
  after_results_simp
  simp only [val2_main_v49, val2_main_v39, val2_main_v87, val2_main_arg10, val2_main_v88, val2_main_v90, val2_main_v89, val2_main_arg9, val2_main_v29, val2_main_v84] <;> rfl

/-- The buffers that window `ops3a` writes. -/
abbrev ops3a_W : List (Ref sig .tc) := [main_v142, main_v143, main_v144, main_cst_36, main_v145, main_v146, main_v147, main_v148]
theorem ops3a_writes : (ops3a : List (HloOp τ sig (Elt F))).Forall fun op => op.writes ⊆ (ops3a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's contents after the first 4 windows. -/
def val4 : Valuation τ sig (Elt F) := after ops3a (val3 V)
/-- A buffer that window `ops3a` does not write keeps its contents through it. -/
theorem val4_keep (r : Ref sig .tc) (h : r ∉ ops3a_W) : val4 V (Proc.devRef .tc r) = val3 V (Proc.devRef .tc r) :=
  after_of_writes_sub ops3a _ ops3a_writes h
theorem val4_main_arg0 : val4 V (no_index (Proc.devRef .tc main_arg0)) = V (Proc.devRef .tc main_arg0) :=
  (val4_keep V main_arg0 (by decide)).trans (val3_main_arg0 V)
theorem val4_main_arg1 : val4 V (no_index (Proc.devRef .tc main_arg1)) = V (Proc.devRef .tc main_arg1) :=
  (val4_keep V main_arg1 (by decide)).trans (val3_main_arg1 V)
theorem val4_main_arg2 : val4 V (no_index (Proc.devRef .tc main_arg2)) = V (Proc.devRef .tc main_arg2) :=
  (val4_keep V main_arg2 (by decide)).trans (val3_main_arg2 V)
theorem val4_main_arg3 : val4 V (no_index (Proc.devRef .tc main_arg3)) = V (Proc.devRef .tc main_arg3) :=
  (val4_keep V main_arg3 (by decide)).trans (val3_main_arg3 V)
theorem val4_main_arg4 : val4 V (no_index (Proc.devRef .tc main_arg4)) = V (Proc.devRef .tc main_arg4) :=
  (val4_keep V main_arg4 (by decide)).trans (val3_main_arg4 V)
theorem val4_main_arg5 : val4 V (no_index (Proc.devRef .tc main_arg5)) = V (Proc.devRef .tc main_arg5) :=
  (val4_keep V main_arg5 (by decide)).trans (val3_main_arg5 V)
theorem val4_main_arg6 : val4 V (no_index (Proc.devRef .tc main_arg6)) = V (Proc.devRef .tc main_arg6) :=
  (val4_keep V main_arg6 (by decide)).trans (val3_main_arg6 V)
theorem val4_main_arg7 : val4 V (no_index (Proc.devRef .tc main_arg7)) = V (Proc.devRef .tc main_arg7) :=
  (val4_keep V main_arg7 (by decide)).trans (val3_main_arg7 V)
theorem val4_main_arg8 : val4 V (no_index (Proc.devRef .tc main_arg8)) = V (Proc.devRef .tc main_arg8) :=
  (val4_keep V main_arg8 (by decide)).trans (val3_main_arg8 V)
theorem val4_main_arg9 : val4 V (no_index (Proc.devRef .tc main_arg9)) = V (Proc.devRef .tc main_arg9) :=
  (val4_keep V main_arg9 (by decide)).trans (val3_main_arg9 V)
theorem val4_main_arg10 : val4 V (no_index (Proc.devRef .tc main_arg10)) = V (Proc.devRef .tc main_arg10) :=
  (val4_keep V main_arg10 (by decide)).trans (val3_main_arg10 V)
theorem val4_main_arg11 : val4 V (no_index (Proc.devRef .tc main_arg11)) = V (Proc.devRef .tc main_arg11) :=
  (val4_keep V main_arg11 (by decide)).trans (val3_main_arg11 V)
theorem val4_main_arg12 : val4 V (no_index (Proc.devRef .tc main_arg12)) = V (Proc.devRef .tc main_arg12) :=
  (val4_keep V main_arg12 (by decide)).trans (val3_main_arg12 V)
theorem val4_main_arg13 : val4 V (no_index (Proc.devRef .tc main_arg13)) = V (Proc.devRef .tc main_arg13) :=
  (val4_keep V main_arg13 (by decide)).trans (val3_main_arg13 V)
theorem val4_main_v51 : val4 V (no_index (Proc.devRef .tc main_v51)) = Spec.labels (V (Proc.devRef .tc main_arg13)) :=
  (val4_keep V main_v51 (by decide)).trans (val3_main_v51 V)
theorem val4_main_v133 : val4 V (no_index (Proc.devRef .tc main_v133)) = Spec.diagEmbed (Spec.d4 (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10))) :=
  (val4_keep V main_v133 (by decide)).trans (val3_main_v133 V)
set_option maxHeartbeats 2000000 in
theorem val4_main_v144 : val4 V (no_index (Proc.devRef .tc main_v144)) = Spec.hbar (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg12)) := by
  unfold val4
  simp only [ops3a]
  after_results_simp
  simp only [val3_main_arg12, val3_main_v49, val3_main_v119] <;> rfl
set_option maxHeartbeats 2000000 in
theorem val4_main_v148 : val4 V (no_index (Proc.devRef .tc main_v148)) = Spec.hstd (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg12)) := by
  unfold val4
  simp only [ops3a]
  after_results_simp
  simp only [val3_main_v141, val3_main_arg12, val3_main_v49, val3_main_v119] <;> rfl

/-- The buffers that window `ops3b` writes. -/
abbrev ops3b_W : List (Ref sig .tc) := [main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1, main_v149, main_v150, main_call1_v0, main_call1_call0_cst, main_call1_call0_v0, main_call1_call0_v1, main_call1_call0_v2, main_call1_call0_v3, main_call1_call0_v4, main_call1_call0_v5, main_call1_call0_v6, main_call1_call0_v7, main_call1_call0_v8, main_call1_call0_v9, main_call1_call0_v10, main_call1_call0_v11, main_call1_v1, main_v151]
theorem ops3b_writes : (ops3b : List (HloOp τ sig (Elt F))).Forall fun op => op.writes ⊆ (ops3b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's contents after the first 5 windows. -/
def val5 : Valuation τ sig (Elt F) := after ops3b (val4 V)
/-- A buffer that window `ops3b` does not write keeps its contents through it. -/
theorem val5_keep (r : Ref sig .tc) (h : r ∉ ops3b_W) : val5 V (Proc.devRef .tc r) = val4 V (Proc.devRef .tc r) :=
  after_of_writes_sub ops3b _ ops3b_writes h
theorem val5_main_arg0 : val5 V (no_index (Proc.devRef .tc main_arg0)) = V (Proc.devRef .tc main_arg0) :=
  (val5_keep V main_arg0 (by decide)).trans (val4_main_arg0 V)
theorem val5_main_arg1 : val5 V (no_index (Proc.devRef .tc main_arg1)) = V (Proc.devRef .tc main_arg1) :=
  (val5_keep V main_arg1 (by decide)).trans (val4_main_arg1 V)
theorem val5_main_arg2 : val5 V (no_index (Proc.devRef .tc main_arg2)) = V (Proc.devRef .tc main_arg2) :=
  (val5_keep V main_arg2 (by decide)).trans (val4_main_arg2 V)
theorem val5_main_arg3 : val5 V (no_index (Proc.devRef .tc main_arg3)) = V (Proc.devRef .tc main_arg3) :=
  (val5_keep V main_arg3 (by decide)).trans (val4_main_arg3 V)
theorem val5_main_arg4 : val5 V (no_index (Proc.devRef .tc main_arg4)) = V (Proc.devRef .tc main_arg4) :=
  (val5_keep V main_arg4 (by decide)).trans (val4_main_arg4 V)
theorem val5_main_arg5 : val5 V (no_index (Proc.devRef .tc main_arg5)) = V (Proc.devRef .tc main_arg5) :=
  (val5_keep V main_arg5 (by decide)).trans (val4_main_arg5 V)
theorem val5_main_arg6 : val5 V (no_index (Proc.devRef .tc main_arg6)) = V (Proc.devRef .tc main_arg6) :=
  (val5_keep V main_arg6 (by decide)).trans (val4_main_arg6 V)
theorem val5_main_arg7 : val5 V (no_index (Proc.devRef .tc main_arg7)) = V (Proc.devRef .tc main_arg7) :=
  (val5_keep V main_arg7 (by decide)).trans (val4_main_arg7 V)
theorem val5_main_arg8 : val5 V (no_index (Proc.devRef .tc main_arg8)) = V (Proc.devRef .tc main_arg8) :=
  (val5_keep V main_arg8 (by decide)).trans (val4_main_arg8 V)
theorem val5_main_arg9 : val5 V (no_index (Proc.devRef .tc main_arg9)) = V (Proc.devRef .tc main_arg9) :=
  (val5_keep V main_arg9 (by decide)).trans (val4_main_arg9 V)
theorem val5_main_arg10 : val5 V (no_index (Proc.devRef .tc main_arg10)) = V (Proc.devRef .tc main_arg10) :=
  (val5_keep V main_arg10 (by decide)).trans (val4_main_arg10 V)
theorem val5_main_arg11 : val5 V (no_index (Proc.devRef .tc main_arg11)) = V (Proc.devRef .tc main_arg11) :=
  (val5_keep V main_arg11 (by decide)).trans (val4_main_arg11 V)
theorem val5_main_arg12 : val5 V (no_index (Proc.devRef .tc main_arg12)) = V (Proc.devRef .tc main_arg12) :=
  (val5_keep V main_arg12 (by decide)).trans (val4_main_arg12 V)
theorem val5_main_arg13 : val5 V (no_index (Proc.devRef .tc main_arg13)) = V (Proc.devRef .tc main_arg13) :=
  (val5_keep V main_arg13 (by decide)).trans (val4_main_arg13 V)
theorem val5_main_v51 : val5 V (no_index (Proc.devRef .tc main_v51)) = Spec.labels (V (Proc.devRef .tc main_arg13)) :=
  (val5_keep V main_v51 (by decide)).trans (val4_main_v51 V)
theorem val5_main_v133 : val5 V (no_index (Proc.devRef .tc main_v133)) = Spec.diagEmbed (Spec.d4 (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10))) :=
  (val5_keep V main_v133 (by decide)).trans (val4_main_v133 V)
theorem val5_main_v144 : val5 V (no_index (Proc.devRef .tc main_v144)) = Spec.hbar (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg12)) :=
  (val5_keep V main_v144 (by decide)).trans (val4_main_v144 V)
theorem val5_main_v148 : val5 V (no_index (Proc.devRef .tc main_v148)) = Spec.hstd (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg12)) :=
  (val5_keep V main_v148 (by decide)).trans (val4_main_v148 V)
set_option maxHeartbeats 2000000 in
theorem val5_main_v149 : val5 V (no_index (Proc.devRef .tc main_v149)) = Spec.logSigmoid (Spec.hstd (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg12))) := by
  unfold val5
  simp only [ops3b]
  after_results_simp
  simp only [val4_main_v148] <;> rfl
set_option maxHeartbeats 2000000 in
theorem val5_main_v151 : val5 V (no_index (Proc.devRef .tc main_v151)) = Spec.logSigmoid (Host.negf (Spec.hstd (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg12)))) := by
  unfold val5
  simp only [ops3b]
  after_results_simp
  simp only [val4_main_v148] <;> rfl

/-- The buffers that window `ops3c` writes. -/
abbrev ops3c_W : List (Ref sig .tc) := [main_v152, main_v153, main_v154, main_cst_37, main_v155, main_v156, main_v157, main_v158, main_v159, main_cst_38, main_v160, main_cst_39, main_v161, main_v162, main_v163, main_v164, main_cst_40, main_v165, main_v166, main_cst_41, main_v167, main_v168, main_cst_42, main_v169, main_v170, main_v171, main_v172, main_v173, main_cst_43, main_v174, main_cst_44, main_v175, main_cst_45, main_v176]
theorem ops3c_writes : (ops3c : List (HloOp τ sig (Elt F))).Forall fun op => op.writes ⊆ (ops3c_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The device's contents after the first 6 windows. -/
def val6 : Valuation τ sig (Elt F) := after ops3c (val5 V)
/-- A buffer that window `ops3c` does not write keeps its contents through it. -/
theorem val6_keep (r : Ref sig .tc) (h : r ∉ ops3c_W) : val6 V (Proc.devRef .tc r) = val5 V (Proc.devRef .tc r) :=
  after_of_writes_sub ops3c _ ops3c_writes h
theorem val6_main_arg0 : val6 V (no_index (Proc.devRef .tc main_arg0)) = V (Proc.devRef .tc main_arg0) :=
  (val6_keep V main_arg0 (by decide)).trans (val5_main_arg0 V)
theorem val6_main_arg1 : val6 V (no_index (Proc.devRef .tc main_arg1)) = V (Proc.devRef .tc main_arg1) :=
  (val6_keep V main_arg1 (by decide)).trans (val5_main_arg1 V)
theorem val6_main_arg2 : val6 V (no_index (Proc.devRef .tc main_arg2)) = V (Proc.devRef .tc main_arg2) :=
  (val6_keep V main_arg2 (by decide)).trans (val5_main_arg2 V)
theorem val6_main_arg3 : val6 V (no_index (Proc.devRef .tc main_arg3)) = V (Proc.devRef .tc main_arg3) :=
  (val6_keep V main_arg3 (by decide)).trans (val5_main_arg3 V)
theorem val6_main_arg4 : val6 V (no_index (Proc.devRef .tc main_arg4)) = V (Proc.devRef .tc main_arg4) :=
  (val6_keep V main_arg4 (by decide)).trans (val5_main_arg4 V)
theorem val6_main_arg5 : val6 V (no_index (Proc.devRef .tc main_arg5)) = V (Proc.devRef .tc main_arg5) :=
  (val6_keep V main_arg5 (by decide)).trans (val5_main_arg5 V)
theorem val6_main_arg6 : val6 V (no_index (Proc.devRef .tc main_arg6)) = V (Proc.devRef .tc main_arg6) :=
  (val6_keep V main_arg6 (by decide)).trans (val5_main_arg6 V)
theorem val6_main_arg7 : val6 V (no_index (Proc.devRef .tc main_arg7)) = V (Proc.devRef .tc main_arg7) :=
  (val6_keep V main_arg7 (by decide)).trans (val5_main_arg7 V)
theorem val6_main_arg8 : val6 V (no_index (Proc.devRef .tc main_arg8)) = V (Proc.devRef .tc main_arg8) :=
  (val6_keep V main_arg8 (by decide)).trans (val5_main_arg8 V)
theorem val6_main_arg9 : val6 V (no_index (Proc.devRef .tc main_arg9)) = V (Proc.devRef .tc main_arg9) :=
  (val6_keep V main_arg9 (by decide)).trans (val5_main_arg9 V)
theorem val6_main_arg10 : val6 V (no_index (Proc.devRef .tc main_arg10)) = V (Proc.devRef .tc main_arg10) :=
  (val6_keep V main_arg10 (by decide)).trans (val5_main_arg10 V)
theorem val6_main_arg11 : val6 V (no_index (Proc.devRef .tc main_arg11)) = V (Proc.devRef .tc main_arg11) :=
  (val6_keep V main_arg11 (by decide)).trans (val5_main_arg11 V)
theorem val6_main_arg12 : val6 V (no_index (Proc.devRef .tc main_arg12)) = V (Proc.devRef .tc main_arg12) :=
  (val6_keep V main_arg12 (by decide)).trans (val5_main_arg12 V)
theorem val6_main_arg13 : val6 V (no_index (Proc.devRef .tc main_arg13)) = V (Proc.devRef .tc main_arg13) :=
  (val6_keep V main_arg13 (by decide)).trans (val5_main_arg13 V)
theorem val6_main_v133 : val6 V (no_index (Proc.devRef .tc main_v133)) = Spec.diagEmbed (Spec.d4 (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10))) :=
  (val6_keep V main_v133 (by decide)).trans (val5_main_v133 V)
theorem val6_main_v144 : val6 V (no_index (Proc.devRef .tc main_v144)) = Spec.hbar (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg12)) :=
  (val6_keep V main_v144 (by decide)).trans (val5_main_v144 V)
theorem val6_main_v149 : val6 V (no_index (Proc.devRef .tc main_v149)) = Spec.logSigmoid (Spec.hstd (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg12))) :=
  (val6_keep V main_v149 (by decide)).trans (val5_main_v149 V)
set_option maxHeartbeats 2000000 in
theorem val6_main_v162 : val6 V (no_index (Proc.devRef .tc main_v162)) = Spec.loss (V (Proc.devRef .tc main_arg13)) (Spec.logSigmoid (Spec.hstd (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg12)))) (Spec.hstd (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg12))) := by
  unfold val6
  simp only [ops3c]
  after_results_simp
  simp only [val5_main_v151, val5_main_v51, val5_main_v149] <;> rfl
set_option maxHeartbeats 2000000 in
theorem val6_main_v176 : val6 V (no_index (Proc.devRef .tc main_v176)) = Spec.fracCorrect (V (Proc.devRef .tc main_arg13)) (Spec.hstd (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg12))) := by
  unfold val6
  simp only [ops3c]
  after_results_simp
  simp only [val5_main_v51, val5_main_v148] <;> rfl

/-- The line's fold is the last window's contents. -/
theorem after_ops : after ops V = val6 V := by
  simp only [ops, ops3, after_append]
  rfl

/-! ## The results and the arguments -/

theorem after_main_v144 : after ops V (Proc.devRef .tc main_v144) = Spec.hbar (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg12)) := by
  rw [after_ops]; exact val6_main_v144 V
theorem after_main_v149 : after ops V (Proc.devRef .tc main_v149) = Spec.logSigmoid (Spec.hstd (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg12))) := by
  rw [after_ops]; exact val6_main_v149 V
theorem after_main_v133 : after ops V (Proc.devRef .tc main_v133) = Spec.diagEmbed (Spec.d4 (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg8)) (V (Proc.devRef .tc main_arg9)) (V (Proc.devRef .tc main_arg10))) := by
  rw [after_ops]; exact val6_main_v133 V
theorem after_main_v162 : after ops V (Proc.devRef .tc main_v162) = Spec.loss (V (Proc.devRef .tc main_arg13)) (Spec.logSigmoid (Spec.hstd (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg12)))) (Spec.hstd (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg12))) := by
  rw [after_ops]; exact val6_main_v162 V
theorem after_main_v176 : after ops V (Proc.devRef .tc main_v176) = Spec.fracCorrect (V (Proc.devRef .tc main_arg13)) (Spec.hstd (V (Proc.devRef .tc main_arg0)) (V (Proc.devRef .tc main_arg1)) (V (Proc.devRef .tc main_arg2)) (V (Proc.devRef .tc main_arg3)) (V (Proc.devRef .tc main_arg4)) (V (Proc.devRef .tc main_arg6)) (V (Proc.devRef .tc main_arg7)) (V (Proc.devRef .tc main_arg8)) (V (Proc.devRef .tc main_arg9)) (V (Proc.devRef .tc main_arg10)) (V (Proc.devRef .tc main_arg12))) := by
  rw [after_ops]; exact val6_main_v176 V
theorem after_main_arg0 : after ops V (Proc.devRef .tc main_arg0) = V (Proc.devRef .tc main_arg0) := by
  rw [after_ops]; exact val6_main_arg0 V
theorem after_main_arg1 : after ops V (Proc.devRef .tc main_arg1) = V (Proc.devRef .tc main_arg1) := by
  rw [after_ops]; exact val6_main_arg1 V
theorem after_main_arg2 : after ops V (Proc.devRef .tc main_arg2) = V (Proc.devRef .tc main_arg2) := by
  rw [after_ops]; exact val6_main_arg2 V
theorem after_main_arg3 : after ops V (Proc.devRef .tc main_arg3) = V (Proc.devRef .tc main_arg3) := by
  rw [after_ops]; exact val6_main_arg3 V
theorem after_main_arg4 : after ops V (Proc.devRef .tc main_arg4) = V (Proc.devRef .tc main_arg4) := by
  rw [after_ops]; exact val6_main_arg4 V
theorem after_main_arg5 : after ops V (Proc.devRef .tc main_arg5) = V (Proc.devRef .tc main_arg5) := by
  rw [after_ops]; exact val6_main_arg5 V
theorem after_main_arg6 : after ops V (Proc.devRef .tc main_arg6) = V (Proc.devRef .tc main_arg6) := by
  rw [after_ops]; exact val6_main_arg6 V
theorem after_main_arg7 : after ops V (Proc.devRef .tc main_arg7) = V (Proc.devRef .tc main_arg7) := by
  rw [after_ops]; exact val6_main_arg7 V
theorem after_main_arg8 : after ops V (Proc.devRef .tc main_arg8) = V (Proc.devRef .tc main_arg8) := by
  rw [after_ops]; exact val6_main_arg8 V
theorem after_main_arg9 : after ops V (Proc.devRef .tc main_arg9) = V (Proc.devRef .tc main_arg9) := by
  rw [after_ops]; exact val6_main_arg9 V
theorem after_main_arg10 : after ops V (Proc.devRef .tc main_arg10) = V (Proc.devRef .tc main_arg10) := by
  rw [after_ops]; exact val6_main_arg10 V
theorem after_main_arg11 : after ops V (Proc.devRef .tc main_arg11) = V (Proc.devRef .tc main_arg11) := by
  rw [after_ops]; exact val6_main_arg11 V
theorem after_main_arg12 : after ops V (Proc.devRef .tc main_arg12) = V (Proc.devRef .tc main_arg12) := by
  rw [after_ops]; exact val6_main_arg12 V
theorem after_main_arg13 : after ops V (Proc.devRef .tc main_arg13) = V (Proc.devRef .tc main_arg13) := by
  rw [after_ops]; exact val6_main_arg13 V

/-- On every device, for any float values, from any memory with zero counters: every weakly fair execution of
    @main terminates with each result at its stage of the specification applied to the arguments' launch contents,
    and the arguments unchanged. -/
theorem run_spec (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v144) = Spec.hbar (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12))
      ∧ r.2.mem ((c.tc : Thread nD τ).loc main_v149) = Spec.logSigmoid (Spec.hstd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)))
      ∧ r.2.mem ((c.tc : Thread nD τ).loc main_v133) = Spec.diagEmbed (Spec.d4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)))
      ∧ r.2.mem ((c.tc : Thread nD τ).loc main_v162) = Spec.loss (m ((c.tc : Thread nD τ).loc main_arg13)) (Spec.logSigmoid (Spec.hstd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)))) (Spec.hstd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)))
      ∧ r.2.mem ((c.tc : Thread nD τ).loc main_v176) = Spec.fracCorrect (m ((c.tc : Thread nD τ).loc main_arg13)) (Spec.hstd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v144).trans (after_main_v144 (launchContents m c)),
      (h c main_v149).trans (after_main_v149 (launchContents m c)),
      (h c main_v133).trans (after_main_v133 (launchContents m c)),
      (h c main_v162).trans (after_main_v162 (launchContents m c)),
      (h c main_v176).trans (after_main_v176 (launchContents m c)),
      (h c main_arg0).trans (after_main_arg0 (launchContents m c)),
      (h c main_arg1).trans (after_main_arg1 (launchContents m c)),
      (h c main_arg2).trans (after_main_arg2 (launchContents m c)),
      (h c main_arg3).trans (after_main_arg3 (launchContents m c)),
      (h c main_arg4).trans (after_main_arg4 (launchContents m c)),
      (h c main_arg5).trans (after_main_arg5 (launchContents m c)),
      (h c main_arg6).trans (after_main_arg6 (launchContents m c)),
      (h c main_arg7).trans (after_main_arg7 (launchContents m c)),
      (h c main_arg8).trans (after_main_arg8 (launchContents m c)),
      (h c main_arg9).trans (after_main_arg9 (launchContents m c)),
      (h c main_arg10).trans (after_main_arg10 (launchContents m c)),
      (h c main_arg11).trans (after_main_arg11 (launchContents m c)),
      (h c main_arg12).trans (after_main_arg12 (launchContents m c)),
      (h c main_arg13).trans (after_main_arg13 (launchContents m c))⟩)
    (run_main m ρ)

end Cert.ReferenceIdeal.RefRun

end
-- ==== Proof.KerRun.lean ====
/- The idealized kernel program's run, with values: the run leaves every unscoped buffer at the last boundary's
   contents; those contents, walked back through the host stretches and the two regions, are what the regions'
   write-backs and the host operations computed from the arguments. -/
import proofs.«173796_j40003325394948_2_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run ends with every unscoped buffer at the last boundary's contents -/

set_option backward.isDefEq.respectTransparency.types false in
/-- From any memory with zero counters, every weakly fair execution of the program on the TensorCores terminates,
    nothing faulting, and in every final state each unscoped TensorCore buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The same in the shape a value claim reads: in every final state each of the five results holds the last
    boundary's contents at its buffer, and each of the fourteen arguments what it held at launch. -/
theorem run_results : θ_run defs (onTc (τ := τ) (main (F := F))) ⟨m, fun _ => 0, ρ⟩ (fun r => ∀ c : Dev nD,
      r.2.mem ((c.tc : Thread nD τ).loc main_v75_0) = W7 m ρ c (Proc.devRef .tc main_v75_0)
      ∧       r.2.mem ((c.tc : Thread nD τ).loc main_v75_1) = W7 m ρ c (Proc.devRef .tc main_v75_1)
      ∧       r.2.mem ((c.tc : Thread nD τ).loc main_v82) = W7 m ρ c (Proc.devRef .tc main_v82)
      ∧       r.2.mem ((c.tc : Thread nD τ).loc main_v97) = W7 m ρ c (Proc.devRef .tc main_v97)
      ∧       r.2.mem ((c.tc : Thread nD τ).loc main_v111) = W7 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_uc main_v75_0 (by decide)),
     h c _ (mem_uc main_v75_1 (by decide)),
     h c _ (mem_uc main_v82 (by decide)),
     h c _ (mem_uc main_v97 (by decide)),
     h c _ (mem_uc main_v111 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c),
     (h c _ (mem_uc main_arg12 (by decide))).trans (W7_main_arg12 m ρ c),
     (h c _ (mem_uc main_arg13 (by decide))).trans (W7_main_arg13 m ρ c)⟩) (run_all m ρ)

end Cert.KernelIdeal.KerRun

end
-- ==== Proof.KerDefs.lean ====
/- The idealized kernel program's host operations as functions of the arrays they read, and the boundary contents of
   the run walked back through the host stretches and the two regions: each result, and each array a region's window
   reads, as what the regions' write-backs and the host operations computed from the arguments. -/
import proofs.«173796_j40003325394948_2_alg».proof.Proof.Gen.KernelIdeal.Frame

set_option maxRecDepth 16384

noncomputable section

namespace Cert.KernelIdeal.KerRun

open Idealize.ShloMosaic Idealize.ShloMosaic.TcCoe Idealize.ShloMosaic.Tactic
open Idealize.ShloMosaic.Pipeline (Dat Cfg Window BodyObligation cellOf)
open Cert.KernelIdeal Cert.KernelIdeal.Gen

variable {F : FTy → Type} [FloatOps F]

/-! ## The host operations as functions -/

/-- A weight array `w` rescaled to `2·σ(w) − 1`, operation by operation as the host prefix computes it:
    `2 · (1 / (1 + exp (−w))) − 1`, each constant a broadcast scalar. -/
def mOf {S : Shape} (hb : S_.BroadcastsInDim S ![]) (w : FVec F S .f32) : FVec F S .f32 :=
  subf
    (mulf (broadcastInDim S ![] hb (constant (F := F) S_ .f32 0x40000000#32))
      (Host.divf (F := F) (broadcastInDim S ![] hb (constant (F := F) S_ .f32 0x3F800000#32))
        (addf (broadcastInDim S ![] hb (constant (F := F) S_ .f32 0x3F800000#32)) (Host.exp (F := F) (Host.negf (F := F) w)))))
    (broadcastInDim S ![] hb (constant (F := F) S_ .f32 0x3F800000#32))

/-- The column sums of `1 − M ⊙ M` for an `r × k` array `M`, kept as a `1 × k` row: the sum over axis 0 from `0`,
    then the row axis put back. -/
def colSumOf (r k : ℕ) (hb : S_.BroadcastsInDim (⟨2, ![r, k]⟩ : Shape) ![])
    (hr : Shape.ReducesTo (⟨2, ![r, k]⟩ : Shape) [0] (⟨1, ![k]⟩ : Shape))
    (hb' : Shape.BroadcastsInDim (⟨1, ![k]⟩ : Shape) (⟨2, ![1, k]⟩ : Shape) ![1])
    (M : FVec F (⟨2, ![r, k]⟩ : Shape) .f32) : FVec F (⟨2, ![1, k]⟩ : Shape) .f32 :=
  broadcastInDim (⟨2, ![1, k]⟩ : Shape) ![1] hb'
    (Host.reduceAdd (F := F)
      (subf (broadcastInDim (⟨2, ![r, k]⟩ : Shape) ![] hb (constant (F := F) S_ .f32 0x3F800000#32)) (mulf M M))
      (constant (F := F) S_ .f32 0x00000000#32) hr h_S_)

/-- The loss the tail computes from the integer targets, the kernel's per-row log-probability `logp` and its last
    pre-activation `hlast`: with `t` the targets as floats, `−(Σ_i (t_i · logp_i + (1 − t_i) · ℓ_i) / 512)`, where
    `ℓ = −softplus (−(−hlast))` is the log-sigmoid of `−hlast` in its overflow-safe form. -/
def lossOf (target : IVec S512 32) (logp hlast : FVec F S512x1 .f32) : FVec F S_ .f32 :=
  let v83 : FVec F S512 .f32 := sitofp (F := F) .f32 target
  let v84 : FVec F S512x1 .f32 := broadcastInDim S512x1 ![0] bcast_S512_S512x1_0 v83
  let v85 : FVec F S512 .f32 := shapeCast S512 v84 shapeCasts_S512x1_S512
  let v86 : FVec F S512x1 .f32 := Host.negf (F := F) hlast
  let x : FVec F S512x1 .f32 := Host.negf (F := F) v86
  let z : FVec F S512x1 .f32 := broadcastInDim S512x1 ![] bcast_S_S512x1 (constant (F := F) S_ .f32 0x00000000#32)
  let s1 : FVec F S512x1 .f32 := maximumf x z
  let s3 : FVec F S512x1 .f32 := subf x z
  let s4 : IVec S512x1 1 := cmpf .une s3 s3
  let s6 : FVec F S512x1 .f32 := addf x z
  let s10 : FVec F S512x1 .f32 := Host.log1p (F := F) (Host.exp (F := F) (Host.negf (F := F) (Host.absf (F := F) s3)))
  let s11 : FVec F S512x1 .f32 := addf s1 s10
  let s12 : FVec F S512x1 .f32 := select s4 s6 s11
  let v87 : FVec F S512x1 .f32 := Host.negf (F := F) s12
  let v88 : FVec F S512 .f32 := shapeCast S512 logp shapeCasts_S512x1_S512
  let v89 : FVec F S512 .f32 := mulf v85 v88
  let v91 : FVec F S512 .f32 := subf (broadcastInDim S512 ![] bcast_S_S512 (constant (F := F) S_ .f32 0x3F800000#32)) v85
  let v92 : FVec F S512 .f32 := shapeCast S512 v87 shapeCasts_S512x1_S512
  let v94 : FVec F S512 .f32 := addf v89 (mulf v91 v92)
  let v95 : FVec F S_ .f32 := Host.reduceAdd (F := F) v94 (constant (F := F) S_ .f32 0x00000000#32) reducesTo_S512_S_d0 h_S_
  Host.negf (F := F) (Host.divf (F := F) v95 (constant (F := F) S_ .f32 0x44000000#32))

/-- The fraction of rows classified right that the tail computes from the targets and the last pre-activation:
    `(512 − Σ_i |[σ(hlast_i) > 1/2] − t_i|) / 512`, with `σ(h) = 1 / (1 + exp (−h))`. -/
def fracOf (target : IVec S512 32) (hlast : FVec F S512x1 .f32) : FVec F S_ .f32 :=
  let v84 : FVec F S512x1 .f32 := broadcastInDim S512x1 ![0] bcast_S512_S512x1_0 (sitofp (F := F) .f32 target)
  let one : FVec F S512x1 .f32 := broadcastInDim S512x1 ![] bcast_S_S512x1 (constant (F := F) S_ .f32 0x3F800000#32)
  let v103 : FVec F S512x1 .f32 := Host.divf (F := F) one (addf one (Host.exp (F := F) (Host.negf (F := F) hlast)))
  let v105 : IVec S512x1 1 := cmpf .ogt v103 (broadcastInDim S512x1 ![] bcast_S_S512x1 (constant (F := F) S_ .f32 0x3F000000#32))
  let v108 : FVec F S512x1 .f32 := Host.absf (F := F) (subf (uitofp (F := F) .f32 v105) v84)
  let v109 : FVec F S_ .f32 := Host.reduceAdd (F := F) v108 (constant (F := F) S_ .f32 0x00000000#32) reducesTo_S512x1_S_d0_1 h_S_
  Host.divf (F := F) (subf (constant (F := F) S_ .f32 0x44000000#32) v109) (constant (F := F) S_ .f32 0x44000000#32)

/-- A line of host operations leaves a buffer none of them writes as it was. -/
macro "stretch_keeps" ops:ident : tactic =>
  `(tactic| exact StableHlo.after_of_forall_not_mem _ _ (List.forall_iff_forall_mem.mp (by
      simp only [$ops:ident, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

end Cert.KernelIdeal.KerRun

end
-- ==== Proof.KerHost.lean ====
/- The boundary contents of the idealized kernel program's run walked back through the tail, the second region, the
   identity-matrix stretch and the first region: each result as what the regions' write-backs and the tail computed. -/
import proofs.«173796_j40003325394948_2_alg».proof.Proof.KerDefs

set_option maxRecDepth 16384

noncomputable section

namespace Cert.KernelIdeal.KerRun

open Idealize.ShloMosaic Idealize.ShloMosaic.TcCoe Idealize.ShloMosaic.Tactic
open Idealize.ShloMosaic.Pipeline (Dat Cfg Window BodyObligation cellOf)
open Cert.KernelIdeal Cert.KernelIdeal.Gen

variable {F : FTy → Type} [FloatOps F]

/-! ## The tail and the identity matrix, from any contents they start at -/

set_option maxHeartbeats 4000000 in
/-- The loss result after the three tail stretches, from any contents `X`: `lossOf` of the targets and of the
    first region's second and third outputs as `X` holds them. -/
theorem tail_v97 (X : Valuation τ sig (Elt F)) :
    StableHlo.after hostOps2_2 (StableHlo.after hostOps2_1 (StableHlo.after hostOps2 X)) (Proc.devRef .tc main_v97)
      = lossOf (X (Proc.devRef .tc main_arg13)) (X (Proc.devRef .tc main_v75_1)) (X (Proc.devRef .tc main_v75_2)) := by
  dsimp only [hostOps2, hostOps2_1, hostOps2_2]
  after_results_simp
  rfl

set_option maxHeartbeats 4000000 in
/-- The accuracy result after the three tail stretches, from any contents `X`. -/
theorem tail_v111 (X : Valuation τ sig (Elt F)) :
    StableHlo.after hostOps2_2 (StableHlo.after hostOps2_1 (StableHlo.after hostOps2 X)) (Proc.devRef .tc main_v111)
      = fracOf (X (Proc.devRef .tc main_arg13)) (X (Proc.devRef .tc main_v75_2)) := by
  dsimp only [hostOps2, hostOps2_1, hostOps2_2]
  after_results_simp
  rfl

/-- The identity matrix the stretch between the regions builds, from any contents: `1` where the row index equals
    the column index, `0` elsewhere. -/
theorem eye_v81 (X : Valuation τ sig (Elt F)) :
    StableHlo.after hostOps1 X (Proc.devRef .tc main_v81)
      = (uitofp (F := F) .f32 (cmpi .eq (addi (iotaInDim S512x512 32 0)
          (broadcastInDim S512x512 ![] bcast_S_S512x512 (constantI S_ 32 0#32))) (iotaInDim S512x512 32 1)) : FVec F S512x512 .f32) := by
  dsimp only [hostOps1]
  after_results

variable (m : (ℓ : Loc nD τ sig) → Buf (Elt F) ℓ) (ρ : Dev nD → PrngReg)

/-! ## The second region's entry -/

/-- The second region reads the first region's fourth output as that region left it. -/
theorem V3_main_v75_3 (c : Dev nD) : V3 m ρ c main_v75_3 = (dat0 (V1 m ρ) c).arrAt 19 cfg0.N :=
  calc V3 m ρ c main_v75_3
    _ = W2 m ρ c (Proc.devRef .tc main_v75_3) := by stretch_keeps hostOps1
    _ = (dat0 (V1 m ρ) c).arrAt 19 cfg0.N := W2_arr m ρ c 19

/-- The second region's other input is the identity matrix. -/
theorem V3_main_v81 (c : Dev nD) : V3 m ρ c main_v81
      = (uitofp (F := F) .f32 (cmpi .eq (addi (iotaInDim S512x512 32 0)
          (broadcastInDim S512x512 ![] bcast_S_S512x512 (constantI S_ 32 0#32))) (iotaInDim S512x512 32 1)) : FVec F S512x512 .f32) :=
  eye_v81 (W2 m ρ c)

/-! ## The contents at the second region's exit, walked back -/

/-- The targets reach the tail as launched: no region and no stretch writes them. -/
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := by stretch_keeps hostOps1
    _ = W1 m ρ c (Proc.devRef .tc main_arg13) := W2_of_ne m ρ c main_arg13 (by decide)
    _ = W0 m ρ c (Proc.devRef .tc main_arg13) := by stretch_keeps hostOps0
    _ = m ((c : Thread nD τ).loc main_arg13) := rfl

/-- The first region's output window 16 reaches the tail as that region left it. -/
theorem W4_main_v75_0 (c : Dev nD) : W4 m ρ c (Proc.devRef .tc main_v75_0) = (dat0 (V1 m ρ) c).arrAt 16 cfg0.N :=
  calc W4 m ρ c (Proc.devRef .tc main_v75_0)
    _ = W3 m ρ c (Proc.devRef .tc main_v75_0) := W4_of_ne m ρ c main_v75_0 (by decide)
    _ = W2 m ρ c (Proc.devRef .tc main_v75_0) := by stretch_keeps hostOps1
    _ = (dat0 (V1 m ρ) c).arrAt 16 cfg0.N := W2_arr m ρ c 16

/-- The first region's output window 17 reaches the tail as that region left it. -/
theorem W4_main_v75_1 (c : Dev nD) : W4 m ρ c (Proc.devRef .tc main_v75_1) = (dat0 (V1 m ρ) c).arrAt 17 cfg0.N :=
  calc W4 m ρ c (Proc.devRef .tc main_v75_1)
    _ = W3 m ρ c (Proc.devRef .tc main_v75_1) := W4_of_ne m ρ c main_v75_1 (by decide)
    _ = W2 m ρ c (Proc.devRef .tc main_v75_1) := by stretch_keeps hostOps1
    _ = (dat0 (V1 m ρ) c).arrAt 17 cfg0.N := W2_arr m ρ c 17

/-- The first region's output window 18 reaches the tail as that region left it. -/
theorem W4_main_v75_2 (c : Dev nD) : W4 m ρ c (Proc.devRef .tc main_v75_2) = (dat0 (V1 m ρ) c).arrAt 18 cfg0.N :=
  calc W4 m ρ c (Proc.devRef .tc main_v75_2)
    _ = W3 m ρ c (Proc.devRef .tc main_v75_2) := W4_of_ne m ρ c main_v75_2 (by decide)
    _ = W2 m ρ c (Proc.devRef .tc main_v75_2) := by stretch_keeps hostOps1
    _ = (dat0 (V1 m ρ) c).arrAt 18 cfg0.N := W2_arr m ρ c 18

/-! ## The results -/

/-- Result `main_v75_0` is the first region's output window 16: nothing after that region writes it. -/
theorem W7_main_v75_0 (c : Dev nD) : W7 m ρ c (Proc.devRef .tc main_v75_0) = (dat0 (V1 m ρ) c).arrAt 16 cfg0.N :=
  calc W7 m ρ c (Proc.devRef .tc main_v75_0)
    _ = W6 m ρ c (Proc.devRef .tc main_v75_0) := by stretch_keeps hostOps2_2
    _ = W5 m ρ c (Proc.devRef .tc main_v75_0) := by stretch_keeps hostOps2_1
    _ = W4 m ρ c (Proc.devRef .tc main_v75_0) := by stretch_keeps hostOps2
    _ = (dat0 (V1 m ρ) c).arrAt 16 cfg0.N := W4_main_v75_0 m ρ c

/-- Result `main_v75_1` is the first region's output window 17: nothing after that region writes it. -/
theorem W7_main_v75_1 (c : Dev nD) : W7 m ρ c (Proc.devRef .tc main_v75_1) = (dat0 (V1 m ρ) c).arrAt 17 cfg0.N :=
  calc W7 m ρ c (Proc.devRef .tc main_v75_1)
    _ = W6 m ρ c (Proc.devRef .tc main_v75_1) := by stretch_keeps hostOps2_2
    _ = W5 m ρ c (Proc.devRef .tc main_v75_1) := by stretch_keeps hostOps2_1
    _ = W4 m ρ c (Proc.devRef .tc main_v75_1) := by stretch_keeps hostOps2
    _ = (dat0 (V1 m ρ) c).arrAt 17 cfg0.N := W4_main_v75_1 m ρ c

/-- Result `main_v82` is the second region's output window: the tail does not write it. -/
theorem W7_main_v82 (c : Dev nD) : W7 m ρ c (Proc.devRef .tc main_v82) = (dat1 (V3 m ρ) c).arrAt 2 cfg1.N :=
  calc W7 m ρ c (Proc.devRef .tc main_v82)
    _ = W6 m ρ c (Proc.devRef .tc main_v82) := by stretch_keeps hostOps2_2
    _ = W5 m ρ c (Proc.devRef .tc main_v82) := by stretch_keeps hostOps2_1
    _ = W4 m ρ c (Proc.devRef .tc main_v82) := by stretch_keeps hostOps2
    _ = (dat1 (V3 m ρ) c).arrAt 2 cfg1.N := W4_arr m ρ c 2

/-- Result `main_v97` is the loss of the targets, the first region's second output and its third output. -/
theorem W7_main_v97 (c : Dev nD) : W7 m ρ c (Proc.devRef .tc main_v97)
      = lossOf (m ((c : Thread nD τ).loc main_arg13)) ((dat0 (V1 m ρ) c).arrAt 17 cfg0.N) ((dat0 (V1 m ρ) c).arrAt 18 cfg0.N) :=
  (tail_v97 (W4 m ρ c)).trans (by rw [W4_main_arg13 m ρ c, W4_main_v75_1 m ρ c, W4_main_v75_2 m ρ c])

/-- Result `main_v111` is the accuracy of the first region's third output against the targets. -/
theorem W7_main_v111 (c : Dev nD) : W7 m ρ c (Proc.devRef .tc main_v111)
      = fracOf (m ((c : Thread nD τ).loc main_arg13)) ((dat0 (V1 m ρ) c).arrAt 18 cfg0.N) :=
  (tail_v111 (W4 m ρ c)).trans (by rw [W4_main_arg13 m ρ c, W4_main_v75_2 m ρ c])

end Cert.KernelIdeal.KerRun

end
-- ==== Proof.KerPre.lean ====
/- The arrays the first region's input windows read, as the host prefix computes them from the arguments. -/
import proofs.«173796_j40003325394948_2_alg».proof.Proof.KerDefs

set_option maxRecDepth 16384

noncomputable section

namespace Cert.KernelIdeal.KerRun

open Idealize.ShloMosaic Idealize.ShloMosaic.TcCoe Idealize.ShloMosaic.Tactic
open Idealize.ShloMosaic.Pipeline (Dat Cfg Window BodyObligation cellOf)
open Cert.KernelIdeal Cert.KernelIdeal.Gen

variable {F : FTy → Type} [FloatOps F]

/-! ## The prefix, from any contents it starts at -/

set_option maxHeartbeats 4000000 in
/-- After the prefix `main_v9` holds `main_arg1` rescaled: `mOf` of what the prefix found there. -/
theorem pre_main_v9 (X : Valuation τ sig (Elt F)) :
    StableHlo.after hostOps0 X (Proc.devRef .tc main_v9) = mOf bcast_S_S784x512 (X (Proc.devRef .tc main_arg1)) := by
  dsimp only [hostOps0]
  after_results_simp
  rfl

set_option maxHeartbeats 4000000 in
/-- After the prefix `main_v19` holds `main_arg2` rescaled: `mOf` of what the prefix found there. -/
theorem pre_main_v19 (X : Valuation τ sig (Elt F)) :
    StableHlo.after hostOps0 X (Proc.devRef .tc main_v19) = mOf bcast_S_S512x512 (X (Proc.devRef .tc main_arg2)) := by
  dsimp only [hostOps0]
  after_results_simp
  rfl

set_option maxHeartbeats 4000000 in
/-- After the prefix `main_v29` holds `main_arg3` rescaled: `mOf` of what the prefix found there. -/
theorem pre_main_v29 (X : Valuation τ sig (Elt F)) :
    StableHlo.after hostOps0 X (Proc.devRef .tc main_v29) = mOf bcast_S_S512x512 (X (Proc.devRef .tc main_arg3)) := by
  dsimp only [hostOps0]
  after_results_simp
  rfl

set_option maxHeartbeats 4000000 in
/-- After the prefix `main_v39` holds `main_arg4` rescaled: `mOf` of what the prefix found there. -/
theorem pre_main_v39 (X : Valuation τ sig (Elt F)) :
    StableHlo.after hostOps0 X (Proc.devRef .tc main_v39) = mOf bcast_S_S512x512 (X (Proc.devRef .tc main_arg4)) := by
  dsimp only [hostOps0]
  after_results_simp
  rfl

set_option maxHeartbeats 4000000 in
/-- After the prefix `main_v49` holds `main_arg6` rescaled: `mOf` of what the prefix found there. -/
theorem pre_main_v49 (X : Valuation τ sig (Elt F)) :
    StableHlo.after hostOps0 X (Proc.devRef .tc main_v49) = mOf bcast_S_S512x1 (X (Proc.devRef .tc main_arg6)) := by
  dsimp only [hostOps0]
  after_results_simp
  rfl

set_option maxHeartbeats 4000000 in
/-- After the prefix `main_v54` holds the column sums of `1 − M ⊙ M` for `M` the rescaled `main_arg1`. -/
theorem pre_main_v54 (X : Valuation τ sig (Elt F)) :
    StableHlo.after hostOps0 X (Proc.devRef .tc main_v54)
      = colSumOf 784 512 bcast_S_S784x512 reducesTo_S784x512_S512_d0 bcast_S512_S1x512_1 (mOf bcast_S_S784x512 (X (Proc.devRef .tc main_arg1))) := by
  dsimp only [hostOps0]
  after_results_simp
  rfl

set_option maxHeartbeats 4000000 in
/-- After the prefix `main_v59` holds the column sums of `1 − M ⊙ M` for `M` the rescaled `main_arg2`. -/
theorem pre_main_v59 (X : Valuation τ sig (Elt F)) :
    StableHlo.after hostOps0 X (Proc.devRef .tc main_v59)
      = colSumOf 512 512 bcast_S_S512x512 reducesTo_S512x512_S512_d0 bcast_S512_S1x512_1 (mOf bcast_S_S512x512 (X (Proc.devRef .tc main_arg2))) := by
  dsimp only [hostOps0]
  after_results_simp
  rfl

set_option maxHeartbeats 4000000 in
/-- After the prefix `main_v64` holds the column sums of `1 − M ⊙ M` for `M` the rescaled `main_arg3`. -/
theorem pre_main_v64 (X : Valuation τ sig (Elt F)) :
    StableHlo.after hostOps0 X (Proc.devRef .tc main_v64)
      = colSumOf 512 512 bcast_S_S512x512 reducesTo_S512x512_S512_d0 bcast_S512_S1x512_1 (mOf bcast_S_S512x512 (X (Proc.devRef .tc main_arg3))) := by
  dsimp only [hostOps0]
  after_results_simp
  rfl

set_option maxHeartbeats 4000000 in
/-- After the prefix `main_v69` holds the column sums of `1 − M ⊙ M` for `M` the rescaled `main_arg4`. -/
theorem pre_main_v69 (X : Valuation τ sig (Elt F)) :
    StableHlo.after hostOps0 X (Proc.devRef .tc main_v69)
      = colSumOf 512 512 bcast_S_S512x512 reducesTo_S512x512_S512_d0 bcast_S512_S1x512_1 (mOf bcast_S_S512x512 (X (Proc.devRef .tc main_arg4))) := by
  dsimp only [hostOps0]
  after_results_simp
  rfl

set_option maxHeartbeats 4000000 in
/-- After the prefix `main_v74` holds the column sums of `1 − M ⊙ M` for `M` the rescaled `main_arg6`. -/
theorem pre_main_v74 (X : Valuation τ sig (Elt F)) :
    StableHlo.after hostOps0 X (Proc.devRef .tc main_v74)
      = colSumOf 512 1 bcast_S_S512x1 reducesTo_S512x1_S1_d0 bcast_S1_S1x1_1 (mOf bcast_S_S512x1 (X (Proc.devRef .tc main_arg6))) := by
  dsimp only [hostOps0]
  after_results_simp
  rfl

variable (m : (ℓ : Loc nD τ sig) → Buf (Elt F) ℓ) (ρ : Dev nD → PrngReg)

/-! ## The first region's entry: its sixteen input arrays -/

/-- The first region reads `main_v9` as `main_arg1` rescaled. -/
theorem V1_main_v9 (c : Dev nD) : V1 m ρ c main_v9 = mOf bcast_S_S784x512 (m ((c : Thread nD τ).loc main_arg1)) :=
  pre_main_v9 (W0 m ρ c)

/-- The first region reads `main_v19` as `main_arg2` rescaled. -/
theorem V1_main_v19 (c : Dev nD) : V1 m ρ c main_v19 = mOf bcast_S_S512x512 (m ((c : Thread nD τ).loc main_arg2)) :=
  pre_main_v19 (W0 m ρ c)

/-- The first region reads `main_v29` as `main_arg3` rescaled. -/
theorem V1_main_v29 (c : Dev nD) : V1 m ρ c main_v29 = mOf bcast_S_S512x512 (m ((c : Thread nD τ).loc main_arg3)) :=
  pre_main_v29 (W0 m ρ c)

/-- The first region reads `main_v39` as `main_arg4` rescaled. -/
theorem V1_main_v39 (c : Dev nD) : V1 m ρ c main_v39 = mOf bcast_S_S512x512 (m ((c : Thread nD τ).loc main_arg4)) :=
  pre_main_v39 (W0 m ρ c)

/-- The first region reads `main_v49` as `main_arg6` rescaled. -/
theorem V1_main_v49 (c : Dev nD) : V1 m ρ c main_v49 = mOf bcast_S_S512x1 (m ((c : Thread nD τ).loc main_arg6)) :=
  pre_main_v49 (W0 m ρ c)

/-- The first region reads `main_v54` as the column sums of `1 − M ⊙ M` for `M` the rescaled `main_arg1`. -/
theorem V1_main_v54 (c : Dev nD) : V1 m ρ c main_v54
      = colSumOf 784 512 bcast_S_S784x512 reducesTo_S784x512_S512_d0 bcast_S512_S1x512_1 (mOf bcast_S_S784x512 (m ((c : Thread nD τ).loc main_arg1))) :=
  pre_main_v54 (W0 m ρ c)

/-- The first region reads `main_v59` as the column sums of `1 − M ⊙ M` for `M` the rescaled `main_arg2`. -/
theorem V1_main_v59 (c : Dev nD) : V1 m ρ c main_v59
      = colSumOf 512 512 bcast_S_S512x512 reducesTo_S512x512_S512_d0 bcast_S512_S1x512_1 (mOf bcast_S_S512x512 (m ((c : Thread nD τ).loc main_arg2))) :=
  pre_main_v59 (W0 m ρ c)

/-- The first region reads `main_v64` as the column sums of `1 − M ⊙ M` for `M` the rescaled `main_arg3`. -/
theorem V1_main_v64 (c : Dev nD) : V1 m ρ c main_v64
      = colSumOf 512 512 bcast_S_S512x512 reducesTo_S512x512_S512_d0 bcast_S512_S1x512_1 (mOf bcast_S_S512x512 (m ((c : Thread nD τ).loc main_arg3))) :=
  pre_main_v64 (W0 m ρ c)

/-- The first region reads `main_v69` as the column sums of `1 − M ⊙ M` for `M` the rescaled `main_arg4`. -/
theorem V1_main_v69 (c : Dev nD) : V1 m ρ c main_v69
      = colSumOf 512 512 bcast_S_S512x512 reducesTo_S512x512_S512_d0 bcast_S512_S1x512_1 (mOf bcast_S_S512x512 (m ((c : Thread nD τ).loc main_arg4))) :=
  pre_main_v69 (W0 m ρ c)

/-- The first region reads `main_v74` as the column sums of `1 − M ⊙ M` for `M` the rescaled `main_arg6`. -/
theorem V1_main_v74 (c : Dev nD) : V1 m ρ c main_v74
      = colSumOf 512 1 bcast_S_S512x1 reducesTo_S512x1_S1_d0 bcast_S1_S1x1_1 (mOf bcast_S_S512x1 (m ((c : Thread nD τ).loc main_arg6))) :=
  pre_main_v74 (W0 m ρ c)

/-- The first region reads `main_arg0` as launched: the prefix does not write it. -/
theorem V1_main_arg0 (c : Dev nD) : V1 m ρ c main_arg0 = m ((c : Thread nD τ).loc main_arg0) :=
  calc V1 m ρ c main_arg0
    _ = W0 m ρ c (Proc.devRef .tc main_arg0) := by stretch_keeps hostOps0
    _ = m ((c : Thread nD τ).loc main_arg0) := rfl

/-- The first region reads `main_arg7` as launched: the prefix does not write it. -/
theorem V1_main_arg7 (c : Dev nD) : V1 m ρ c main_arg7 = m ((c : Thread nD τ).loc main_arg7) :=
  calc V1 m ρ c main_arg7
    _ = W0 m ρ c (Proc.devRef .tc main_arg7) := by stretch_keeps hostOps0
    _ = m ((c : Thread nD τ).loc main_arg7) := rfl

/-- The first region reads `main_arg8` as launched: the prefix does not write it. -/
theorem V1_main_arg8 (c : Dev nD) : V1 m ρ c main_arg8 = m ((c : Thread nD τ).loc main_arg8) :=
  calc V1 m ρ c main_arg8
    _ = W0 m ρ c (Proc.devRef .tc main_arg8) := by stretch_keeps hostOps0
    _ = m ((c : Thread nD τ).loc main_arg8) := rfl

/-- The first region reads `main_arg9` as launched: the prefix does not write it. -/
theorem V1_main_arg9 (c : Dev nD) : V1 m ρ c main_arg9 = m ((c : Thread nD τ).loc main_arg9) :=
  calc V1 m ρ c main_arg9
    _ = W0 m ρ c (Proc.devRef .tc main_arg9) := by stretch_keeps hostOps0
    _ = m ((c : Thread nD τ).loc main_arg9) := rfl

/-- The first region reads `main_arg10` as launched: the prefix does not write it. -/
theorem V1_main_arg10 (c : Dev nD) : V1 m ρ c main_arg10 = m ((c : Thread nD τ).loc main_arg10) :=
  calc V1 m ρ c main_arg10
    _ = W0 m ρ c (Proc.devRef .tc main_arg10) := by stretch_keeps hostOps0
    _ = m ((c : Thread nD τ).loc main_arg10) := rfl

/-- The first region reads `main_arg12` as launched: the prefix does not write it. -/
theorem V1_main_arg12 (c : Dev nD) : V1 m ρ c main_arg12 = m ((c : Thread nD τ).loc main_arg12) :=
  calc V1 m ρ c main_arg12
    _ = W0 m ρ c (Proc.devRef .tc main_arg12) := by stretch_keeps hostOps0
    _ = m ((c : Thread nD τ).loc main_arg12) := rfl

end Cert.KernelIdeal.KerRun

end
-- ==== Proof.KerRegion0.lean ====
import proofs.«173796_j40003325394948_2_alg».proof.Proof.Gen.KernelIdeal.Frame
import Idealize.ShloMosaic.Lib.Pipeline.Value
import Idealize.ShloMosaic.Lib.Tactic

/-! # The first region's four result arrays as functions of its sixteen operand arrays

The region's grid has a single point and every window's block is its whole array, so each operand's
block is the operand array itself, the one write-back of each result writes the whole array, and the
result array ends holding what the body stored: the body's payload of the operand arrays. -/

set_option maxRecDepth 16384

noncomputable section

open Idealize.ShloMosaic Idealize.ShloMosaic.TcCoe Idealize.SL.Sem
open Idealize.ShloMosaic.Pipeline (Dat)

namespace Cert.KernelIdeal.KerRegion0

open Cert.KernelIdeal Cert.KernelIdeal.Gen

variable {F : FTy → Type} [FloatOps F]

/-- The zero offsets of a rank-two rectangle, as the constant function. -/
theorem hz : (![0, 0] : Fin 2 → Nat) = fun _ => 0 := funext fun a => by fin_cases a <;> rfl

/-! ## A shape cast from a shape to itself is the identity -/

theorem pay6_eq (x : Vec F S784x512 .f32) : k0_pay6 x = x := shapeCast_self x _
theorem pay7_eq (x : Vec F S512x512 .f32) : k0_pay7 x = x := shapeCast_self x _
theorem pay8_eq (x : Vec F S512x512 .f32) : k0_pay8 x = x := shapeCast_self x _
theorem pay9_eq (x : Vec F S512x512 .f32) : k0_pay9 x = x := shapeCast_self x _
theorem pay10_eq (x : Vec F S512x1 .f32) : k0_pay10 x = x := shapeCast_self x _
theorem pay11_eq (x : Vec F S1x512 .f32) : k0_pay11 x = x := shapeCast_self x _
theorem pay12_eq (x : Vec F S1x512 .f32) : k0_pay12 x = x := shapeCast_self x _
theorem pay13_eq (x : Vec F S1x512 .f32) : k0_pay13 x = x := shapeCast_self x _
theorem pay14_eq (x : Vec F S1x512 .f32) : k0_pay14 x = x := shapeCast_self x _
theorem pay15_eq (x : Vec F S1x1 .f32) : k0_pay15 x = x := shapeCast_self x _

/-! ## What the body stores, as the payloads of the operand blocks -/

/-- The value the body's last stage reads as %68: the payload `k0_pay18` of the operand blocks (those the body passes through a same-shape cast, cast) and the zero accumulator. -/
abbrev v68 (x0 : Vec F S512x784 .f32) (x1 : Vec F S784x512 .f32) (x2 : Vec F S512x512 .f32) (x4 : Vec F S512x512 .f32) (x6 : Vec F S1x512 .f32) (x7 : Vec F S1x512 .f32) (x11 : Vec F S1x512 .f32) (x12 : Vec F S1x512 .f32) (x14 : Vec F S1x512 .f32) : FVec F S512x512 .f32 :=
  k0_pay18 x0 (k0_pay6 x1) (k0_pay7 x2) (k0_pay9 x4) x6 x7 (k0_pay11 x11) (k0_pay12 x12) (k0_pay14 x14) (constant S512x512 .f32 0x00000000#32)

/-- The value the body's last stage reads as %73: the payload `k0_pay19` of the operand blocks and the zero accumulator. -/
abbrev v73 (x0 : Vec F S512x784 .f32) (x1 : Vec F S784x512 .f32) (x2 : Vec F S512x512 .f32) (x3 : Vec F S512x512 .f32) (x4 : Vec F S512x512 .f32) (x6 : Vec F S1x512 .f32) (x7 : Vec F S1x512 .f32) (x8 : Vec F S1x512 .f32) (x9 : Vec F S1x512 .f32) (x11 : Vec F S1x512 .f32) (x12 : Vec F S1x512 .f32) (x13 : Vec F S1x512 .f32) : FVec F S512x512 .f32 :=
  k0_pay19 x0 (k0_pay6 x1) (k0_pay7 x2) (k0_pay8 x3) (k0_pay9 x4) x6 x7 x8 x9 (k0_pay11 x11) (k0_pay12 x12) (k0_pay13 x13) (constant S512x512 .f32 0x00000000#32)

/-- Result window 16's buffer after the body: one store of the whole buffer, of the payload of the whole operand buffers. -/
theorem out0_16_eq (x0 : Vec F S512x784 .f32) (x1 : Vec F S784x512 .f32) (x2 : Vec F S512x512 .f32) (x3 : Vec F S512x512 .f32) (x4 : Vec F S512x512 .f32) (x5 : Vec F S512x1 .f32) (x6 : Vec F S1x512 .f32) (x7 : Vec F S1x512 .f32) (x8 : Vec F S1x512 .f32) (x9 : Vec F S1x512 .f32) (x10 : Vec F S1x1 .f32) (x11 : Vec F S1x512 .f32) (x12 : Vec F S1x512 .f32) (x13 : Vec F S1x512 .f32) (x14 : Vec F S1x512 .f32) (x15 : Vec F S1x1 .f32) :
    out0_16 x0 x1 x2 x3 x4 x5 x6 x7 x8 x9 x10 x11 x12 x13 x14 x15 = k0_pay3 (k0_pay10 x5) x10 (v68 x0 x1 x2 x4 x6 x7 x11 x12 x14) (v73 x0 x1 x2 x3 x4 x6 x7 x8 x9 x11 x12 x13) := by
  unfold out0_16
  rw [View.canon_unit_zero hz]
  simp only [View.ld_unit_zero (S := S512x784) hz, View.ld_unit_zero (S := S784x512) hz, View.ld_unit_zero (S := S512x512) hz, View.ld_unit_zero (S := S512x1) hz, View.ld_unit_zero (S := S1x512) hz, View.ld_unit_zero (S := S1x1) hz]

/-- Result window 17's buffer after the body: one store of the whole buffer, of the payload of the whole operand buffers. -/
theorem out0_17_eq (x0 : Vec F S512x784 .f32) (x1 : Vec F S784x512 .f32) (x2 : Vec F S512x512 .f32) (x3 : Vec F S512x512 .f32) (x4 : Vec F S512x512 .f32) (x5 : Vec F S512x1 .f32) (x6 : Vec F S1x512 .f32) (x7 : Vec F S1x512 .f32) (x8 : Vec F S1x512 .f32) (x9 : Vec F S1x512 .f32) (x10 : Vec F S1x1 .f32) (x11 : Vec F S1x512 .f32) (x12 : Vec F S1x512 .f32) (x13 : Vec F S1x512 .f32) (x14 : Vec F S1x512 .f32) (x15 : Vec F S1x1 .f32) :
    out0_17 x0 x1 x2 x3 x4 x5 x6 x7 x8 x9 x10 x11 x12 x13 x14 x15 = k0_pay5 (k0_pay10 x5) x10 (k0_pay15 x15) (v68 x0 x1 x2 x4 x6 x7 x11 x12 x14) (v73 x0 x1 x2 x3 x4 x6 x7 x8 x9 x11 x12 x13) := by
  unfold out0_17
  rw [View.canon_unit_zero hz]
  simp only [View.ld_unit_zero (S := S512x784) hz, View.ld_unit_zero (S := S784x512) hz, View.ld_unit_zero (S := S512x512) hz, View.ld_unit_zero (S := S512x1) hz, View.ld_unit_zero (S := S1x512) hz, View.ld_unit_zero (S := S1x1) hz]

/-- Result window 18's buffer after the body: one store of the whole buffer, of the payload of the whole operand buffers. -/
theorem out0_18_eq (x0 : Vec F S512x784 .f32) (x1 : Vec F S784x512 .f32) (x2 : Vec F S512x512 .f32) (x3 : Vec F S512x512 .f32) (x4 : Vec F S512x512 .f32) (x5 : Vec F S512x1 .f32) (x6 : Vec F S1x512 .f32) (x7 : Vec F S1x512 .f32) (x8 : Vec F S1x512 .f32) (x9 : Vec F S1x512 .f32) (x10 : Vec F S1x1 .f32) (x11 : Vec F S1x512 .f32) (x12 : Vec F S1x512 .f32) (x13 : Vec F S1x512 .f32) (x14 : Vec F S1x512 .f32) (x15 : Vec F S1x1 .f32) :
    out0_18 x0 x1 x2 x3 x4 x5 x6 x7 x8 x9 x10 x11 x12 x13 x14 x15 = k0_pay4 (k0_pay10 x5) x10 (k0_pay15 x15) (v68 x0 x1 x2 x4 x6 x7 x11 x12 x14) (v73 x0 x1 x2 x3 x4 x6 x7 x8 x9 x11 x12 x13) := by
  unfold out0_18
  rw [View.canon_unit_zero hz]
  simp only [View.ld_unit_zero (S := S512x784) hz, View.ld_unit_zero (S := S784x512) hz, View.ld_unit_zero (S := S512x512) hz, View.ld_unit_zero (S := S512x1) hz, View.ld_unit_zero (S := S1x512) hz, View.ld_unit_zero (S := S1x1) hz]

/-- Result window 19's buffer after the body: one store of the whole buffer, of the payload of the whole operand buffers. -/
theorem out0_19_eq (x0 : Vec F S512x784 .f32) (x1 : Vec F S784x512 .f32) (x2 : Vec F S512x512 .f32) (x3 : Vec F S512x512 .f32) (x4 : Vec F S512x512 .f32) (x5 : Vec F S512x1 .f32) (x6 : Vec F S1x512 .f32) (x7 : Vec F S1x512 .f32) (x8 : Vec F S1x512 .f32) (x9 : Vec F S1x512 .f32) (x10 : Vec F S1x1 .f32) (x11 : Vec F S1x512 .f32) (x12 : Vec F S1x512 .f32) (x13 : Vec F S1x512 .f32) (x14 : Vec F S1x512 .f32) (x15 : Vec F S1x1 .f32) :
    out0_19 x0 x1 x2 x3 x4 x5 x6 x7 x8 x9 x10 x11 x12 x13 x14 x15 = k0_pay2 (v68 x0 x1 x2 x4 x6 x7 x11 x12 x14) (v73 x0 x1 x2 x3 x4 x6 x7 x8 x9 x11 x12 x13) := by
  unfold out0_19
  rw [View.canon_unit_zero hz]
  simp only [View.ld_unit_zero (S := S512x784) hz, View.ld_unit_zero (S := S784x512) hz, View.ld_unit_zero (S := S512x512) hz, View.ld_unit_zero (S := S512x1) hz, View.ld_unit_zero (S := S1x512) hz, View.ld_unit_zero (S := S1x1) hz]

/-! ## The same with the identity casts removed -/

/-- Result window 16's buffer after the body, the same-shape casts dropped. -/
theorem out0_16_plain (x0 : Vec F S512x784 .f32) (x1 : Vec F S784x512 .f32) (x2 : Vec F S512x512 .f32) (x3 : Vec F S512x512 .f32) (x4 : Vec F S512x512 .f32) (x5 : Vec F S512x1 .f32) (x6 : Vec F S1x512 .f32) (x7 : Vec F S1x512 .f32) (x8 : Vec F S1x512 .f32) (x9 : Vec F S1x512 .f32) (x10 : Vec F S1x1 .f32) (x11 : Vec F S1x512 .f32) (x12 : Vec F S1x512 .f32) (x13 : Vec F S1x512 .f32) (x14 : Vec F S1x512 .f32) (x15 : Vec F S1x1 .f32) :
    out0_16 x0 x1 x2 x3 x4 x5 x6 x7 x8 x9 x10 x11 x12 x13 x14 x15 = k0_pay3 x5 x10 (k0_pay18 x0 x1 x2 x4 x6 x7 x11 x12 x14 (constant S512x512 .f32 0x00000000#32)) (k0_pay19 x0 x1 x2 x3 x4 x6 x7 x8 x9 x11 x12 x13 (constant S512x512 .f32 0x00000000#32)) := by
  rw [out0_16_eq]
  simp only [v68, v73, pay6_eq, pay7_eq, pay8_eq, pay9_eq, pay10_eq, pay11_eq, pay12_eq, pay13_eq, pay14_eq, pay15_eq]

/-- Result window 17's buffer after the body, the same-shape casts dropped. -/
theorem out0_17_plain (x0 : Vec F S512x784 .f32) (x1 : Vec F S784x512 .f32) (x2 : Vec F S512x512 .f32) (x3 : Vec F S512x512 .f32) (x4 : Vec F S512x512 .f32) (x5 : Vec F S512x1 .f32) (x6 : Vec F S1x512 .f32) (x7 : Vec F S1x512 .f32) (x8 : Vec F S1x512 .f32) (x9 : Vec F S1x512 .f32) (x10 : Vec F S1x1 .f32) (x11 : Vec F S1x512 .f32) (x12 : Vec F S1x512 .f32) (x13 : Vec F S1x512 .f32) (x14 : Vec F S1x512 .f32) (x15 : Vec F S1x1 .f32) :
    out0_17 x0 x1 x2 x3 x4 x5 x6 x7 x8 x9 x10 x11 x12 x13 x14 x15 = k0_pay5 x5 x10 x15 (k0_pay18 x0 x1 x2 x4 x6 x7 x11 x12 x14 (constant S512x512 .f32 0x00000000#32)) (k0_pay19 x0 x1 x2 x3 x4 x6 x7 x8 x9 x11 x12 x13 (constant S512x512 .f32 0x00000000#32)) := by
  rw [out0_17_eq]
  simp only [v68, v73, pay6_eq, pay7_eq, pay8_eq, pay9_eq, pay10_eq, pay11_eq, pay12_eq, pay13_eq, pay14_eq, pay15_eq]

/-- Result window 18's buffer after the body, the same-shape casts dropped. -/
theorem out0_18_plain (x0 : Vec F S512x784 .f32) (x1 : Vec F S784x512 .f32) (x2 : Vec F S512x512 .f32) (x3 : Vec F S512x512 .f32) (x4 : Vec F S512x512 .f32) (x5 : Vec F S512x1 .f32) (x6 : Vec F S1x512 .f32) (x7 : Vec F S1x512 .f32) (x8 : Vec F S1x512 .f32) (x9 : Vec F S1x512 .f32) (x10 : Vec F S1x1 .f32) (x11 : Vec F S1x512 .f32) (x12 : Vec F S1x512 .f32) (x13 : Vec F S1x512 .f32) (x14 : Vec F S1x512 .f32) (x15 : Vec F S1x1 .f32) :
    out0_18 x0 x1 x2 x3 x4 x5 x6 x7 x8 x9 x10 x11 x12 x13 x14 x15 = k0_pay4 x5 x10 x15 (k0_pay18 x0 x1 x2 x4 x6 x7 x11 x12 x14 (constant S512x512 .f32 0x00000000#32)) (k0_pay19 x0 x1 x2 x3 x4 x6 x7 x8 x9 x11 x12 x13 (constant S512x512 .f32 0x00000000#32)) := by
  rw [out0_18_eq]
  simp only [v68, v73, pay6_eq, pay7_eq, pay8_eq, pay9_eq, pay10_eq, pay11_eq, pay12_eq, pay13_eq, pay14_eq, pay15_eq]

/-- Result window 19's buffer after the body, the same-shape casts dropped. -/
theorem out0_19_plain (x0 : Vec F S512x784 .f32) (x1 : Vec F S784x512 .f32) (x2 : Vec F S512x512 .f32) (x3 : Vec F S512x512 .f32) (x4 : Vec F S512x512 .f32) (x5 : Vec F S512x1 .f32) (x6 : Vec F S1x512 .f32) (x7 : Vec F S1x512 .f32) (x8 : Vec F S1x512 .f32) (x9 : Vec F S1x512 .f32) (x10 : Vec F S1x1 .f32) (x11 : Vec F S1x512 .f32) (x12 : Vec F S1x512 .f32) (x13 : Vec F S1x512 .f32) (x14 : Vec F S1x512 .f32) (x15 : Vec F S1x1 .f32) :
    out0_19 x0 x1 x2 x3 x4 x5 x6 x7 x8 x9 x10 x11 x12 x13 x14 x15 = k0_pay2 (k0_pay18 x0 x1 x2 x4 x6 x7 x11 x12 x14 (constant S512x512 .f32 0x00000000#32)) (k0_pay19 x0 x1 x2 x3 x4 x6 x7 x8 x9 x11 x12 x13 (constant S512x512 .f32 0x00000000#32)) := by
  rw [out0_19_eq]
  simp only [v68, v73, pay6_eq, pay7_eq, pay8_eq, pay9_eq, pay10_eq, pay11_eq, pay12_eq, pay13_eq, pay14_eq, pay15_eq]

/-! ## Each operand's block is the operand array -/

variable (V : (c : Dev nD) → (b : Ref sig .tc) → Buf (Elt F) ((c : Thread nD τ).loc b))

/-- Operand window 0's block at the grid's point is the whole array it windows. -/
theorem iblk0_0 (c : Dev nD) (t : Fin cfg0.N) : iblk0 V c 0 t = V c main_arg0 := by
  obtain rfl : t = t0_0 := fin_N0 t
  have hz' : (fun a => win0_0.index t0_0 a * main_arg0.ty.shape.size a) = fun _ => 0 := funext fun a => by fin_cases a <;> decide
  exact Memref.read_access_unit_zero (Elt F) main_arg0 hz' (fun a => by rw [congrFun hz' a]; simp) (V c main_arg0)

/-- Operand window 1's block at the grid's point is the whole array it windows. -/
theorem iblk0_1 (c : Dev nD) (t : Fin cfg0.N) : iblk0 V c 1 t = V c main_v9 := by
  obtain rfl : t = t0_0 := fin_N0 t
  have hz' : (fun a => win0_1.index t0_0 a * main_v9.ty.shape.size a) = fun _ => 0 := funext fun a => by fin_cases a <;> decide
  exact Memref.read_access_unit_zero (Elt F) main_v9 hz' (fun a => by rw [congrFun hz' a]; simp) (V c main_v9)

/-- Operand window 2's block at the grid's point is the whole array it windows. -/
theorem iblk0_2 (c : Dev nD) (t : Fin cfg0.N) : iblk0 V c 2 t = V c main_v19 := by
  obtain rfl : t = t0_0 := fin_N0 t
  have hz' : (fun a => win0_2.index t0_0 a * main_v19.ty.shape.size a) = fun _ => 0 := funext fun a => by fin_cases a <;> decide
  exact Memref.read_access_unit_zero (Elt F) main_v19 hz' (fun a => by rw [congrFun hz' a]; simp) (V c main_v19)

/-- Operand window 3's block at the grid's point is the whole array it windows. -/
theorem iblk0_3 (c : Dev nD) (t : Fin cfg0.N) : iblk0 V c 3 t = V c main_v29 := by
  obtain rfl : t = t0_0 := fin_N0 t
  have hz' : (fun a => win0_3.index t0_0 a * main_v29.ty.shape.size a) = fun _ => 0 := funext fun a => by fin_cases a <;> decide
  exact Memref.read_access_unit_zero (Elt F) main_v29 hz' (fun a => by rw [congrFun hz' a]; simp) (V c main_v29)

/-- Operand window 4's block at the grid's point is the whole array it windows. -/
theorem iblk0_4 (c : Dev nD) (t : Fin cfg0.N) : iblk0 V c 4 t = V c main_v39 := by
  obtain rfl : t = t0_0 := fin_N0 t
  have hz' : (fun a => win0_4.index t0_0 a * main_v39.ty.shape.size a) = fun _ => 0 := funext fun a => by fin_cases a <;> decide
  exact Memref.read_access_unit_zero (Elt F) main_v39 hz' (fun a => by rw [congrFun hz' a]; simp) (V c main_v39)

/-- Operand window 5's block at the grid's point is the whole array it windows. -/
theorem iblk0_5 (c : Dev nD) (t : Fin cfg0.N) : iblk0 V c 5 t = V c main_v49 := by
  obtain rfl : t = t0_0 := fin_N0 t
  have hz' : (fun a => win0_5.index t0_0 a * main_v49.ty.shape.size a) = fun _ => 0 := funext fun a => by fin_cases a <;> decide
  exact Memref.read_access_unit_zero (Elt F) main_v49 hz' (fun a => by rw [congrFun hz' a]; simp) (V c main_v49)

/-- Operand window 6's block at the grid's point is the whole array it windows. -/
theorem iblk0_6 (c : Dev nD) (t : Fin cfg0.N) : iblk0 V c 6 t = V c main_arg7 := by
  obtain rfl : t = t0_0 := fin_N0 t
  have hz' : (fun a => win0_6.index t0_0 a * main_arg7.ty.shape.size a) = fun _ => 0 := funext fun a => by fin_cases a <;> decide
  exact Memref.read_access_unit_zero (Elt F) main_arg7 hz' (fun a => by rw [congrFun hz' a]; simp) (V c main_arg7)

/-- Operand window 7's block at the grid's point is the whole array it windows. -/
theorem iblk0_7 (c : Dev nD) (t : Fin cfg0.N) : iblk0 V c 7 t = V c main_arg8 := by
  obtain rfl : t = t0_0 := fin_N0 t
  have hz' : (fun a => win0_7.index t0_0 a * main_arg8.ty.shape.size a) = fun _ => 0 := funext fun a => by fin_cases a <;> decide
  exact Memref.read_access_unit_zero (Elt F) main_arg8 hz' (fun a => by rw [congrFun hz' a]; simp) (V c main_arg8)

/-- Operand window 8's block at the grid's point is the whole array it windows. -/
theorem iblk0_8 (c : Dev nD) (t : Fin cfg0.N) : iblk0 V c 8 t = V c main_arg9 := by
  obtain rfl : t = t0_0 := fin_N0 t
  have hz' : (fun a => win0_8.index t0_0 a * main_arg9.ty.shape.size a) = fun _ => 0 := funext fun a => by fin_cases a <;> decide
  exact Memref.read_access_unit_zero (Elt F) main_arg9 hz' (fun a => by rw [congrFun hz' a]; simp) (V c main_arg9)

/-- Operand window 9's block at the grid's point is the whole array it windows. -/
theorem iblk0_9 (c : Dev nD) (t : Fin cfg0.N) : iblk0 V c 9 t = V c main_arg10 := by
  obtain rfl : t = t0_0 := fin_N0 t
  have hz' : (fun a => win0_9.index t0_0 a * main_arg10.ty.shape.size a) = fun _ => 0 := funext fun a => by fin_cases a <;> decide
  exact Memref.read_access_unit_zero (Elt F) main_arg10 hz' (fun a => by rw [congrFun hz' a]; simp) (V c main_arg10)

/-- Operand window 10's block at the grid's point is the whole array it windows. -/
theorem iblk0_10 (c : Dev nD) (t : Fin cfg0.N) : iblk0 V c 10 t = V c main_arg12 := by
  obtain rfl : t = t0_0 := fin_N0 t
  have hz' : (fun a => win0_10.index t0_0 a * main_arg12.ty.shape.size a) = fun _ => 0 := funext fun a => by fin_cases a <;> decide
  exact Memref.read_access_unit_zero (Elt F) main_arg12 hz' (fun a => by rw [congrFun hz' a]; simp) (V c main_arg12)

/-- Operand window 11's block at the grid's point is the whole array it windows. -/
theorem iblk0_11 (c : Dev nD) (t : Fin cfg0.N) : iblk0 V c 11 t = V c main_v54 := by
  obtain rfl : t = t0_0 := fin_N0 t
  have hz' : (fun a => win0_11.index t0_0 a * main_v54.ty.shape.size a) = fun _ => 0 := funext fun a => by fin_cases a <;> decide
  exact Memref.read_access_unit_zero (Elt F) main_v54 hz' (fun a => by rw [congrFun hz' a]; simp) (V c main_v54)

/-- Operand window 12's block at the grid's point is the whole array it windows. -/
theorem iblk0_12 (c : Dev nD) (t : Fin cfg0.N) : iblk0 V c 12 t = V c main_v59 := by
  obtain rfl : t = t0_0 := fin_N0 t
  have hz' : (fun a => win0_12.index t0_0 a * main_v59.ty.shape.size a) = fun _ => 0 := funext fun a => by fin_cases a <;> decide
  exact Memref.read_access_unit_zero (Elt F) main_v59 hz' (fun a => by rw [congrFun hz' a]; simp) (V c main_v59)

/-- Operand window 13's block at the grid's point is the whole array it windows. -/
theorem iblk0_13 (c : Dev nD) (t : Fin cfg0.N) : iblk0 V c 13 t = V c main_v64 := by
  obtain rfl : t = t0_0 := fin_N0 t
  have hz' : (fun a => win0_13.index t0_0 a * main_v64.ty.shape.size a) = fun _ => 0 := funext fun a => by fin_cases a <;> decide
  exact Memref.read_access_unit_zero (Elt F) main_v64 hz' (fun a => by rw [congrFun hz' a]; simp) (V c main_v64)

/-- Operand window 14's block at the grid's point is the whole array it windows. -/
theorem iblk0_14 (c : Dev nD) (t : Fin cfg0.N) : iblk0 V c 14 t = V c main_v69 := by
  obtain rfl : t = t0_0 := fin_N0 t
  have hz' : (fun a => win0_14.index t0_0 a * main_v69.ty.shape.size a) = fun _ => 0 := funext fun a => by fin_cases a <;> decide
  exact Memref.read_access_unit_zero (Elt F) main_v69 hz' (fun a => by rw [congrFun hz' a]; simp) (V c main_v69)

/-- Operand window 15's block at the grid's point is the whole array it windows. -/
theorem iblk0_15 (c : Dev nD) (t : Fin cfg0.N) : iblk0 V c 15 t = V c main_v74 := by
  obtain rfl : t = t0_0 := fin_N0 t
  have hz' : (fun a => win0_15.index t0_0 a * main_v74.ty.shape.size a) = fun _ => 0 := funext fun a => by fin_cases a <;> decide
  exact Memref.read_access_unit_zero (Elt F) main_v74 hz' (fun a => by rw [congrFun hz' a]; simp) (V c main_v74)

/-! ## Each result array after the region -/

/-- What the one point writes back for result window 16 is the whole of what the body stored, and the block it is written to is the whole array. -/
theorem flushed0_16_eq (c : Dev nD) (t : Fin cfg0.N) :
    (dat0 V c).flushed 16 t = ((cfg0.win 16).blk t).view.read (Elt F) (out0_16 (V c main_arg0) (V c main_v9) (V c main_v19) (V c main_v29) (V c main_v39) (V c main_v49) (V c main_arg7) (V c main_arg8) (V c main_arg9) (V c main_arg10) (V c main_arg12) (V c main_v54) (V c main_v59) (V c main_v64) (V c main_v69) (V c main_v74)) := by
  obtain rfl : t = t0_0 := fin_N0 t
  show (cfg0.win 16).cut (grid0.coords t0_0) ((dat0 V c).after 16 t0_0) = _
  rw [after0_16, iblk0_0, iblk0_1, iblk0_2, iblk0_3, iblk0_4, iblk0_5, iblk0_6, iblk0_7, iblk0_8, iblk0_9, iblk0_10, iblk0_11, iblk0_12, iblk0_13, iblk0_14, iblk0_15]
  have hz' : (fun a => win0_16.index t0_0 a * main_v75_0.ty.shape.size a) = fun _ => 0 := funext fun a => by fin_cases a <;> decide
  exact (Memref.read_access_unit_zero (Elt F) main_v75_0 hz' (fun a => by rw [congrFun hz' a]; simp) _).symm

/-- Result array 16 after the region: what the body stored, of the operand arrays as the region found them. -/
theorem arr0_16 (c : Dev nD) :
    (dat0 V c).arrAt 16 cfg0.N = out0_16 (V c main_arg0) (V c main_v9) (V c main_v19) (V c main_v29) (V c main_v39) (V c main_v49) (V c main_arg7) (V c main_arg8) (V c main_arg9) (V c main_arg10) (V c main_arg12) (V c main_v54) (V c main_v59) (V c main_v64) (V c main_v69) (V c main_v74) :=
  (dat0 V c).arrAt_eq_of_cover 16 _ (fun t _ => flushed0_16_eq V c t) fun i =>
    ⟨t0_0, flush0_16 t0_0, by
      show i ∈ ((View.whole main_v75_0).slice (win0_16.rect t0_0)).set
      rw [View.set_slice_whole, Rect.mem_set_unit]
      intro a
      have h0 : (i 0 : Nat) < 512 := (i 0).isLt
      have h1 : (i 1 : Nat) < 1 := (i 1).isLt
      match a with
      | ⟨0, _⟩ => show win0_16.index t0_0 0 * win0_16.size 0 ≤ (i 0 : Nat) ∧ (i 0 : Nat) < win0_16.index t0_0 0 * win0_16.size 0 + win0_16.xsize (grid0.coords t0_0) 0
                  rw [show win0_16.index t0_0 0 * win0_16.size 0 = 0 from by decide +kernel, show win0_16.xsize (grid0.coords t0_0) 0 = 512 from by decide +kernel]; omega
      | ⟨1, _⟩ => show win0_16.index t0_0 1 * win0_16.size 1 ≤ (i 1 : Nat) ∧ (i 1 : Nat) < win0_16.index t0_0 1 * win0_16.size 1 + win0_16.xsize (grid0.coords t0_0) 1
                  rw [show win0_16.index t0_0 1 * win0_16.size 1 = 0 from by decide +kernel, show win0_16.xsize (grid0.coords t0_0) 1 = 1 from by decide +kernel]; omega⟩

/-- What the one point writes back for result window 17 is the whole of what the body stored, and the block it is written to is the whole array. -/
theorem flushed0_17_eq (c : Dev nD) (t : Fin cfg0.N) :
    (dat0 V c).flushed 17 t = ((cfg0.win 17).blk t).view.read (Elt F) (out0_17 (V c main_arg0) (V c main_v9) (V c main_v19) (V c main_v29) (V c main_v39) (V c main_v49) (V c main_arg7) (V c main_arg8) (V c main_arg9) (V c main_arg10) (V c main_arg12) (V c main_v54) (V c main_v59) (V c main_v64) (V c main_v69) (V c main_v74)) := by
  obtain rfl : t = t0_0 := fin_N0 t
  show (cfg0.win 17).cut (grid0.coords t0_0) ((dat0 V c).after 17 t0_0) = _
  rw [after0_17, iblk0_0, iblk0_1, iblk0_2, iblk0_3, iblk0_4, iblk0_5, iblk0_6, iblk0_7, iblk0_8, iblk0_9, iblk0_10, iblk0_11, iblk0_12, iblk0_13, iblk0_14, iblk0_15]
  have hz' : (fun a => win0_17.index t0_0 a * main_v75_1.ty.shape.size a) = fun _ => 0 := funext fun a => by fin_cases a <;> decide
  exact (Memref.read_access_unit_zero (Elt F) main_v75_1 hz' (fun a => by rw [congrFun hz' a]; simp) _).symm

/-- Result array 17 after the region: what the body stored, of the operand arrays as the region found them. -/
theorem arr0_17 (c : Dev nD) :
    (dat0 V c).arrAt 17 cfg0.N = out0_17 (V c main_arg0) (V c main_v9) (V c main_v19) (V c main_v29) (V c main_v39) (V c main_v49) (V c main_arg7) (V c main_arg8) (V c main_arg9) (V c main_arg10) (V c main_arg12) (V c main_v54) (V c main_v59) (V c main_v64) (V c main_v69) (V c main_v74) :=
  (dat0 V c).arrAt_eq_of_cover 17 _ (fun t _ => flushed0_17_eq V c t) fun i =>
    ⟨t0_0, flush0_17 t0_0, by
      show i ∈ ((View.whole main_v75_1).slice (win0_17.rect t0_0)).set
      rw [View.set_slice_whole, Rect.mem_set_unit]
      intro a
      have h0 : (i 0 : Nat) < 512 := (i 0).isLt
      have h1 : (i 1 : Nat) < 1 := (i 1).isLt
      match a with
      | ⟨0, _⟩ => show win0_17.index t0_0 0 * win0_17.size 0 ≤ (i 0 : Nat) ∧ (i 0 : Nat) < win0_17.index t0_0 0 * win0_17.size 0 + win0_17.xsize (grid0.coords t0_0) 0
                  rw [show win0_17.index t0_0 0 * win0_17.size 0 = 0 from by decide +kernel, show win0_17.xsize (grid0.coords t0_0) 0 = 512 from by decide +kernel]; omega
      | ⟨1, _⟩ => show win0_17.index t0_0 1 * win0_17.size 1 ≤ (i 1 : Nat) ∧ (i 1 : Nat) < win0_17.index t0_0 1 * win0_17.size 1 + win0_17.xsize (grid0.coords t0_0) 1
                  rw [show win0_17.index t0_0 1 * win0_17.size 1 = 0 from by decide +kernel, show win0_17.xsize (grid0.coords t0_0) 1 = 1 from by decide +kernel]; omega⟩

/-- What the one point writes back for result window 18 is the whole of what the body stored, and the block it is written to is the whole array. -/
theorem flushed0_18_eq (c : Dev nD) (t : Fin cfg0.N) :
    (dat0 V c).flushed 18 t = ((cfg0.win 18).blk t).view.read (Elt F) (out0_18 (V c main_arg0) (V c main_v9) (V c main_v19) (V c main_v29) (V c main_v39) (V c main_v49) (V c main_arg7) (V c main_arg8) (V c main_arg9) (V c main_arg10) (V c main_arg12) (V c main_v54) (V c main_v59) (V c main_v64) (V c main_v69) (V c main_v74)) := by
  obtain rfl : t = t0_0 := fin_N0 t
  show (cfg0.win 18).cut (grid0.coords t0_0) ((dat0 V c).after 18 t0_0) = _
  rw [after0_18, iblk0_0, iblk0_1, iblk0_2, iblk0_3, iblk0_4, iblk0_5, iblk0_6, iblk0_7, iblk0_8, iblk0_9, iblk0_10, iblk0_11, iblk0_12, iblk0_13, iblk0_14, iblk0_15]
  have hz' : (fun a => win0_18.index t0_0 a * main_v75_2.ty.shape.size a) = fun _ => 0 := funext fun a => by fin_cases a <;> decide
  exact (Memref.read_access_unit_zero (Elt F) main_v75_2 hz' (fun a => by rw [congrFun hz' a]; simp) _).symm

/-- Result array 18 after the region: what the body stored, of the operand arrays as the region found them. -/
theorem arr0_18 (c : Dev nD) :
    (dat0 V c).arrAt 18 cfg0.N = out0_18 (V c main_arg0) (V c main_v9) (V c main_v19) (V c main_v29) (V c main_v39) (V c main_v49) (V c main_arg7) (V c main_arg8) (V c main_arg9) (V c main_arg10) (V c main_arg12) (V c main_v54) (V c main_v59) (V c main_v64) (V c main_v69) (V c main_v74) :=
  (dat0 V c).arrAt_eq_of_cover 18 _ (fun t _ => flushed0_18_eq V c t) fun i =>
    ⟨t0_0, flush0_18 t0_0, by
      show i ∈ ((View.whole main_v75_2).slice (win0_18.rect t0_0)).set
      rw [View.set_slice_whole, Rect.mem_set_unit]
      intro a
      have h0 : (i 0 : Nat) < 512 := (i 0).isLt
      have h1 : (i 1 : Nat) < 1 := (i 1).isLt
      match a with
      | ⟨0, _⟩ => show win0_18.index t0_0 0 * win0_18.size 0 ≤ (i 0 : Nat) ∧ (i 0 : Nat) < win0_18.index t0_0 0 * win0_18.size 0 + win0_18.xsize (grid0.coords t0_0) 0
                  rw [show win0_18.index t0_0 0 * win0_18.size 0 = 0 from by decide +kernel, show win0_18.xsize (grid0.coords t0_0) 0 = 512 from by decide +kernel]; omega
      | ⟨1, _⟩ => show win0_18.index t0_0 1 * win0_18.size 1 ≤ (i 1 : Nat) ∧ (i 1 : Nat) < win0_18.index t0_0 1 * win0_18.size 1 + win0_18.xsize (grid0.coords t0_0) 1
                  rw [show win0_18.index t0_0 1 * win0_18.size 1 = 0 from by decide +kernel, show win0_18.xsize (grid0.coords t0_0) 1 = 1 from by decide +kernel]; omega⟩

/-- What the one point writes back for result window 19 is the whole of what the body stored, and the block it is written to is the whole array. -/
theorem flushed0_19_eq (c : Dev nD) (t : Fin cfg0.N) :
    (dat0 V c).flushed 19 t = ((cfg0.win 19).blk t).view.read (Elt F) (out0_19 (V c main_arg0) (V c main_v9) (V c main_v19) (V c main_v29) (V c main_v39) (V c main_v49) (V c main_arg7) (V c main_arg8) (V c main_arg9) (V c main_arg10) (V c main_arg12) (V c main_v54) (V c main_v59) (V c main_v64) (V c main_v69) (V c main_v74)) := by
  obtain rfl : t = t0_0 := fin_N0 t
  show (cfg0.win 19).cut (grid0.coords t0_0) ((dat0 V c).after 19 t0_0) = _
  rw [after0_19, iblk0_0, iblk0_1, iblk0_2, iblk0_3, iblk0_4, iblk0_5, iblk0_6, iblk0_7, iblk0_8, iblk0_9, iblk0_10, iblk0_11, iblk0_12, iblk0_13, iblk0_14, iblk0_15]
  have hz' : (fun a => win0_19.index t0_0 a * main_v75_3.ty.shape.size a) = fun _ => 0 := funext fun a => by fin_cases a <;> decide
  exact (Memref.read_access_unit_zero (Elt F) main_v75_3 hz' (fun a => by rw [congrFun hz' a]; simp) _).symm

/-- Result array 19 after the region: what the body stored, of the operand arrays as the region found them. -/
theorem arr0_19 (c : Dev nD) :
    (dat0 V c).arrAt 19 cfg0.N = out0_19 (V c main_arg0) (V c main_v9) (V c main_v19) (V c main_v29) (V c main_v39) (V c main_v49) (V c main_arg7) (V c main_arg8) (V c main_arg9) (V c main_arg10) (V c main_arg12) (V c main_v54) (V c main_v59) (V c main_v64) (V c main_v69) (V c main_v74) :=
  (dat0 V c).arrAt_eq_of_cover 19 _ (fun t _ => flushed0_19_eq V c t) fun i =>
    ⟨t0_0, flush0_19 t0_0, by
      show i ∈ ((View.whole main_v75_3).slice (win0_19.rect t0_0)).set
      rw [View.set_slice_whole, Rect.mem_set_unit]
      intro a
      have h0 : (i 0 : Nat) < 512 := (i 0).isLt
      have h1 : (i 1 : Nat) < 512 := (i 1).isLt
      match a with
      | ⟨0, _⟩ => show win0_19.index t0_0 0 * win0_19.size 0 ≤ (i 0 : Nat) ∧ (i 0 : Nat) < win0_19.index t0_0 0 * win0_19.size 0 + win0_19.xsize (grid0.coords t0_0) 0
                  rw [show win0_19.index t0_0 0 * win0_19.size 0 = 0 from by decide +kernel, show win0_19.xsize (grid0.coords t0_0) 0 = 512 from by decide +kernel]; omega
      | ⟨1, _⟩ => show win0_19.index t0_0 1 * win0_19.size 1 ≤ (i 1 : Nat) ∧ (i 1 : Nat) < win0_19.index t0_0 1 * win0_19.size 1 + win0_19.xsize (grid0.coords t0_0) 1
                  rw [show win0_19.index t0_0 1 * win0_19.size 1 = 0 from by decide +kernel, show win0_19.xsize (grid0.coords t0_0) 1 = 512 from by decide +kernel]; omega⟩

/-! ## Each result array as the payload of the operand arrays -/

/-- Result array 16 after the region, as the body's payload of the operand arrays as the region found them. -/
theorem res0_16 (c : Dev nD) :
    (dat0 V c).arrAt 16 cfg0.N = k0_pay3 (V c main_v49) (V c main_arg12) (k0_pay18 (V c main_arg0) (V c main_v9) (V c main_v19) (V c main_v39) (V c main_arg7) (V c main_arg8) (V c main_v54) (V c main_v59) (V c main_v69) (constant S512x512 .f32 0x00000000#32)) (k0_pay19 (V c main_arg0) (V c main_v9) (V c main_v19) (V c main_v29) (V c main_v39) (V c main_arg7) (V c main_arg8) (V c main_arg9) (V c main_arg10) (V c main_v54) (V c main_v59) (V c main_v64) (constant S512x512 .f32 0x00000000#32)) :=
  (arr0_16 V c).trans (out0_16_plain _ _ _ _ _ _ _ _ _ _ _ _ _ _ _ _)

/-- Result array 17 after the region, as the body's payload of the operand arrays as the region found them. -/
theorem res0_17 (c : Dev nD) :
    (dat0 V c).arrAt 17 cfg0.N = k0_pay5 (V c main_v49) (V c main_arg12) (V c main_v74) (k0_pay18 (V c main_arg0) (V c main_v9) (V c main_v19) (V c main_v39) (V c main_arg7) (V c main_arg8) (V c main_v54) (V c main_v59) (V c main_v69) (constant S512x512 .f32 0x00000000#32)) (k0_pay19 (V c main_arg0) (V c main_v9) (V c main_v19) (V c main_v29) (V c main_v39) (V c main_arg7) (V c main_arg8) (V c main_arg9) (V c main_arg10) (V c main_v54) (V c main_v59) (V c main_v64) (constant S512x512 .f32 0x00000000#32)) :=
  (arr0_17 V c).trans (out0_17_plain _ _ _ _ _ _ _ _ _ _ _ _ _ _ _ _)

/-- Result array 18 after the region, as the body's payload of the operand arrays as the region found them. -/
theorem res0_18 (c : Dev nD) :
    (dat0 V c).arrAt 18 cfg0.N = k0_pay4 (V c main_v49) (V c main_arg12) (V c main_v74) (k0_pay18 (V c main_arg0) (V c main_v9) (V c main_v19) (V c main_v39) (V c main_arg7) (V c main_arg8) (V c main_v54) (V c main_v59) (V c main_v69) (constant S512x512 .f32 0x00000000#32)) (k0_pay19 (V c main_arg0) (V c main_v9) (V c main_v19) (V c main_v29) (V c main_v39) (V c main_arg7) (V c main_arg8) (V c main_arg9) (V c main_arg10) (V c main_v54) (V c main_v59) (V c main_v64) (constant S512x512 .f32 0x00000000#32)) :=
  (arr0_18 V c).trans (out0_18_plain _ _ _ _ _ _ _ _ _ _ _ _ _ _ _ _)

/-- Result array 19 after the region, as the body's payload of the operand arrays as the region found them. -/
theorem res0_19 (c : Dev nD) :
    (dat0 V c).arrAt 19 cfg0.N = k0_pay2 (k0_pay18 (V c main_arg0) (V c main_v9) (V c main_v19) (V c main_v39) (V c main_arg7) (V c main_arg8) (V c main_v54) (V c main_v59) (V c main_v69) (constant S512x512 .f32 0x00000000#32)) (k0_pay19 (V c main_arg0) (V c main_v9) (V c main_v19) (V c main_v29) (V c main_v39) (V c main_arg7) (V c main_arg8) (V c main_arg9) (V c main_arg10) (V c main_v54) (V c main_v59) (V c main_v64) (constant S512x512 .f32 0x00000000#32)) :=
  (arr0_19 V c).trans (out0_19_plain _ _ _ _ _ _ _ _ _ _ _ _ _ _ _ _)

end Cert.KernelIdeal.KerRegion0

end
-- ==== Proof.KerValues.lean ====
/- The idealized kernel program's run with explicit values: each result as a function of the argument arrays — the
   first region's payloads of the rescaled weights and their column sums, and the tail's loss and accuracy of them. -/
import proofs.«173796_j40003325394948_2_alg».proof.Proof.KerRun
import proofs.«173796_j40003325394948_2_alg».proof.Proof.KerHost
import proofs.«173796_j40003325394948_2_alg».proof.Proof.KerPre
import proofs.«173796_j40003325394948_2_alg».proof.Proof.KerRegion0

set_option maxRecDepth 16384

noncomputable section

namespace Cert.KernelIdeal.KerRun

open Idealize.ShloMosaic Idealize.ShloMosaic.TcCoe Idealize.ShloMosaic.Tactic
open Idealize.SL.Sem
open Idealize.ShloMosaic.Pipeline (Dat Cfg Window BodyObligation cellOf)
open Cert.KernelIdeal Cert.KernelIdeal.Gen

variable {F : FTy → Type} [FloatOps F]

/-! ## The first region's results as functions of the argument arrays

`A0` is the 512 × 784 argument; `A1 … A4` and `A6` are the five arguments that enter rescaled (`mOf`) and through the
column sums of that (`colSumOf`); `A7 … A10` are the four 1 × 512 arguments and `A12` the 1 × 1 argument the region reads
as launched. -/

/-- The first of the body's two shared 512 × 512 intermediates, of the arguments. -/
def kP18 (A0 : Vec F S512x784 .f32) (A1 : Vec F S784x512 .f32) (A2 A4 : Vec F S512x512 .f32) (A7 A8 : Vec F S1x512 .f32) :
    FVec F S512x512 .f32 :=
  k0_pay18 A0 (mOf bcast_S_S784x512 A1) (mOf bcast_S_S512x512 A2) (mOf bcast_S_S512x512 A4) A7 A8
    (colSumOf 784 512 bcast_S_S784x512 reducesTo_S784x512_S512_d0 bcast_S512_S1x512_1 (mOf bcast_S_S784x512 A1))
    (colSumOf 512 512 bcast_S_S512x512 reducesTo_S512x512_S512_d0 bcast_S512_S1x512_1 (mOf bcast_S_S512x512 A2))
    (colSumOf 512 512 bcast_S_S512x512 reducesTo_S512x512_S512_d0 bcast_S512_S1x512_1 (mOf bcast_S_S512x512 A4))
    (constant (F := F) S512x512 .f32 0x00000000#32)

/-- The second shared 512 × 512 intermediate, of the arguments. -/
def kP19 (A0 : Vec F S512x784 .f32) (A1 : Vec F S784x512 .f32) (A2 A3 A4 : Vec F S512x512 .f32)
    (A7 A8 A9 A10 : Vec F S1x512 .f32) :
    FVec F S512x512 .f32 :=
  k0_pay19 A0 (mOf bcast_S_S784x512 A1) (mOf bcast_S_S512x512 A2) (mOf bcast_S_S512x512 A3) (mOf bcast_S_S512x512 A4) A7 A8 A9 A10
    (colSumOf 784 512 bcast_S_S784x512 reducesTo_S784x512_S512_d0 bcast_S512_S1x512_1 (mOf bcast_S_S784x512 A1))
    (colSumOf 512 512 bcast_S_S512x512 reducesTo_S512x512_S512_d0 bcast_S512_S1x512_1 (mOf bcast_S_S512x512 A2))
    (colSumOf 512 512 bcast_S_S512x512 reducesTo_S512x512_S512_d0 bcast_S512_S1x512_1 (mOf bcast_S_S512x512 A3))
    (constant (F := F) S512x512 .f32 0x00000000#32)

/-- The first region's first output (window 16), of the arguments. -/
def kHbar (A0 : Vec F S512x784 .f32) (A1 : Vec F S784x512 .f32) (A2 A3 A4 : Vec F S512x512 .f32) (A6 : Vec F S512x1 .f32)
    (A7 A8 A9 A10 : Vec F S1x512 .f32) (A12 : Vec F S1x1 .f32) : FVec F S512x1 .f32 :=
  k0_pay3 (mOf bcast_S_S512x1 A6) A12 (kP18 A0 A1 A2 A4 A7 A8) (kP19 A0 A1 A2 A3 A4 A7 A8 A9 A10)

/-- The first region's second output (window 17), of the arguments. -/
def kLogp (A0 : Vec F S512x784 .f32) (A1 : Vec F S784x512 .f32) (A2 A3 A4 : Vec F S512x512 .f32) (A6 : Vec F S512x1 .f32)
    (A7 A8 A9 A10 : Vec F S1x512 .f32) (A12 : Vec F S1x1 .f32) : FVec F S512x1 .f32 :=
  k0_pay5 (mOf bcast_S_S512x1 A6) A12 (colSumOf 512 1 bcast_S_S512x1 reducesTo_S512x1_S1_d0 bcast_S1_S1x1_1 (mOf bcast_S_S512x1 A6)) (kP18 A0 A1 A2 A4 A7 A8) (kP19 A0 A1 A2 A3 A4 A7 A8 A9 A10)

/-- The first region's third output (window 18), of the arguments. -/
def kHstd (A0 : Vec F S512x784 .f32) (A1 : Vec F S784x512 .f32) (A2 A3 A4 : Vec F S512x512 .f32) (A6 : Vec F S512x1 .f32)
    (A7 A8 A9 A10 : Vec F S1x512 .f32) (A12 : Vec F S1x1 .f32) : FVec F S512x1 .f32 :=
  k0_pay4 (mOf bcast_S_S512x1 A6) A12 (colSumOf 512 1 bcast_S_S512x1 reducesTo_S512x1_S1_d0 bcast_S1_S1x1_1 (mOf bcast_S_S512x1 A6)) (kP18 A0 A1 A2 A4 A7 A8) (kP19 A0 A1 A2 A3 A4 A7 A8 A9 A10)

/-- The first region's fourth output (window 19), which the second region reads, of the arguments. -/
def kD4 (A0 : Vec F S512x784 .f32) (A1 : Vec F S784x512 .f32) (A2 A3 A4 : Vec F S512x512 .f32)
    (A7 A8 A9 A10 : Vec F S1x512 .f32) : FVec F S512x512 .f32 :=
  k0_pay2 (kP18 A0 A1 A2 A4 A7 A8) (kP19 A0 A1 A2 A3 A4 A7 A8 A9 A10)

variable (m : (ℓ : Loc nD τ sig) → Buf (Elt F) ℓ) (ρ : Dev nD → PrngReg)

/-! ## The first region's output arrays at the run's entry contents -/

/-- Window 16 after the first region: the region's payload of its operand arrays, each operand as the prefix left it. -/
theorem arr16_eq (c : Dev nD) : (dat0 (V1 m ρ) c).arrAt 16 cfg0.N = kHbar (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)) :=
  (KerRegion0.res0_16 (V1 m ρ) c).trans (by
    rw [V1_main_v49 m ρ c, V1_main_arg12 m ρ c, V1_main_arg0 m ρ c, V1_main_v9 m ρ c, V1_main_v19 m ρ c, V1_main_v29 m ρ c, V1_main_v39 m ρ c, V1_main_arg7 m ρ c, V1_main_arg8 m ρ c, V1_main_arg9 m ρ c, V1_main_arg10 m ρ c, V1_main_v54 m ρ c, V1_main_v59 m ρ c, V1_main_v64 m ρ c, V1_main_v69 m ρ c]
    rfl)

/-- Window 17 after the first region. -/
theorem arr17_eq (c : Dev nD) : (dat0 (V1 m ρ) c).arrAt 17 cfg0.N = kLogp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)) :=
  (KerRegion0.res0_17 (V1 m ρ) c).trans (by
    rw [V1_main_v49 m ρ c, V1_main_arg12 m ρ c, V1_main_arg0 m ρ c, V1_main_v9 m ρ c, V1_main_v19 m ρ c, V1_main_v29 m ρ c, V1_main_v39 m ρ c, V1_main_arg7 m ρ c, V1_main_arg8 m ρ c, V1_main_arg9 m ρ c, V1_main_arg10 m ρ c, V1_main_v54 m ρ c, V1_main_v59 m ρ c, V1_main_v64 m ρ c, V1_main_v69 m ρ c, V1_main_v74 m ρ c]
    rfl)

/-- Window 18 after the first region. -/
theorem arr18_eq (c : Dev nD) : (dat0 (V1 m ρ) c).arrAt 18 cfg0.N = kHstd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)) :=
  (KerRegion0.res0_18 (V1 m ρ) c).trans (by
    rw [V1_main_v49 m ρ c, V1_main_arg12 m ρ c, V1_main_arg0 m ρ c, V1_main_v9 m ρ c, V1_main_v19 m ρ c, V1_main_v29 m ρ c, V1_main_v39 m ρ c, V1_main_arg7 m ρ c, V1_main_arg8 m ρ c, V1_main_arg9 m ρ c, V1_main_arg10 m ρ c, V1_main_v54 m ρ c, V1_main_v59 m ρ c, V1_main_v64 m ρ c, V1_main_v69 m ρ c, V1_main_v74 m ρ c]
    rfl)

/-- Window 19 after the first region. -/
theorem arr19_eq (c : Dev nD) : (dat0 (V1 m ρ) c).arrAt 19 cfg0.N = kD4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) :=
  (KerRegion0.res0_19 (V1 m ρ) c).trans (by
    rw [V1_main_arg0 m ρ c, V1_main_v9 m ρ c, V1_main_v19 m ρ c, V1_main_v29 m ρ c, V1_main_v39 m ρ c, V1_main_arg7 m ρ c, V1_main_arg8 m ρ c, V1_main_arg9 m ρ c, V1_main_arg10 m ρ c, V1_main_v54 m ρ c, V1_main_v59 m ρ c, V1_main_v64 m ρ c, V1_main_v69 m ρ c]
    rfl)

/-- The second region reads, beside the identity matrix, the first region's fourth output of the arguments. -/
theorem V3_d4 (c : Dev nD) : V3 m ρ c main_v75_3 = kD4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) :=
  (V3_main_v75_3 m ρ c).trans (arr19_eq m ρ c)

/-! ## The run -/

/-- From any memory with zero counters, every weakly fair execution of the program on the TensorCores terminates,
    nothing faulting, and every final state holds: the first two results at the first region's first two outputs of the
    arguments; the third at the second region's output array; the loss and the accuracy of the targets and the first
    region's second and third outputs; and every argument as launched. -/
theorem kernel_values : θ_run defs (onTc (τ := τ) (main (F := F))) ⟨m, fun _ => 0, ρ⟩ (fun r => ∀ c : Dev nD,
      r.2.mem ((c.tc : Thread nD τ).loc main_v75_0) = kHbar (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12))
      ∧ r.2.mem ((c.tc : Thread nD τ).loc main_v75_1) = kLogp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12))
      ∧ r.2.mem ((c.tc : Thread nD τ).loc main_v82) = (dat1 (V3 m ρ) c).arrAt 2 cfg1.N
      ∧ r.2.mem ((c.tc : Thread nD τ).loc main_v97)
          = lossOf (m ((c.tc : Thread nD τ).loc main_arg13)) (kLogp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12))) (kHstd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)))
      ∧ r.2.mem ((c.tc : Thread nD τ).loc main_v111)
          = fracOf (m ((c.tc : Thread nD τ).loc main_arg13)) (kHstd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => by
    obtain ⟨h0, h1, h2, h3, h4, hargs⟩ := h c
    refine ⟨h0.trans ((W7_main_v75_0 m ρ c).trans (arr16_eq m ρ c)),
      h1.trans ((W7_main_v75_1 m ρ c).trans (arr17_eq m ρ c)),
      h2.trans (W7_main_v82 m ρ c),
      h3.trans ((W7_main_v97 m ρ c).trans ?_),
      h4.trans ((W7_main_v111 m ρ c).trans ?_), hargs⟩
    · rw [arr17_eq m ρ c, arr18_eq m ρ c]
    · rw [arr18_eq m ρ c]) (run_results m ρ)

end Cert.KernelIdeal.KerRun

end
-- ==== Proof.KerRegion1.lean ====
import proofs.«173796_j40003325394948_2_alg».proof.Proof.Gen.KernelIdeal.Frame
import Idealize.ShloMosaic.Lib.Pipeline.Value
import Idealize.ShloMosaic.Lib.ValueIdx
import Idealize.ShloMosaic.Lib.Tactic

/-! # The second region's result array as a function of its two operand arrays

The region runs 32 points; point `t` reads rows `16 t … 16 t + 15` of the first operand `D` (a 512 × 512 array), the
whole second operand `E` (512 × 512), and writes slab `16 t … 16 t + 15` of the 512 × 512 × 512 result: entry `(p, a, b)` of
the slab is `E (a, b) * D (16 t + p, b)`. The slabs tile the result, which therefore ends holding
`(i0, i1, i2) ↦ E (i1, i2) * D (i0, i2)`. -/

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.KerRegion1

open Cert.KernelIdeal Cert.KernelIdeal.Gen

variable {F : FTy → Type} [FloatOps F]

/-- The zero offsets of a rank-two rectangle, as the constant function. -/
theorem hz2 : (![0, 0] : Fin 2 → Nat) = fun _ => 0 := funext fun a => by fin_cases a <;> rfl
/-- The zero offsets of a rank-three rectangle, as the constant function. -/
theorem hz3 : (![0, 0, 0] : Fin 3 → Nat) = fun _ => 0 := funext fun a => by fin_cases a <;> rfl

/-! ## The body's payload at an index -/

/-- Entry `(p, a, b)` of what the body stores is `x1 (a, b) * x0 (p, b)`: the second operand with a unit axis put in front
    and repeated along it, times the first operand's block with a unit axis put in the middle and repeated along it. -/
theorem k1_pay1_apply (x0 : Vec F S16x512 .f32) (x1 : Vec F S512x512 .f32) (p : Fin 16) (a b : Fin 512) :
    k1_pay1 x0 x1 (ix3 p a b) = FloatOps.mulf (x1 (ix2 a b)) (x0 (ix2 p b)) := by
  unfold k1_pay1
  show FloatOps.mulf (broadcastTo S16x512x512 (shapeCast S1x512x512 (shapeCast S512x512 x1 shapeCasts_S512x512_S512x512) shapeCasts_S512x512_S1x512x512) broadcasts_S1x512x512_S16x512x512 (ix3 p a b))
      (broadcastTo S16x512x512 (shapeCast S16x1x512 (shapeCast S16x512 x0 shapeCasts_S16x512_S16x512) shapeCasts_S16x512_S16x1x512) broadcasts_S16x1x512_S16x512x512 (ix3 p a b)) = _
  rw [shapeCast_self, shapeCast_self]
  have e1 : broadcastTo S16x512x512 (shapeCast S1x512x512 x1 shapeCasts_S512x512_S1x512x512) broadcasts_S1x512x512_S16x512x512 (ix3 p a b) = x1 (ix2 a b) := by
    refine (broadcastTo_apply _ _ (ix3 p a b) (ix3 (0 : Fin 1) a b) fun q => ?_).trans ?_
    · match q with
      | ⟨0, _⟩ => rfl
      | ⟨1, _⟩ => rfl
      | ⟨2, _⟩ => rfl
    · refine shapeCast_apply x1 _ _ (ix2 a b) ?_
      have h2 := Shape.rowMajor_val_two (d := ![512, 512]) (ix2 a b)
      have h3 := Shape.rowMajor_val_three (d := ![1, 512, 512]) (ix3 (0 : Fin 1) a b)
      refine h2.trans (Eq.trans ?_ h3.symm)
      show a.val * 512 + b.val = (0 * 512 + a.val) * 512 + b.val
      omega
  have e2 : broadcastTo S16x512x512 (shapeCast S16x1x512 x0 shapeCasts_S16x512_S16x1x512) broadcasts_S16x1x512_S16x512x512 (ix3 p a b) = x0 (ix2 p b) := by
    refine (broadcastTo_apply _ _ (ix3 p a b) (ix3 p (0 : Fin 1) b) fun q => ?_).trans ?_
    · match q with
      | ⟨0, _⟩ => rfl
      | ⟨1, _⟩ => rfl
      | ⟨2, _⟩ => rfl
    · refine shapeCast_apply x0 _ _ (ix2 p b) ?_
      have h2 := Shape.rowMajor_val_two (d := ![16, 512]) (ix2 p b)
      have h3 := Shape.rowMajor_val_three (d := ![16, 1, 512]) (ix3 p (0 : Fin 1) b)
      refine h2.trans (Eq.trans ?_ h3.symm)
      show p.val * 512 + b.val = (p.val * 1 + 0) * 512 + b.val
      omega
  rw [e1, e2]

/-! ## The result array's function and its slabs -/

/-- Entry `(i0, i1, i2)` is `E (i1, i2) * D (i0, i2)`. -/
def outer (E D : Vec F S512x512 .f32) : Vec F S512x512x512 .f32 :=
  fun i => FloatOps.mulf (E (ix2 (i 1) (i 2))) (D (ix2 (i 0) (i 2)))

theorem outer_apply (E D : Vec F S512x512 .f32) (i0 i1 i2 : Fin 512) :
    outer E D (ix3 i0 i1 i2) = FloatOps.mulf (E (ix2 i1 i2)) (D (ix2 i0 i2)) := rfl

/-- What the body stores at a point whose first-operand block is rows `16 n … 16 n + 15` of `D` is slab `n` of `outer E D`:
    the entry at `j` is `outer E D` at the index `i` with `i0 = 16 n + j0`, `i1 = j1`, `i2 = j2`. -/
theorem slab_apply (E D : Vec F S512x512 .f32) (x0 : Vec F S16x512 .f32) (n : Nat)
    (hD : ∀ (p : Fin 16) (b k : Fin 512), k.val = 16 * n + p.val → x0 (ix2 p b) = D (ix2 k b))
    (j : S16x512x512.Idx) (i : S512x512x512.Idx)
    (h0 : (i 0).val = 16 * n + (j 0).val) (h1 : (i 1).val = (j 1).val) (h2 : (i 2).val = (j 2).val) :
    k1_pay1 x0 E j = outer E D i := by
  have a1 : (j 1 : Fin 512) = (i 1 : Fin 512) := Fin.ext h1.symm
  have a2 : (j 2 : Fin 512) = (i 2 : Fin 512) := Fin.ext h2.symm
  calc k1_pay1 x0 E j
      = k1_pay1 x0 E (ix3 (j 0 : Fin 16) (j 1 : Fin 512) (j 2 : Fin 512)) :=
        congrArg (k1_pay1 x0 E) (eq_ix3 (n0 := 16) (n1 := 512) (n2 := 512) j)
    _ = FloatOps.mulf (E (ix2 (j 1 : Fin 512) (j 2 : Fin 512))) (x0 (ix2 (j 0 : Fin 16) (j 2 : Fin 512))) :=
        k1_pay1_apply x0 E _ _ _
    _ = FloatOps.mulf (E (ix2 (i 1 : Fin 512) (i 2 : Fin 512))) (D (ix2 (i 0 : Fin 512) (i 2 : Fin 512))) := by
        rw [hD (j 0) (j 2) (i 0) h0, a1, a2]
    _ = outer E D i := rfl

/-! ## The windows' block indices over the grid -/

variable (V : (c : Dev nD) → (b : Ref sig .tc) → Buf (Elt F) ((c : Thread nD τ).loc b))

/-- Point `t`'s blocks: block row `t` of the first operand and of the result, the whole second operand. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- The second operand's block at any point is the whole array. -/
theorem iblk1_1 (c : Dev nD) (t : Fin cfg1.N) : iblk1 V c 1 t = V c main_v81 := by
  obtain ⟨-, -, e2, e3, -⟩ := idx_facts t
  have hz' : (fun a => win1_1.index t a * main_v81.ty.shape.size a) = fun _ => 0 := funext fun a => by
    match a with
    | ⟨0, _⟩ => show win1_1.index t (0 : Fin 2) * 512 = 0; rw [e2]
    | ⟨1, _⟩ => show win1_1.index t (1 : Fin 2) * 512 = 0; rw [e3]
  exact Memref.read_access_unit_zero (Elt F) main_v81 hz' (fun a => by rw [congrFun hz' a]; simp) (V c main_v81)

/-- The first operand's block at point `t` is rows `16 t … 16 t + 15` of the array. -/
theorem iblk1_0_apply (c : Dev nD) (t : Fin cfg1.N) (p : Fin 16) (b k : Fin 512) (hk : k.val = 16 * t.val + p.val) :
    (iblk1 V c 0 t : Vec F S16x512 .f32) (ix2 p b) = (V c main_v75_3 : Vec F S512x512 .f32) (ix2 k b) := by
  obtain ⟨e0, e1, -⟩ := idx_facts t
  unfold iblk1
  rw [View.read_apply]
  show V c main_v75_3 _ = V c main_v75_3 _
  congr 1
  funext a
  apply Fin.ext
  match a with
  | ⟨0, _⟩ => show win1_0.index t (0 : Fin 2) * 16 + 1 * p.val = k.val; rw [e0, hk]; omega
  | ⟨1, _⟩ => show win1_0.index t (1 : Fin 2) * 512 + 1 * b.val = b.val; rw [e1]; omega

/-! ## What each point writes back, and the array after the run -/

/-- Point `t` writes back slab `t` of `outer E D`, `E` and `D` the operand arrays as the region finds them. -/
theorem flushed1_2_eq (c : Dev nD) (t : Fin cfg1.N) :
    (dat1 V c).flushed 2 t = ((cfg1.win 2).blk t).view.read (Elt F) (outer (V c main_v81) (V c main_v75_3)) := by
  obtain ⟨-, -, -, -, e4, e5, e6⟩ := idx_facts t
  show (cfg1.win 2).cut (grid1.coords t) ((dat1 V c).after 2 t) = _
  rw [after1_2]
  unfold out1_2
  rw [View.canon_unit_zero hz3]
  simp only [View.ld_unit_zero (S := S16x512) hz2, View.ld_unit_zero (S := S512x512) hz2]
  rw [iblk1_1]
  funext j
  rw [View.read_apply]
  show k1_pay1 (iblk1 V c 0 t) (V c main_v81) j = outer (V c main_v81) (V c main_v75_3) (((cfg1.win 2).blk t).view.emb j)
  refine slab_apply (V c main_v81) (V c main_v75_3) (iblk1 V c 0 t) t.val (fun p b k hk => iblk1_0_apply V c t p b k hk) j _ ?_ ?_ ?_
  · show win1_2.index t (0 : Fin 3) * 16 + 1 * (j 0).val = 16 * t.val + (j 0).val; rw [e4]; omega
  · show win1_2.index t (1 : Fin 3) * 512 + 1 * (j 1).val = (j 1).val; rw [e5]; omega
  · show win1_2.index t (2 : Fin 3) * 512 + 1 * (j 2).val = (j 2).val; rw [e6]; omega

/-- An index of the result is in point `t`'s block iff each coordinate is in the block's range on its axis. -/
theorem mem_blk1_2 (t : Fin cfg1.N) (i : S512x512x512.Idx) :
    i ∈ ((cfg1.win 2).blk t).view.set ↔ ∀ a : Fin 3, win1_2.index t a * S16x512x512.size a ≤ (i a).val ∧ (i a).val < win1_2.index t a * S16x512x512.size a + S16x512x512.size a := by
  show i ∈ ((View.whole main_v82).slice (win1_2.rect t)).set ↔ _
  rw [View.set_slice_whole, Rect.mem_set_unit]
  exact Iff.rfl

/-- Every index of the result is in the block of the point its first coordinate's block row names. -/
theorem covered1_2 (i : S512x512x512.Idx) :
    ∃ t : Fin cfg1.N, (cfg1.win 2).flush t = true ∧ i ∈ ((cfg1.win 2).blk t).view.set := by
  have hi0 : (i 0).val < 512 := (i 0).isLt
  have hi1 : (i 1).val < 512 := (i 1).isLt
  have hi2 : (i 2).val < 512 := (i 2).isLt
  have hN : cfg1.N = 32 := N_1
  let t : Fin cfg1.N := ⟨(i 0).val / 16, by rw [hN]; omega⟩
  obtain ⟨-, -, -, -, e4, e5, e6⟩ := idx_facts t
  have ht : t.val = (i 0).val / 16 := rfl
  refine ⟨t, flush1_2 t, ?_⟩
  rw [mem_blk1_2]
  intro a
  match a with
  | ⟨0, _⟩ => show win1_2.index t (0 : Fin 3) * 16 ≤ (i 0).val ∧ (i 0).val < win1_2.index t (0 : Fin 3) * 16 + 16; rw [e4, ht]; omega
  | ⟨1, _⟩ => show win1_2.index t (1 : Fin 3) * 512 ≤ (i 1).val ∧ (i 1).val < win1_2.index t (1 : Fin 3) * 512 + 512; rw [e5]; omega
  | ⟨2, _⟩ => show win1_2.index t (2 : Fin 3) * 512 ≤ (i 2).val ∧ (i 2).val < win1_2.index t (2 : Fin 3) * 512 + 512; rw [e6]; omega

/-- THE RESULT ARRAY after the region: `(i0, i1, i2) ↦ E (i1, i2) * D (i0, i2)`. -/
theorem arr1_2 (c : Dev nD) :
    (dat1 V c).arrAt 2 cfg1.N = outer (V c main_v81) (V c main_v75_3) :=
  (dat1 V c).arrAt_eq_of_cover 2 _ (fun t _ => flushed1_2_eq V c t) covered1_2

/-! ## The same function as two broadcasts in dimensions, multiplied -/

/-- `outer E D` is `E` given a leading unit axis and repeated along it, times `D` given a middle unit axis and repeated
    along it. -/
theorem outer_eq_host (E D : Vec F S512x512 .f32)
    (h1 : S512x512.BroadcastsInDim (⟨3, ![1, 512, 512]⟩ : Shape) ![1, 2])
    (h2 : S512x512.BroadcastsInDim (⟨3, ![512, 1, 512]⟩ : Shape) ![0, 2])
    (h3 : (⟨3, ![1, 512, 512]⟩ : Shape).BroadcastsInDim S512x512x512 ![0, 1, 2])
    (h4 : (⟨3, ![512, 1, 512]⟩ : Shape).BroadcastsInDim S512x512x512 ![0, 1, 2]) :
    outer E D = mulf (broadcastInDim S512x512x512 ![0, 1, 2] h3 (broadcastInDim (⟨3, ![1, 512, 512]⟩ : Shape) ![1, 2] h1 E))
      (broadcastInDim S512x512x512 ![0, 1, 2] h4 (broadcastInDim (⟨3, ![512, 1, 512]⟩ : Shape) ![0, 2] h2 D)) := by
  funext i
  have eE : broadcastInDim S512x512x512 ![0, 1, 2] h3 (broadcastInDim (⟨3, ![1, 512, 512]⟩ : Shape) ![1, 2] h1 E) i
      = E (ix2 (i 1 : Fin 512) (i 2 : Fin 512)) := by
    refine (broadcastInDim_apply _ h3 _ i (ix3 (0 : Fin 1) (i 1 : Fin 512) (i 2 : Fin 512)) fun a => ?_).trans ?_
    · match a with
      | ⟨0, _⟩ => rfl
      | ⟨1, _⟩ => rfl
      | ⟨2, _⟩ => rfl
    · refine broadcastInDim_apply _ h1 E _ (ix2 (i 1 : Fin 512) (i 2 : Fin 512)) fun a => ?_
      match a with
      | ⟨0, _⟩ => rfl
      | ⟨1, _⟩ => rfl
  have eD : broadcastInDim S512x512x512 ![0, 1, 2] h4 (broadcastInDim (⟨3, ![512, 1, 512]⟩ : Shape) ![0, 2] h2 D) i
      = D (ix2 (i 0 : Fin 512) (i 2 : Fin 512)) := by
    refine (broadcastInDim_apply _ h4 _ i (ix3 (i 0 : Fin 512) (0 : Fin 1) (i 2 : Fin 512)) fun a => ?_).trans ?_
    · match a with
      | ⟨0, _⟩ => rfl
      | ⟨1, _⟩ => rfl
      | ⟨2, _⟩ => rfl
    · refine broadcastInDim_apply _ h2 D _ (ix2 (i 0 : Fin 512) (i 2 : Fin 512)) fun a => ?_
      match a with
      | ⟨0, _⟩ => rfl
      | ⟨1, _⟩ => rfl
  show FloatOps.mulf (E (ix2 (i 1 : Fin 512) (i 2 : Fin 512))) (D (ix2 (i 0 : Fin 512) (i 2 : Fin 512))) = FloatOps.mulf _ _
  rw [eE, eD]

/-- THE RESULT ARRAY after the region, spelt as the two broadcasts multiplied. -/
theorem arr1_2_host (c : Dev nD)
    (h1 : S512x512.BroadcastsInDim (⟨3, ![1, 512, 512]⟩ : Shape) ![1, 2])
    (h2 : S512x512.BroadcastsInDim (⟨3, ![512, 1, 512]⟩ : Shape) ![0, 2])
    (h3 : (⟨3, ![1, 512, 512]⟩ : Shape).BroadcastsInDim S512x512x512 ![0, 1, 2])
    (h4 : (⟨3, ![512, 1, 512]⟩ : Shape).BroadcastsInDim S512x512x512 ![0, 1, 2]) :
    (dat1 V c).arrAt 2 cfg1.N
      = mulf (broadcastInDim S512x512x512 ![0, 1, 2] h3 (broadcastInDim (⟨3, ![1, 512, 512]⟩ : Shape) ![1, 2] h1 (V c main_v81)))
          (broadcastInDim S512x512x512 ![0, 1, 2] h4 (broadcastInDim (⟨3, ![512, 1, 512]⟩ : Shape) ![0, 2] h2 (V c main_v75_3))) :=
  (arr1_2 V c).trans (outer_eq_host _ _ h1 h2 h3 h4)

end Cert.KernelIdeal.KerRegion1

end
-- ==== Proof.LibRsqrtVsSqrt.lean ====
/-
  Extended-real facts behind a layer that divides by a standard deviation.

  On the extended reals a product with the reciprocal square root, a · rsqrt b, and a quotient by the square root,
  a / √b, agree wherever 0 < b (at a positive real both are a · (√b)⁻¹; at +∞ both are a · 0) and differ at b = 0
  and below.  A variance of the form (Σ_k d_k · q_k) + s with d, q ≥ 0 and s > 0 is positive, 1 − tanh² is never
  negative, a square is never negative, and a matrix product accumulated into zero is the host's contraction.
  Everything here is stated for any shape.
-/
import Idealize.ShloMosaic.PureOps.Ideal
import Idealize.ShloMosaic.PureOps.Ideal.Laws

noncomputable section

namespace Cert.LibRsqrtVsSqrt

open Idealize.ShloMosaic

/-- Where 0 < b, multiplying by the reciprocal square root is dividing by the square root. -/
theorem mul_rsqrt_eq_div_sqrt (a b : EReal) (hb : 0 < b) : a * Ideal.rsqrt b = Ideal.div a (Ideal.sqrt b) := by
  induction b using EReal.rec with
  | bot => exact absurd hb (by simp)
  | coe r =>
    have hr : 0 < r := EReal.coe_pos.mp hb
    have hs : Real.sqrt r ≠ 0 := (Real.sqrt_pos.mpr hr).ne'
    have e1 : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.mpr hr.le), if_neg hr.ne']
    have e2 : Ideal.sqrt (r : EReal) = ((Real.sqrt r : ℝ) : EReal) := by
      show (if r < 0 then (⊥ : EReal) else ((Real.sqrt r : ℝ) : EReal)) = _
      rw [if_neg (not_lt.mpr hr.le)]
    rw [e1, e2]
    unfold Ideal.div
    rw [if_neg (by exact_mod_cast hs), EReal.coe_inv]
  | top =>
    have e1 : Ideal.rsqrt (⊤ : EReal) = 0 := rfl
    have e2 : Ideal.sqrt (⊤ : EReal) = ⊤ := rfl
    rw [e1, e2]
    unfold Ideal.div
    rw [if_neg EReal.top_ne_zero, EReal.inv_top]

/-- The same entry by entry: the kernel's x · rsqrt v is the host's x / √v on arrays whose v is positive throughout. -/
theorem mulf_rsqrt_eq_divf_sqrt {s : Shape} (a b : FVec Ideal s .f32) (hb : ∀ i, 0 < b i) :
    mulf a (rsqrt b) = Host.divf a (Host.sqrt b) := by
  funext i
  exact mul_rsqrt_eq_div_sqrt (a i) (b i) (hb i)

/-- 1 − 1 is 0 on the extended reals (no cancellation law there: through the reals). -/
theorem one_sub_one : (1 : EReal) - 1 = 0 := by
  rw [← EReal.coe_one, ← EReal.coe_sub, sub_self, EReal.coe_zero]

/-- tanh of any extended real lies in [−1, 1], so 1 − tanh² is never negative. -/
theorem one_sub_tanh_sq_nonneg (z : EReal) : (0 : EReal) ≤ 1 - Ideal.tanh z * Ideal.tanh z := by
  induction z using EReal.rec with
  | bot =>
    have e : Ideal.tanh (⊥ : EReal) = -1 := rfl
    rw [e, neg_mul_neg, one_mul, one_sub_one]
  | coe r =>
    have e : Ideal.tanh (r : EReal) = ((Real.tanh r : ℝ) : EReal) := rfl
    rw [e, ← EReal.coe_mul, ← EReal.coe_one, ← EReal.coe_sub, EReal.coe_nonneg]
    have h1 := Real.tanh_lt_one r
    have h2 := Real.neg_one_lt_tanh r
    nlinarith
  | top =>
    have e : Ideal.tanh (⊤ : EReal) = 1 := rfl
    rw [e, one_mul, one_sub_one]

/-- A square is never negative, at the infinities too. -/
theorem mul_self_nonneg' (m : EReal) : 0 ≤ m * m :=
  EReal.mul_nonneg_iff.mpr ((le_total 0 m).elim (fun h => .inl ⟨h, h⟩) (fun h => .inr ⟨h, h⟩))

/-- A sum of products of non-negative factors, plus a positive term, is positive. -/
theorem sum_mul_add_pos {ι : Type} (K : Finset ι) (d q : ι → EReal) (s : EReal)
    (hd : ∀ k, 0 ≤ d k) (hq : ∀ k, 0 ≤ q k) (hs : 0 < s) : 0 < (∑ k ∈ K, d k * q k) + s :=
  lt_of_lt_of_le hs (le_add_of_nonneg_left (Finset.sum_nonneg fun k _ => EReal.mul_nonneg (hd k) (hq k)))

/-- A matrix product accumulated into the zero array is the host's contraction of the same operands. -/
theorem matmul_zero_eq_dotGeneral {sl sr so : Shape} (d : DotDims sl sr so) (prec : Option ContractPrecision)
    (a : FVec Ideal sl .f32) (b : FVec Ideal sr .f32) :
    matmul d prec a b (constant so .f32 0x00000000#32) = Host.dotGeneral d prec a b := by
  funext j
  rw [show matmul d prec a b (constant so .f32 0x00000000#32) j
        = FloatOps.matmul d prec a b (constant so .f32 0x00000000#32) j from rfl,
      Ideal.matmul_constant_zero_apply,
      show Host.dotGeneral d prec a b j = FloatOps.dotGeneral d prec .single a b j from rfl,
      Ideal.dotGeneral_apply]

/-- The variance a layer divides by, (d · q)(j) + s(j), is positive at every entry when d, q ≥ 0 and s > 0. -/
theorem dot_add_pos {sl sr so : Shape} (dd : DotDims sl sr so) (prec : Option ContractPrecision)
    (d : FVec Ideal sl .f32) (q : FVec Ideal sr .f32) (s : FVec Ideal so .f32)
    (hd : ∀ i, 0 ≤ d i) (hq : ∀ i, 0 ≤ q i) (hs : ∀ j, 0 < s j) (j : so.Idx) :
    0 < addf (Host.dotGeneral dd prec d q) s j := by
  show 0 < FloatOps.dotGeneral dd prec .single d q j + s j
  rw [Ideal.dotGeneral_apply]
  exact sum_mul_add_pos _ (fun k => d (dd.lhsIdx j k)) (fun k => q (dd.rhsIdx j k)) (s j) (fun _ => hd _) (fun _ => hq _) (hs j)

/-- The kernel's tanh and the host's are one function. -/
theorem tanh_eq_host {s : Shape} (v : FVec Ideal s .f32) : tanh v = Host.tanh v := rfl

end Cert.LibRsqrtVsSqrt

end
-- ==== Proof.LibBroadcastForms.lean ====
/-
  The kernel's and the host's spellings of three broadcasts are the same functions.

  A [p,q] array broadcast to [a,b] by trailing axes (the kernel's vector.broadcast) and by the dimension map (0,1)
  (the host's broadcast_in_dim) read the same source entry at every index; a scalar spread over a shape is the
  rank-zero constant broadcast with no dimensions; and an entrywise function commutes with either broadcast.
-/
import Idealize.ShloMosaic.PureOps.Ideal
import Idealize.ShloMosaic.PureOps.Ideal.Laws

noncomputable section

namespace Cert.LibBroadcastForms

open Idealize.ShloMosaic

/-- Rank two to rank two: broadcasting by trailing axes is broadcasting along the dimension map (0,1). -/
theorem broadcastTo_eq_inDim {α : Type} {p q a b : Nat} (x : (⟨2, ![p, q]⟩ : Shape).Idx → α)
    (h : (⟨2, ![p, q]⟩ : Shape).Broadcasts ⟨2, ![a, b]⟩)
    (h' : (⟨2, ![p, q]⟩ : Shape).BroadcastsInDim ⟨2, ![a, b]⟩ ![0, 1]) :
    broadcastTo ⟨2, ![a, b]⟩ x h = broadcastInDim ⟨2, ![a, b]⟩ ![0, 1] h' x := by
  funext j
  unfold broadcastTo broadcastInDim
  congr 1
  funext c
  fin_cases c <;> rfl

/-- A scalar word spread over a shape is the rank-zero constant broadcast along no dimension. -/
theorem splat_eq {t : Shape} (h : (⟨0, ![]⟩ : Shape).BroadcastsInDim t ![]) (w : BitVec 32) :
    (broadcast t (Scalar.ofBits (F := Ideal) .f32 w) : FVec Ideal t .f32)
      = broadcastInDim t ![] h (constant ⟨0, ![]⟩ .f32 w) := by
  funext j; rfl

/-- The reciprocal square root, taken entry by entry, commutes with a trailing-axes broadcast. -/
theorem rsqrt_broadcastTo {s t : Shape} (v : FVec Ideal s .f32) (h : s.Broadcasts t) :
    rsqrt (broadcastTo t v h) = broadcastTo t (rsqrt v) h := rfl

/-- … and with a broadcast along a dimension map. -/
theorem rsqrt_inDim {s t : Shape} (dims : Fin s.rank → Fin t.rank) (h : s.BroadcastsInDim t dims) (v : FVec Ideal s .f32) :
    rsqrt (broadcastInDim t dims h v) = broadcastInDim t dims h (rsqrt v) := rfl

/-- The host's square root commutes with a broadcast along a dimension map. -/
theorem sqrt_inDim {s t : Shape} (dims : Fin s.rank → Fin t.rank) (h : s.BroadcastsInDim t dims) (v : FVec Ideal s .f32) :
    Host.sqrt (broadcastInDim t dims h v) = broadcastInDim t dims h (Host.sqrt v) := rfl

/-- Every entry of a broadcast is an entry of its source: a property of all source entries passes to the broadcast. -/
theorem inDim_forall {α : Type} {s t : Shape} (dims : Fin s.rank → Fin t.rank) (h : s.BroadcastsInDim t dims)
    (v : s.Idx → α) (P : α → Prop) (hv : ∀ i, P (v i)) (j : t.Idx) : P (broadcastInDim t dims h v j) := hv _

end Cert.LibBroadcastForms

end
-- ==== Proof.LibMeanWeight.lean ====
/-
  The mean weight of a binary synapse and the variance it leaves.

  For a real w the mean weight m = 2·σ(w) − 1, σ(w) = 1/(1 + e^(−w)), is a real strictly between −1 and 1, so
  1 − m² is a positive real; and a host sum over one axis of an array that is positive everywhere, started from 0,
  is positive.  The words 0x3F800000 and 0x40000000 are the reals 1 and 2.
-/
import Idealize.ShloMosaic.PureOps.Ideal
import Idealize.ShloMosaic.PureOps.Ideal.Laws

noncomputable section

namespace Cert.LibMeanWeight

open Idealize.ShloMosaic

/-- The word 0x3F800000 denotes 1. -/
theorem ofBits_one : Ideal.ofBits .f32 0x3F800000#32 = 1 := by
  simp [Ideal.ofBits, Ideal.ieee, -EReal.coe_mul]; norm_num

/-- The word 0x40000000 denotes 2. -/
theorem ofBits_two : Ideal.ofBits .f32 0x40000000#32 = ((2 : ℝ) : EReal) := by
  simp [Ideal.ofBits, Ideal.ieee, -EReal.coe_mul]; norm_num

/-- The mean weight at a real w, as a real. -/
def mu (r : ℝ) : ℝ := 2 * (1 / (1 + Real.exp (-r))) - 1

/-- The mean weight lies strictly inside (−1, 1): its square is below 1. -/
theorem mu_sq_lt_one (r : ℝ) : mu r * mu r < 1 := by
  have he : 0 < Real.exp (-r) := Real.exp_pos _
  have hd : 0 < 1 + Real.exp (-r) := by linarith
  have h0 : 0 < 1 / (1 + Real.exp (-r)) := div_pos one_pos hd
  have h1 : 1 / (1 + Real.exp (-r)) < 1 := by rw [div_lt_one hd]; linarith
  unfold mu
  nlinarith

/-- 2 · (1 / (1 + e^(−w))) − 1 at a real w, spelled with the programs' words, is the real mu w. -/
theorem meanWeight_coe (r : ℝ) :
    Ideal.ofBits .f32 0x40000000#32
        * Ideal.div (Ideal.ofBits .f32 0x3F800000#32) (Ideal.ofBits .f32 0x3F800000#32 + Ideal.exp (-(r : EReal)))
      - Ideal.ofBits .f32 0x3F800000#32 = ((mu r : ℝ) : EReal) := by
  have he : 0 < Real.exp (-r) := Real.exp_pos _
  have hd : (1 + Real.exp (-r)) ≠ 0 := by linarith
  have e1 : Ideal.exp (-(r : EReal)) = ((Real.exp (-r) : ℝ) : EReal) := rfl
  rw [ofBits_one, ofBits_two, e1, ← EReal.coe_one, ← EReal.coe_add, Ideal.div_coe hd, ← EReal.coe_mul, ← EReal.coe_mul,
    ← EReal.coe_sub]
  unfold mu
  norm_num

/-- 1 − m² is positive at a mean weight of a real w. -/
theorem one_sub_sq_pos (r : ℝ) : (0 : EReal) < Ideal.ofBits .f32 0x3F800000#32 - ((mu r : ℝ) : EReal) * ((mu r : ℝ) : EReal) := by
  rw [ofBits_one, ← EReal.coe_mul, ← EReal.coe_one, ← EReal.coe_sub, EReal.coe_pos]
  have := mu_sq_lt_one r
  linarith

/-- A host sum over one axis, started from 0, of an array positive at every entry is positive at every index
    (the axis is not empty). -/
theorem hostReduceAdd_pos {s t : Shape} {a : Fin s.rank} (h' : s.ReducesTo [a] t) (h : s.Reduces [a] t)
    (x : s.Idx → EReal) (hx : ∀ i, 0 < x i) (hn : 0 < s.size a) (j : t.Idx) :
    0 < Ideal.hostReduceAdd h' x 0 j := by
  rw [Ideal.hostReduceAdd_single h' h, zero_add]
  calc (0 : EReal) < x (h.lift j ⟨0, hn⟩) := hx _
    _ ≤ ∑ k : Fin (s.size a), x (h.lift j k) :=
      Finset.single_le_sum (f := fun k => x (h.lift j k)) (fun k _ => (hx _).le) (Finset.mem_univ _)

end Cert.LibMeanWeight

end
-- ==== Proof.Stages.lean ====
/-
  The kernel's layers are the reference's layers.

  Inside the kernel a layer is spelled  tanh(c·(x̄·m + θ) · rsqrt(d·m² + s))  with matrix products accumulated into zero,
  rows broadcast by trailing axes and scalars spread directly; the reference spells the same layer
  tanh(c·(x̄·m + θ) / √(d·m² + s))  with host contractions and dimension-map broadcasts.  The two agree wherever the
  variance d·m² + s is positive, which holds when d ≥ 0 and the column sums s of 1 − m² are positive.
  This module names the kernel's spelling of each stage, shows the kernel body's values are compositions of those
  stages (by unfolding), and proves each stage equal to the reference's.
-/
import proofs.«173796_j40003325394948_2_alg».proof.Proof.Spec
import proofs.«173796_j40003325394948_2_alg».proof.Proof.LibRsqrtVsSqrt
import proofs.«173796_j40003325394948_2_alg».proof.Proof.LibBroadcastForms
import proofs.«173796_j40003325394948_2_alg».proof.Proof.LibMeanWeight
import proofs.«173796_j40003325394948_2_alg».proof.Proof.Gen.KernelIdeal.Skeleton
import proofs.«173796_j40003325394948_2_alg».proof.Proof.Gen.ReferenceIdeal

noncomputable section

namespace Cert.Stages

open Idealize.ShloMosaic Cert.KernelIdeal Cert.KernelIdeal.Facts₀ Cert.KernelIdeal.Gen
open Cert.LibRsqrtVsSqrt Cert.LibBroadcastForms

/-- The reference's shape facts under short names. -/
theorem rS512x512 : Cert.ReferenceIdeal.S_.BroadcastsInDim Cert.ReferenceIdeal.S512x512 (![] : Fin 0 → Fin Cert.ReferenceIdeal.S512x512.rank) :=
  Cert.ReferenceIdeal.Facts₀.bcast_S_S512x512
theorem rRows : Cert.ReferenceIdeal.S1x512.BroadcastsInDim Cert.ReferenceIdeal.S512x512 (![0, 1] : Fin 2 → Fin Cert.ReferenceIdeal.S512x512.rank) :=
  Cert.ReferenceIdeal.Facts₀.bcast_S1x512_S512x512_0_1

/-! ## The kernel's spelling of each stage -/

/-- c spread over [512,512], the kernel's way. -/
def kC : FVec Ideal S512x512 .f32 := broadcast S512x512 (Scalar.ofBits .f32 0x3F4C422A#32)

/-- x̄·m + θ, the kernel's way. -/
def kAffine (xb m : FVec Ideal S512x512 .f32) (th : FVec Ideal S1x512 .f32) : FVec Ideal S512x512 .f32 :=
  addf (matmul dot_S512x512_S512x512_S512x512_1_0_0_1_n_n none xb m (constant S512x512 .f32 0x00000000#32))
    (broadcastTo S512x512 th Facts₀.broadcasts_S1x512_S512x512)

/-- 1 − t², the kernel's way. -/
def kVar (t : FVec Ideal S512x512 .f32) : FVec Ideal S512x512 .f32 :=
  subf (broadcast S512x512 (Scalar.ofBits .f32 0x3F800000#32)) (mulf t t)

/-- d·m² + s, the kernel's way (s a [1,512] row). -/
def kPreVar (d m : FVec Ideal S512x512 .f32) (s : FVec Ideal S1x512 .f32) : FVec Ideal S512x512 .f32 :=
  addf (matmul dot_S512x512_S512x512_S512x512_1_0_0_1_n_n none d (mulf m m) (constant S512x512 .f32 0x00000000#32))
    (broadcastTo S512x512 s Facts₀.broadcasts_S1x512_S512x512)

/-- c·(x̄·m + θ), the kernel's way. -/
def kPreMean (xb m : FVec Ideal S512x512 .f32) (th : FVec Ideal S1x512 .f32) : FVec Ideal S512x512 .f32 :=
  mulf kC (kAffine xb m th)

/-- One hidden layer, the kernel's way. -/
def kAct (xb d m : FVec Ideal S512x512 .f32) (th s : FVec Ideal S1x512 .f32) : FVec Ideal S512x512 .f32 :=
  tanh (mulf (kPreMean xb m th) (rsqrt (kPreVar d m s)))

/-- The first layer, the kernel's way: the reciprocal root of the row s0 is taken before it is broadcast. -/
def kAct0 (x : FVec Ideal S512x784 .f32) (m0 : FVec Ideal S784x512 .f32) (th0 s0 : FVec Ideal S1x512 .f32) :
    FVec Ideal S512x512 .f32 :=
  tanh (mulf
    (mulf kC (addf (matmul dot_S512x784_S784x512_S512x512_1_0_0_1_n_n none x m0 (constant S512x512 .f32 0x00000000#32))
      (broadcastTo S512x512 th0 Facts₀.broadcasts_S1x512_S512x512)))
    (broadcastTo S512x512 (rsqrt s0) Facts₀.broadcasts_S1x512_S512x512))

/-- The zero array the kernel's matrix products accumulate into. -/
abbrev Z : FVec Ideal S512x512 .f32 := constant S512x512 .f32 0x00000000#32

/-! ## The kernel body's values are compositions of these stages -/

section Body
variable (x : FVec Ideal S512x784 .f32) (m0 : FVec Ideal S784x512 .f32) (m1 m2 m3 : FVec Ideal S512x512 .f32)
  (ml : FVec Ideal S512x1 .f32) (th0 th1 th2 th3 s0 s1 s2 s3 : FVec Ideal S1x512 .f32) (thl sl : FVec Ideal S1x1 .f32)

/-- The second activation. -/
theorem pay16_eq : k0_pay16 x m0 m1 th0 th1 s0 s1 Z
    = kAct (kAct0 x m0 th0 s0) (kVar (kAct0 x m0 th0 s0)) m1 th1 s1 := rfl

/-- Its variance. -/
theorem pay17_eq : k0_pay17 x m0 m1 th0 th1 s0 s1 Z = kVar (k0_pay16 x m0 m1 th0 th1 s0 s1 Z) := rfl

/-- The fourth layer's variance diagonal: it takes the SECOND activation's variance. -/
theorem pay18_eq : k0_pay18 x m0 m1 m3 th0 th1 s0 s1 s3 Z = kPreVar (k0_pay17 x m0 m1 th0 th1 s0 s1 Z) m3 s3 := rfl

/-- The fourth layer's scaled mean, over the third activation. -/
theorem pay19_eq : k0_pay19 x m0 m1 m2 m3 th0 th1 th2 th3 s0 s1 s2 Z
    = kPreMean (kAct (k0_pay16 x m0 m1 th0 th1 s0 s1 Z) (k0_pay17 x m0 m1 th0 th1 s0 s1 Z) m2 th2 s2) m3 th3 := rfl

/-- The fourth activation from its two halves. -/
theorem pay1_eq (v68 v73 : FVec Ideal S512x512 .f32) : k0_pay1 v68 v73 = tanh (mulf v73 (rsqrt v68)) := rfl

/-- Its variance (the covariance diagonal the second kernel spreads out). -/
theorem pay2_eq (v68 v73 : FVec Ideal S512x512 .f32) : k0_pay2 v68 v73 = kVar (k0_pay1 v68 v73) := rfl

end Body

/-! ## Each stage is the reference's -/

theorem kC_eq : kC = Cert.Spec.splat Cert.ReferenceIdeal.S512x512 rS512x512 0x3F4C422A#32 :=
  splat_eq rS512x512 _

theorem kVar_eq (t : FVec Ideal S512x512 .f32) : kVar t = Cert.Spec.var t := by
  unfold kVar Cert.Spec.var Cert.Spec.oneMinusSq Cert.Spec.splat
  rw [splat_eq rS512x512]

theorem kAffine_eq (xb m : FVec Ideal S512x512 .f32) (th : FVec Ideal S1x512 .f32) :
    kAffine xb m th = addf (Host.dotGeneral Cert.ReferenceIdeal.dot_S512x512_S512x512_S512x512_1_0_0_1_n_n none xb m)
      (Cert.Spec.rows th) := by
  unfold kAffine Cert.Spec.rows
  rw [matmul_zero_eq_dotGeneral, broadcastTo_eq_inDim _ _ rRows]
  rfl

theorem kPreMean_eq (xb m : FVec Ideal S512x512 .f32) (th : FVec Ideal S1x512 .f32) :
    kPreMean xb m th = Cert.Spec.preMean xb m th := by
  unfold kPreMean Cert.Spec.preMean
  rw [kC_eq, kAffine_eq]

theorem kPreVar_eq (d m : FVec Ideal S512x512 .f32) (c : FVec Ideal Cert.ReferenceIdeal.S512 .f32) :
    kPreVar d m (Cert.Spec.asRow c) = addf (Host.dotGeneral Cert.ReferenceIdeal.dot_S512x512_S512x512_S512x512_1_0_0_1_n_n none d (mulf m m))
      (Cert.Spec.rows (Cert.Spec.asRow c)) := by
  unfold kPreVar Cert.Spec.rows
  rw [matmul_zero_eq_dotGeneral, broadcastTo_eq_inDim _ _ rRows]
  rfl

/-- The variance a hidden layer divides by is positive: d ≥ 0, squares ≥ 0, column sums > 0. -/
theorem preVar_pos (d m : FVec Ideal S512x512 .f32) (hd : ∀ i, 0 ≤ d i)
    (hs : ∀ j, 0 < Cert.Spec.colVar (mulf m m) j) (i) : 0 < Cert.Spec.preVar d m i :=
  dot_add_pos _ none d (mulf m m) _ hd (fun k => mul_self_nonneg' (m k))
    (fun j => inDim_forall _ _ _ (fun v => 0 < v) (fun j' => inDim_forall _ _ _ (fun v => 0 < v) hs j') j) i

/-- A hidden layer: the kernel's is the reference's, given a non-negative incoming variance and positive column sums. -/
theorem kAct_eq (xb d m : FVec Ideal S512x512 .f32) (th : FVec Ideal S1x512 .f32) (hd : ∀ i, 0 ≤ d i)
    (hs : ∀ j, 0 < Cert.Spec.colVar (mulf m m) j) :
    kAct xb d m th (Cert.Spec.asRow (Cert.Spec.colVar (mulf m m))) = Cert.Spec.act xb d m th := by
  unfold kAct Cert.Spec.act
  rw [kPreMean_eq, kPreVar_eq, tanh_eq_host]
  exact congrArg Host.tanh (mulf_rsqrt_eq_divf_sqrt _ _ (preVar_pos d m hd hs))

/-- The first layer: the kernel's is the reference's, given positive column sums of 1 − m0². -/
theorem kAct0_eq (x : FVec Ideal S512x784 .f32) (m0 : FVec Ideal S784x512 .f32) (th0 : FVec Ideal S1x512 .f32)
    (hs : ∀ j, 0 < Cert.Spec.colVar0 m0 j) :
    kAct0 x m0 th0 (Cert.Spec.asRow (Cert.Spec.colVar0 m0)) = Cert.Spec.act0 x m0 th0 := by
  unfold kAct0 Cert.Spec.act0
  rw [kC_eq, matmul_zero_eq_dotGeneral, broadcastTo_eq_inDim _ _ rRows,
    broadcastTo_eq_inDim _ _ rRows, tanh_eq_host]
  exact congrArg Host.tanh (mulf_rsqrt_eq_divf_sqrt _ (Cert.Spec.rows (Cert.Spec.asRow (Cert.Spec.colVar0 m0)))
    (fun j => inDim_forall _ _ _ (fun v => 0 < v) (fun j' => inDim_forall _ _ _ (fun v => 0 < v) hs j') j))

/-- The variance of an activation is never negative (tanh lies in [−1, 1]). -/
theorem var_tanh_nonneg (z : FVec Ideal S512x512 .f32) (i) : 0 ≤ Cert.Spec.var (Host.tanh z) i := by
  show (0 : EReal) ≤ Ideal.ofBits .f32 0x3F800000#32 - Ideal.tanh (z i) * Ideal.tanh (z i)
  rw [Cert.LibMeanWeight.ofBits_one]
  exact one_sub_tanh_sq_nonneg (z i)

end Cert.Stages

end
-- ==== Proof.Chain.lean ====
/-
  The kernel body computes the reference network.

  With the five weight matrices real, every mean weight m = 2·σ(w) − 1 lies strictly inside (−1, 1), so every column
  sum of 1 − m² is positive; every activation is a tanh, so every variance 1 − x̄² is non-negative; hence every variance
  a layer divides by is positive and the kernel's  · rsqrt  is the reference's  / √  at each of the five places.
  Stage by stage the kernel body's values are the reference network's x̄₂, its variance, the fourth layer's two halves,
  x̄₄, its variance, the head's mean and the head's standardized mean.
-/
import proofs.«173796_j40003325394948_2_alg».proof.Proof.Stages

noncomputable section

namespace Cert.Chain

open Idealize.ShloMosaic Cert.KernelIdeal Cert.KernelIdeal.Gen
open Cert.Stages Cert.LibRsqrtVsSqrt Cert.LibBroadcastForms Cert.LibMeanWeight

/-! ## Positivity -/

/-- The mean weight at an entry where w is the real r. -/
theorem meanW_entry (S : Shape) (h : Cert.ReferenceIdeal.S_.BroadcastsInDim S (![] : Fin 0 → Fin S.rank))
    (w : FVec Ideal S .f32) (i : S.Idx) (r : ℝ) (hr : w i = (r : EReal)) :
    Cert.Spec.meanW S h w i = ((mu r : ℝ) : EReal) := by
  show Ideal.ofBits .f32 0x40000000#32
        * Ideal.div (Ideal.ofBits .f32 0x3F800000#32) (Ideal.ofBits .f32 0x3F800000#32 + Ideal.exp (-(w i)))
      - Ideal.ofBits .f32 0x3F800000#32 = _
  rw [hr]; exact meanWeight_coe r

/-- 1 − m² is positive at every entry of a mean-weight matrix of real weights. -/
theorem oneMinusSq_meanW_pos (S : Shape) (h : Cert.ReferenceIdeal.S_.BroadcastsInDim S (![] : Fin 0 → Fin S.rank))
    (w : FVec Ideal S .f32) (hw : ∀ i, ∃ r : ℝ, w i = (r : EReal)) (i : S.Idx) :
    0 < subf (Cert.Spec.splat S h 0x3F800000#32) (mulf (Cert.Spec.meanW S h w) (Cert.Spec.meanW S h w)) i := by
  obtain ⟨r, hr⟩ := hw i
  show (0 : EReal) < Ideal.ofBits .f32 0x3F800000#32 - Cert.Spec.meanW S h w i * Cert.Spec.meanW S h w i
  rw [meanW_entry S h w i r hr]; exact one_sub_sq_pos r

/-- The first layer's column sums are positive. -/
theorem colVar0_pos (w0 : FVec Ideal S784x512 .f32) (hw : ∀ i, ∃ r : ℝ, w0 i = (r : EReal)) (j) :
    0 < Cert.Spec.colVar0 (Cert.Spec.m0 w0) j := by
  show 0 < Ideal.hostReduceAdd Cert.ReferenceIdeal.Facts₀.reducesTo_S784x512_S512_d0 _ (Ideal.ofBits .f32 0x00000000#32) j
  rw [Ideal.ofBits_zero_f32]
  exact hostReduceAdd_pos _ (by decide) _ (oneMinusSq_meanW_pos _ _ w0 hw) (by decide) j

/-- A hidden layer's column sums are positive. -/
theorem colVar_pos (w : FVec Ideal S512x512 .f32) (hw : ∀ i, ∃ r : ℝ, w i = (r : EReal)) (j) :
    0 < Cert.Spec.colVar (mulf (Cert.Spec.mk w) (Cert.Spec.mk w)) j := by
  show 0 < Ideal.hostReduceAdd Cert.ReferenceIdeal.Facts₀.reducesTo_S512x512_S512_d0 _ (Ideal.ofBits .f32 0x00000000#32) j
  rw [Ideal.ofBits_zero_f32]
  exact hostReduceAdd_pos _ (by decide) _ (oneMinusSq_meanW_pos _ _ w hw) (by decide) j

/-- The head's variance is positive. -/
theorem headVar_pos (d : FVec Ideal S512x512 .f32) (hd : ∀ i, 0 ≤ d i) (wl : FVec Ideal S512x1 .f32)
    (hw : ∀ i, ∃ r : ℝ, wl i = (r : EReal)) (i) : 0 < Cert.Spec.headVar d (Cert.Spec.ml wl) i := by
  refine dot_add_pos _ none d (mulf (Cert.Spec.ml wl) (Cert.Spec.ml wl)) _ hd (fun k => mul_self_nonneg' _) (fun j => ?_) i
  refine inDim_forall _ _ _ (fun v => 0 < v) (fun j' => inDim_forall _ _ _ (fun v => 0 < v) (fun j'' => ?_) j') j
  show 0 < Ideal.hostReduceAdd Cert.ReferenceIdeal.Facts₀.reducesTo_S512x1_S1_d0 _ (Ideal.ofBits .f32 0x00000000#32) j''
  rw [Ideal.ofBits_zero_f32]
  exact hostReduceAdd_pos _ (by decide) _ (oneMinusSq_meanW_pos _ _ wl hw) (by decide) j''

theorem var_act0_nonneg (x : FVec Ideal S512x784 .f32) (m : FVec Ideal S784x512 .f32) (th : FVec Ideal S1x512 .f32) (i) :
    0 ≤ Cert.Spec.var (Cert.Spec.act0 x m th) i := var_tanh_nonneg _ i

theorem var_act_nonneg (xb d m : FVec Ideal S512x512 .f32) (th : FVec Ideal S1x512 .f32) (i) :
    0 ≤ Cert.Spec.var (Cert.Spec.act xb d m th) i := var_tanh_nonneg _ i

/-! ## The chain -/

section Net
variable (x : FVec Ideal S512x784 .f32) (w0 : FVec Ideal S784x512 .f32) (w1 w2 w3 : FVec Ideal S512x512 .f32)
  (wl : FVec Ideal S512x1 .f32) (th0 th1 th2 th3 : FVec Ideal S1x512 .f32) (thl : FVec Ideal S1x1 .f32)

/-- The [1,512] row of column sums the kernel is handed for the first layer. -/
abbrev s0 : FVec Ideal S1x512 .f32 := Cert.Spec.asRow (Cert.Spec.colVar0 (Cert.Spec.m0 w0))
/-- … and for a hidden layer of weights w. -/
abbrev sk (w : FVec Ideal S512x512 .f32) : FVec Ideal S1x512 .f32 :=
  Cert.Spec.asRow (Cert.Spec.colVar (mulf (Cert.Spec.mk w) (Cert.Spec.mk w)))

variable (h0 : ∀ i, ∃ r : ℝ, w0 i = (r : EReal)) (h1 : ∀ i, ∃ r : ℝ, w1 i = (r : EReal))
  (h2 : ∀ i, ∃ r : ℝ, w2 i = (r : EReal)) (h3 : ∀ i, ∃ r : ℝ, w3 i = (r : EReal))

include h0 h1 in
/-- The second activation. -/
theorem c16 : k0_pay16 x (Cert.Spec.m0 w0) (Cert.Spec.mk w1) th0 th1 (s0 w0) (sk w1) Z = Cert.Spec.x2 x w0 w1 th0 th1 := by
  rw [pay16_eq, kAct0_eq x _ th0 (colVar0_pos w0 h0), kVar_eq,
    kAct_eq _ _ _ th1 (var_act0_nonneg _ _ _) (colVar_pos w1 h1)]
  rfl

include h0 h1 in
/-- Its variance. -/
theorem c17 : k0_pay17 x (Cert.Spec.m0 w0) (Cert.Spec.mk w1) th0 th1 (s0 w0) (sk w1) Z
    = Cert.Spec.var (Cert.Spec.x2 x w0 w1 th0 th1) := by
  rw [pay17_eq, c16 x w0 w1 th0 th1 h0 h1, kVar_eq]

include h0 h1 in
/-- The fourth layer's variance diagonal, over the second activation's variance. -/
theorem c18 : k0_pay18 x (Cert.Spec.m0 w0) (Cert.Spec.mk w1) (Cert.Spec.mk w3) th0 th1 (s0 w0) (sk w1) (sk w3) Z
    = Cert.Spec.preVar (Cert.Spec.var (Cert.Spec.x2 x w0 w1 th0 th1)) (Cert.Spec.mk w3) := by
  rw [pay18_eq, c17 x w0 w1 th0 th1 h0 h1, kPreVar_eq]
  rfl

include h0 h1 h2 in
/-- The fourth layer's scaled mean, over the third activation. -/
theorem c19 : k0_pay19 x (Cert.Spec.m0 w0) (Cert.Spec.mk w1) (Cert.Spec.mk w2) (Cert.Spec.mk w3) th0 th1 th2 th3
      (s0 w0) (sk w1) (sk w2) Z
    = Cert.Spec.preMean (Cert.Spec.x3 x w0 w1 w2 th0 th1 th2) (Cert.Spec.mk w3) th3 := by
  rw [pay19_eq, c16 x w0 w1 th0 th1 h0 h1, c17 x w0 w1 th0 th1 h0 h1,
    kAct_eq (Cert.Spec.x2 x w0 w1 th0 th1) (Cert.Spec.var (Cert.Spec.x2 x w0 w1 th0 th1)) (Cert.Spec.mk w2) th2
      (fun i => var_act_nonneg _ _ _ _ i) (colVar_pos w2 h2), kPreMean_eq]
  rfl

include h3 in
/-- The fourth activation from its two halves: the one place a · rsqrt meets a / √ outside a stage. -/
theorem c1 (xb d : FVec Ideal S512x512 .f32) (hd : ∀ i, 0 ≤ d i) :
    k0_pay1 (Cert.Spec.preVar d (Cert.Spec.mk w3)) (Cert.Spec.preMean xb (Cert.Spec.mk w3) th3)
      = Cert.Spec.act xb d (Cert.Spec.mk w3) th3 := by
  rw [pay1_eq, tanh_eq_host]
  exact congrArg Host.tanh (mulf_rsqrt_eq_divf_sqrt _ _ (preVar_pos d _ hd (colVar_pos w3 h3)))

include h0 h1 h2 h3 in
/-- The fourth activation, from the kernel's two halves. -/
theorem c4act : k0_pay1
      (k0_pay18 x (Cert.Spec.m0 w0) (Cert.Spec.mk w1) (Cert.Spec.mk w3) th0 th1 (s0 w0) (sk w1) (sk w3) Z)
      (k0_pay19 x (Cert.Spec.m0 w0) (Cert.Spec.mk w1) (Cert.Spec.mk w2) (Cert.Spec.mk w3) th0 th1 th2 th3
        (s0 w0) (sk w1) (sk w2) Z)
    = Cert.Spec.x4 x w0 w1 w2 w3 th0 th1 th2 th3 := by
  rw [c18 x w0 w1 w3 th0 th1 h0 h1, c19 x w0 w1 w2 w3 th0 th1 th2 th3 h0 h1 h2,
    c1 w3 th3 h3 (Cert.Spec.x3 x w0 w1 w2 th0 th1 th2) (Cert.Spec.var (Cert.Spec.x2 x w0 w1 th0 th1))
      (fun i => var_act_nonneg _ _ _ _ i)]
  rfl

include h0 h1 h2 h3 in
/-- Its variance: the diagonal the second kernel spreads into the covariance output. -/
theorem cd4 : k0_pay2
      (k0_pay18 x (Cert.Spec.m0 w0) (Cert.Spec.mk w1) (Cert.Spec.mk w3) th0 th1 (s0 w0) (sk w1) (sk w3) Z)
      (k0_pay19 x (Cert.Spec.m0 w0) (Cert.Spec.mk w1) (Cert.Spec.mk w2) (Cert.Spec.mk w3) th0 th1 th2 th3
        (s0 w0) (sk w1) (sk w2) Z)
    = Cert.Spec.d4 x w0 w1 w2 w3 th0 th1 th2 th3 := by
  rw [pay2_eq, c4act x w0 w1 w2 w3 th0 th1 th2 th3 h0 h1 h2 h3, kVar_eq]
  rfl

/-! ## The head -/

/-- The reference's shape facts for the head under short names. -/
theorem rS512x1 : Cert.ReferenceIdeal.S_.BroadcastsInDim Cert.ReferenceIdeal.S512x1 (![] : Fin 0 → Fin Cert.ReferenceIdeal.S512x1.rank) :=
  Cert.ReferenceIdeal.Facts₀.bcast_S_S512x1
theorem rCol : Cert.ReferenceIdeal.S1x1.BroadcastsInDim Cert.ReferenceIdeal.S512x1 (![0, 1] : Fin 2 → Fin Cert.ReferenceIdeal.S512x1.rank) :=
  Cert.ReferenceIdeal.Facts₀.bcast_S1x1_S512x1_0_1

/-- The head's mean is spelled, in the kernel, as a product into zero plus a [1,1] value broadcast by trailing axes. -/
theorem pay3_eq (v10 : FVec Ideal S512x1 .f32) (v15 : FVec Ideal S1x1 .f32) (v68 v73 : FVec Ideal S512x512 .f32) :
    k0_pay3 v10 v15 v68 v73
      = addf (matmul dot_S512x512_S512x1_S512x1_1_0_0_1_n_n none (k0_pay1 v68 v73) v10 (constant S512x1 .f32 0x00000000#32))
          (broadcastTo S512x1 v15 Facts₀.broadcasts_S1x1_S512x1) := rfl

/-- The head's mean is the reference's. -/
theorem headMean_eq (xb : FVec Ideal S512x512 .f32) (v10 : FVec Ideal S512x1 .f32) (v15 : FVec Ideal S1x1 .f32) :
    addf (matmul dot_S512x512_S512x1_S512x1_1_0_0_1_n_n none xb v10 (constant S512x1 .f32 0x00000000#32))
        (broadcastTo S512x1 v15 Facts₀.broadcasts_S1x1_S512x1)
      = Cert.Spec.headMean xb v10 v15 := by
  unfold Cert.Spec.headMean Cert.Spec.col1
  rw [matmul_zero_eq_dotGeneral, broadcastTo_eq_inDim _ _ rCol]
  rfl

/-- The head's standardized mean, the kernel's way. -/
theorem pay4_eq (v10 : FVec Ideal S512x1 .f32) (v15 v25 : FVec Ideal S1x1 .f32) (v68 v73 : FVec Ideal S512x512 .f32) :
    k0_pay4 v10 v15 v25 v68 v73
      = mulf (mulf (broadcast S512x1 (Scalar.ofBits .f32 0x3F4C422A#32)) (k0_pay3 v10 v15 v68 v73))
          (rsqrt (addf (matmul dot_S512x512_S512x1_S512x1_1_0_0_1_n_n none (k0_pay2 v68 v73) (mulf v10 v10)
              (constant S512x1 .f32 0x00000000#32))
            (broadcastTo S512x1 v25 Facts₀.broadcasts_S1x1_S512x1))) := rfl

/-- The head's variance, the kernel's way, is the reference's (the [1,1] sum is the same host term on both sides). -/
theorem headVar_eq (d : FVec Ideal S512x512 .f32) (mlw : FVec Ideal S512x1 .f32) :
    addf (matmul dot_S512x512_S512x1_S512x1_1_0_0_1_n_n none d (mulf mlw mlw) (constant S512x1 .f32 0x00000000#32))
        (broadcastTo S512x1
          (broadcastInDim Cert.ReferenceIdeal.S1x1 ![1] Cert.ReferenceIdeal.Facts₀.bcast_S1_S1x1_1
            (Host.reduceAdd (subf (Cert.Spec.splat Cert.ReferenceIdeal.S512x1 rS512x1 0x3F800000#32) (mulf mlw mlw))
              (constant Cert.ReferenceIdeal.S_ .f32 0x00000000#32)
              Cert.ReferenceIdeal.Facts₀.reducesTo_S512x1_S1_d0 Cert.ReferenceIdeal.Facts₀.h_S_))
          Facts₀.broadcasts_S1x1_S512x1)
      = Cert.Spec.headVar d mlw := by
  unfold Cert.Spec.headVar Cert.Spec.col1
  rw [matmul_zero_eq_dotGeneral, broadcastTo_eq_inDim _ _ rCol]
  rfl

/-- The [1,1] sum of 1 − mℓ² the kernel is handed for the head. -/
abbrev sl (wl : FVec Ideal S512x1 .f32) : FVec Ideal S1x1 .f32 :=
  broadcastInDim Cert.ReferenceIdeal.S1x1 ![1] Cert.ReferenceIdeal.Facts₀.bcast_S1_S1x1_1
    (Host.reduceAdd (subf (Cert.Spec.splat Cert.ReferenceIdeal.S512x1 rS512x1 0x3F800000#32)
        (mulf (Cert.Spec.ml wl) (Cert.Spec.ml wl)))
      (constant Cert.ReferenceIdeal.S_ .f32 0x00000000#32)
      Cert.ReferenceIdeal.Facts₀.reducesTo_S512x1_S1_d0 Cert.ReferenceIdeal.Facts₀.h_S_)

variable (hl : ∀ i, ∃ r : ℝ, wl i = (r : EReal))

/-- The kernel's two halves of the fourth layer, as functions of the arguments. -/
abbrev P18 : FVec Ideal S512x512 .f32 :=
  k0_pay18 x (Cert.Spec.m0 w0) (Cert.Spec.mk w1) (Cert.Spec.mk w3) th0 th1 (s0 w0) (sk w1) (sk w3) Z
abbrev P19 : FVec Ideal S512x512 .f32 :=
  k0_pay19 x (Cert.Spec.m0 w0) (Cert.Spec.mk w1) (Cert.Spec.mk w2) (Cert.Spec.mk w3) th0 th1 th2 th3 (s0 w0) (sk w1) (sk w2) Z

include h0 h1 h2 h3 in
/-- The first result: the head's mean. -/
theorem chbar : k0_pay3 (Cert.Spec.ml wl) thl (P18 x w0 w1 w3 th0 th1) (P19 x w0 w1 w2 w3 th0 th1 th2 th3)
    = Cert.Spec.hbar x w0 w1 w2 w3 wl th0 th1 th2 th3 thl := by
  rw [pay3_eq, c4act x w0 w1 w2 w3 th0 th1 th2 th3 h0 h1 h2 h3, headMean_eq]
  rfl

include h0 h1 h2 h3 hl in
/-- The head's standardized mean (what the log-sigmoid, the loss and the accuracy are taken of). -/
theorem chstd : k0_pay4 (Cert.Spec.ml wl) thl (sl wl) (P18 x w0 w1 w3 th0 th1) (P19 x w0 w1 w2 w3 th0 th1 th2 th3)
    = Cert.Spec.hstd x w0 w1 w2 w3 wl th0 th1 th2 th3 thl := by
  rw [pay4_eq, chbar x w0 w1 w2 w3 wl th0 th1 th2 th3 thl h0 h1 h2 h3, cd4 x w0 w1 w2 w3 th0 th1 th2 th3 h0 h1 h2 h3,
    headVar_eq, splat_eq rS512x1]
  exact mulf_rsqrt_eq_divf_sqrt _ _
    (headVar_pos _ (fun i => var_act_nonneg _ _ _ _ i) wl hl)

end Net

end Cert.Chain

end
-- ==== Proof.LogSigmoid.lean ====
/-
  The log-sigmoid, in the kernel's spelling and in the reference's, agree at every extended real.

  Kernel:     log σ(a) = min(a, 0) − log1p(exp(if 0 ≤ a then 0 − a else a)).
  Reference:  log σ(a) = −softplus(−a), with softplus(b) = max(b, 0) + log1p(exp(−|b − 0|)), guarded by the
              comparison b − 0 ≠ b − 0, which is false on the extended reals.
  At −∞ both are −∞; at +∞ both are 0; at a real r both are min(r, 0) − log(1 + exp(−|r|)), since
  −max(−r, 0) = min(r, 0) and the kernel's exponent (−r for r ≥ 0, r otherwise) is −|r|.
-/
import proofs.«173796_j40003325394948_2_alg».proof.Proof.Spec
import proofs.«173796_j40003325394948_2_alg».proof.Proof.Gen.KernelIdeal.Skeleton
import Idealize.ShloMosaic.PureOps.Ideal.Laws
import Idealize.ShloMosaic.Lib.ValueIdx

noncomputable section

namespace Cert.LogSigmoid

open Idealize.ShloMosaic Cert.KernelIdeal Cert.KernelIdeal.Gen

/-- The kernel's log-sigmoid of a column: min(H, 0) − log1p(exp(−|H|)), the exponent chosen by a select on 0 ≤ H. -/
def kLogp (H : FVec Ideal S512x1 .f32) : FVec Ideal S512x1 .f32 :=
  subf (minimumf H (broadcast S512x1 (Scalar.ofBits .f32 0x00000000#32)))
    (log1p (exp (select (cmpf .oge H (broadcast S512x1 (Scalar.ofBits .f32 0x00000000#32)))
      (subf (broadcast S512x1 (Scalar.ofBits .f32 0x00000000#32)) H) H)))

/-- The kernel's stored value is `kLogp` of the head's standardized mean, by unfolding. -/
theorem pay5_eq (v10 : FVec Ideal S512x1 .f32) (v15 : Vec Ideal S1x1 .f32) (v25 : FVec Ideal S1x1 .f32)
    (v68 v73 : FVec Ideal S512x512 .f32) : k0_pay5 v10 v15 v25 v68 v73 = kLogp (k0_pay4 v10 v15 v25 v68 v73) := rfl

/-- The kernel's spelling at one entry `a`, with `z` the value of the zero word. -/
def kPt (z a : EReal) : EReal :=
  min a z - Ideal.log1p (Ideal.exp (Scalar.select (Ideal.cmp .oge a z) (z - a) a))

/-- The reference's spelling at one entry `a`, with `z` the value of the zero word. -/
def rPt (z a : EReal) : EReal :=
  -(Scalar.select (Ideal.cmp .une (-a - z) (-a - z)) (-a + z)
      (max (-a) z + Ideal.log1p (Ideal.exp (-(max (-a - z) (-(-a - z)))))))

/-- `kLogp` read at an index. -/
theorem kLogp_apply (H : FVec Ideal S512x1 .f32) (i : S512x1.Idx) :
    kLogp H i = kPt (Ideal.ofBits .f32 0x00000000#32) (H i) := rfl

/-- The reference's log-sigmoid read at an index. -/
theorem logSigmoid_apply [Cert.ReferenceIdeal.Facts] (H : FVec Ideal S512x1 .f32) (i : S512x1.Idx) :
    Cert.Spec.logSigmoid H i = rPt (Ideal.ofBits .f32 0x00000000#32) (H i) := rfl

/-- log1p(exp(−∞)) = log 1 = 0. -/
theorem log1p_exp_bot : Ideal.log1p (Ideal.exp ⊥) = 0 := by
  show Ideal.log (1 + 0) = 0
  rw [add_zero, ← EReal.coe_one]
  show (if (1 : ℝ) ≤ 0 then ⊥ else ((Real.log 1 : ℝ) : EReal)) = 0
  rw [if_neg (by norm_num), Real.log_one, EReal.coe_zero]

/-- At a real t, log1p(exp t) is the real log(1 + exp t): the argument 1 + exp t is positive. -/
theorem log1p_exp_coe (t : ℝ) : Ideal.log1p (Ideal.exp (t : EReal)) = ((Real.log (1 + Real.exp t) : ℝ) : EReal) := by
  show Ideal.log (1 + ((Real.exp t : ℝ) : EReal)) = _
  rw [← EReal.coe_one, ← EReal.coe_add]
  show (if 1 + Real.exp t ≤ 0 then ⊥ else ((Real.log (1 + Real.exp t) : ℝ) : EReal)) = _
  rw [if_neg (not_le.2 (by positivity))]

/-- No extended real differs from itself. -/
theorem cmp_une_self (x : EReal) : Ideal.cmp .une x x = 0#1 := by simp [Ideal.cmp]

/-- log1p 0 = 0. -/
theorem log1p_zero : Ideal.log1p 0 = 0 := log1p_exp_bot

/-- The two spellings agree at every extended real, by cases −∞, +∞, a real r ≥ 0, a real r < 0. -/
theorem pt_eq (a : EReal) : kPt 0 a = rPt 0 a := by
  unfold kPt rPt
  rw [cmp_une_self, ValueIdx.select_zero]
  induction a using EReal.rec with
  | bot =>
    have h1 : Ideal.cmp .oge (⊥ : EReal) 0 = 0#1 := by simp [Ideal.cmp]
    rw [h1, ValueIdx.select_zero, log1p_exp_bot]
    simp [log1p_zero]
  | top =>
    have h1 : Ideal.cmp .oge (⊤ : EReal) 0 = 1#1 := by simp [Ideal.cmp]
    rw [h1, ValueIdx.select_one]
    simp [log1p_zero]
  | coe r =>
    by_cases hr : 0 ≤ r
    · have h1 : Ideal.cmp .oge (r : EReal) 0 = 1#1 := by simp [Ideal.cmp, hr]
      have e1 : min (r : EReal) 0 = 0 := min_eq_right (by exact_mod_cast hr)
      have e2 : max (-(r : EReal)) 0 = 0 :=
        max_eq_right (by rw [← EReal.coe_neg]; exact_mod_cast (by linarith : -r ≤ 0))
      have e3 : max (-(r : EReal) - 0) (-(-(r : EReal) - 0)) = r := by
        rw [sub_zero, neg_neg]
        exact max_eq_right (by rw [← EReal.coe_neg]; exact_mod_cast (by linarith : -r ≤ r))
      have e4 : (0 : EReal) - r = ((-r : ℝ) : EReal) := by rw [sub_eq_add_neg, zero_add, EReal.coe_neg]
      rw [h1, ValueIdx.select_one, e1, e2, e3, e4, ← EReal.coe_neg, log1p_exp_coe, zero_add, sub_eq_add_neg, zero_add]
    · have h1 : Ideal.cmp .oge (r : EReal) 0 = 0#1 := by simp [Ideal.cmp, hr]
      have hr' : r < 0 := not_le.1 hr
      have e1 : min (r : EReal) 0 = r := min_eq_left (by exact_mod_cast hr'.le)
      have e2 : max (-(r : EReal)) 0 = ((-r : ℝ) : EReal) := by
        rw [← EReal.coe_neg]; exact max_eq_left (by exact_mod_cast (by linarith : (0 : ℝ) ≤ -r))
      have e3 : max (-(r : EReal) - 0) (-(-(r : EReal) - 0)) = ((-r : ℝ) : EReal) := by
        rw [sub_zero, neg_neg, ← EReal.coe_neg]
        exact max_eq_left (by exact_mod_cast (by linarith : r ≤ -r))
      rw [h1, ValueIdx.select_zero, e1, e2, e3, ← EReal.coe_neg, neg_neg, log1p_exp_coe, ← EReal.coe_add,
        ← EReal.coe_neg, ← EReal.coe_sub]
      congr 1; ring

/-- The kernel's log-sigmoid is the reference's, at every extended real. -/
theorem kLogp_eq [Cert.ReferenceIdeal.Facts] (H : FVec Ideal S512x1 .f32) : kLogp H = Cert.Spec.logSigmoid H := by
  funext i
  rw [kLogp_apply, logSigmoid_apply, Ideal.ofBits_zero_f32, pt_eq]

end Cert.LogSigmoid
-- ==== Proof.FiniteWeights.lean ====
/-
  Finiteness of the weight arrays, read out of the precondition.

  The precondition is a conjunction, over the thirteen float arguments, of "every entry of |x| is below +infinity":
  for each argument an `and`-reduction over all axes of the elementwise comparison |x| < +infinity, started from 1,
  and the thirteen results joined by `and`. The whole being 1 makes each conjunct 1; a conjunct being 1 makes the
  comparison 1 at every entry; and an extended real whose absolute value max x (-x) is below the top element is neither
  the top nor the bottom element, so it is a real number.
-/
import proofs.«173796_j40003325394948_2_alg».proof.Pre_finite_inputs
import proofs.«173796_j40003325394948_2_alg».proof.Proof.Gen.Pre_finite_inputs
import Idealize.ShloMosaic.PureOps.Ideal
import Idealize.ShloMosaic.Lib.ReduceAll
import Idealize.ShloMosaic.Lib.ValueIdx

namespace Cert.FiniteWeights

open Idealize.ShloMosaic Idealize.ShloMosaic.ValueIdx

/-- The scalar shape has one index. -/
instance : Subsingleton (⟨0, ![]⟩ : Shape).Idx := ⟨fun a b => funext fun d => d.elim0⟩

/-- An extended real whose absolute value `max x (-x)` is below the top element is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The pattern `0x7F800000` of the 32-bit format is the top element. -/
theorem ofBits_inf : Ideal.ofBits .f32 0x7F800000#32 = (⊤ : EReal) := by simp [Ideal.ofBits, Ideal.ieee]

/-- "Every entry of `|x|` is below +infinity", over any shape: if the `and`-reduction over all axes of the comparison of `|x|` with the
    splat of +infinity is 1 at the one index of its result, every entry of `x` is a real number. -/
theorem all_abs_lt_inf_real {s t u : Shape} {axes : List (Fin s.rank)} [Subsingleton t.Idx]
    (x : FVec Ideal s .f32) (hb : (⟨0, ![]⟩ : Shape).BroadcastsInDim s (![] : Fin 0 → Fin s.rank))
    (init : u.Idx → BitVec 1) (h : s.ReducesTo axes t) (hu : 0 < u.numel) (j : t.Idx)
    (e : Host.reduce IntOp.andi
          (cmpf .olt (Host.absf x) (broadcastInDim s ![] hb (constant (⟨0, ![]⟩ : Shape) .f32 0x7F800000#32)))
          init h hu j = 1#1)
    (i : s.Idx) : ∃ r : ℝ, x i = (r : EReal) := by
  have hc := Host.reduce_andi_all _ init h hu j e i
  have hc' : Ideal.cmp .olt (max (x i) (-(x i))) (Ideal.ofBits .f32 0x7F800000#32) = 1#1 := hc
  rw [ofBits_inf] at hc'
  refine real_of_abs_lt_top (x i) ?_
  by_contra hn
  simp [Ideal.cmp, hn] at hc'

/-- The elementwise `and` of two word arrays, read at an index. -/
theorem andi_at {s : Shape} {w : Nat} (x y : IVec s w) (i : s.Idx) : andi x y i = IntOp.andi (x i) (y i) := rfl

open Cert.Pre_finite_inputs in
/-- The five weight arrays have real entries under the precondition. -/
theorem weights_real (a0 : FVec Ideal S512x784 .f32) (a1 : FVec Ideal S784x512 .f32)
    (a2 a3 a4 a5 : FVec Ideal S512x512 .f32) (a6 : FVec Ideal S512x1 .f32)
    (a7 a8 a9 a10 a11 : FVec Ideal S1x512 .f32) (a12 : FVec Ideal S1x1 .f32) (a13 : IVec S512 32)
    (h : Cert.Pre_finite_inputs.fn (F := Ideal) a0 a1 a2 a3 a4 a5 a6 a7 a8 a9 a10 a11 a12 a13 = fun _ => 1#1) :
    (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a6 i = (r : EReal)) := by
  have h0 := congrFun h ix0
  dsimp only [Cert.Pre_finite_inputs.fn, Cert.Pre_finite_inputs.fn_part1, Cert.Pre_finite_inputs.fn_part2,
    Cert.Pre_finite_inputs.fn_part3] at h0
  simp only [andi_at, IntOp.andi_eq_one] at h0
  obtain ⟨⟨⟨⟨⟨⟨⟨⟨⟨⟨⟨⟨_, e1⟩, e2⟩, e3⟩, e4⟩, _⟩, e6⟩, _⟩, _⟩, _⟩, _⟩, _⟩, _⟩ := h0
  exact ⟨all_abs_lt_inf_real a1 _ _ _ _ _ e1, all_abs_lt_inf_real a2 _ _ _ _ _ e2,
    all_abs_lt_inf_real a3 _ _ _ _ _ e3, all_abs_lt_inf_real a4 _ _ _ _ _ e4, all_abs_lt_inf_real a6 _ _ _ _ _ e6⟩

end Cert.FiniteWeights
-- ==== Proof.Names.lean ====
import proofs.«173796_j40003325394948_2_alg».proof.Proof.Spec
import proofs.«173796_j40003325394948_2_alg».proof.Proof.KerDefs
import proofs.«173796_j40003325394948_2_alg».proof.Proof.KerRegion1
import proofs.«173796_j40003325394948_2_alg».proof.Proof.Gen.ReferenceIdeal
import proofs.«173796_j40003325394948_2_alg».proof.Proof.Gen.KernelIdeal

/-! # The kernel program's host functions are the reference's named stages

The two programs state their shapes and shape facts as separate constants with equal definitions, so a function of the
kernel program's host operations and the reference stage of the same operations in the same order are the same term
up to unfolding: each equation below is by unfolding. The last one reads the second region's result array as the
reference's diagonal embedding, given that the region's second operand is the identity matrix. -/

set_option maxRecDepth 16384

noncomputable section

namespace Cert.Names

open Idealize.ShloMosaic Idealize.ShloMosaic.TcCoe Idealize.SL.Sem
open Cert.KernelIdeal.KerRun (mOf colSumOf lossOf fracOf)

variable {F : FTy → Type} [FloatOps F]

/-! ## The mean weights -/

theorem mOf_784 (w : FVec F Cert.KernelIdeal.S784x512 .f32) :
    mOf Cert.KernelIdeal.Facts₀.bcast_S_S784x512 w = Cert.Spec.m0 w := rfl

theorem mOf_512 (w : FVec F Cert.KernelIdeal.S512x512 .f32) :
    mOf Cert.KernelIdeal.Facts₀.bcast_S_S512x512 w = Cert.Spec.mk w := rfl

theorem mOf_col (w : FVec F Cert.KernelIdeal.S512x1 .f32) :
    mOf Cert.KernelIdeal.Facts₀.bcast_S_S512x1 w = Cert.Spec.ml w := rfl

/-! ## The column sums of one minus the square -/

theorem colSum_784 (M : FVec F Cert.KernelIdeal.S784x512 .f32) :
    colSumOf 784 512 Cert.KernelIdeal.Facts₀.bcast_S_S784x512 Cert.KernelIdeal.Facts₀.reducesTo_S784x512_S512_d0
        Cert.KernelIdeal.Facts₀.bcast_S512_S1x512_1 M
      = Cert.Spec.asRow (Cert.Spec.colVar0 M) := rfl

theorem colSum_512 (M : FVec F Cert.KernelIdeal.S512x512 .f32) :
    colSumOf 512 512 Cert.KernelIdeal.Facts₀.bcast_S_S512x512 Cert.KernelIdeal.Facts₀.reducesTo_S512x512_S512_d0
        Cert.KernelIdeal.Facts₀.bcast_S512_S1x512_1 M
      = Cert.Spec.asRow (Cert.Spec.colVar (mulf M M)) := rfl

theorem colSum_col (M : FVec F Cert.KernelIdeal.S512x1 .f32) :
    colSumOf 512 1 Cert.KernelIdeal.Facts₀.bcast_S_S512x1 Cert.KernelIdeal.Facts₀.reducesTo_S512x1_S1_d0
        Cert.KernelIdeal.Facts₀.bcast_S1_S1x1_1 M
      = broadcastInDim Cert.ReferenceIdeal.S1x1 ![1] Cert.ReferenceIdeal.Facts₀.bcast_S1_S1x1_1
          (Host.reduceAdd
            (subf (Cert.Spec.splat Cert.ReferenceIdeal.S512x1 Cert.ReferenceIdeal.Facts₀.bcast_S_S512x1 0x3F800000#32) (mulf M M))
            (constant Cert.ReferenceIdeal.S_ .f32 0x00000000#32) Cert.ReferenceIdeal.Facts₀.reducesTo_S512x1_S1_d0
            Cert.ReferenceIdeal.Facts₀.h_S_) := rfl

/-! ## The loss and the fraction classified right -/

theorem loss_eq (t : IVec Cert.KernelIdeal.S512 32) (lp h : FVec F Cert.KernelIdeal.S512x1 .f32) :
    lossOf t lp h = Cert.Spec.loss t lp h := rfl

theorem frac_eq (t : IVec Cert.KernelIdeal.S512 32) (h : FVec F Cert.KernelIdeal.S512x1 .f32) :
    fracOf t h = Cert.Spec.fracCorrect t h := rfl

/-! ## The identity matrix and the diagonal embedding -/

theorem eye_eq :
    (uitofp (F := F) .f32 (cmpi .eq (addi (iotaInDim Cert.KernelIdeal.S512x512 32 0)
        (broadcastInDim Cert.KernelIdeal.S512x512 ![] Cert.KernelIdeal.Facts₀.bcast_S_S512x512 (constantI Cert.KernelIdeal.S_ 32 0#32)))
      (iotaInDim Cert.KernelIdeal.S512x512 32 1)) : FVec F Cert.KernelIdeal.S512x512 .f32) = Cert.Spec.eye := rfl

open Cert.KernelIdeal in
/-- The second region's result array is the reference's diagonal embedding of its first operand, when its second operand
    is the identity matrix. -/
theorem region1_spec (V : (c : Dev nD) → (b : Ref sig .tc) → Buf (Elt F) ((c : Thread nD τ).loc b)) (c : Dev nD)
    (he : V c main_v81 = Cert.Spec.eye (F := F)) :
    (Cert.KernelIdeal.Gen.dat1 V c).arrAt 2 Cert.KernelIdeal.cfg1.N = Cert.Spec.diagEmbed (V c main_v75_3) := by
  refine (Cert.KernelIdeal.KerRegion1.arr1_2_host V c Cert.ReferenceIdeal.Facts₀.bcast_S512x512_S1x512x512_1_2
    Cert.ReferenceIdeal.Facts₀.bcast_S512x512_S512x1x512_0_2 Cert.ReferenceIdeal.Facts₀.bcast_S1x512x512_S512x512x512_0_1_2
    Cert.ReferenceIdeal.Facts₀.bcast_S512x1x512_S512x512x512_0_1_2).trans ?_
  rw [he]
  rfl

end Cert.Names

end
-- ==== Proof.Bridge.lean ====
/-
  The kernel program ends at the reference network's values.

  The kernel program's run leaves, in its five result buffers, the body's values of the argument arrays (the head's
  mean, the log-sigmoid of the standardized mean, the diagonal spread into the covariance output, and the loss and the
  accuracy the host tail computes from them).  Under the precondition the five weight matrices are real, so by the
  chain each of those values is the reference network's.
-/
import proofs.«173796_j40003325394948_2_alg».proof.Defs
import proofs.«173796_j40003325394948_2_alg».proof.Proof.KerValues
import proofs.«173796_j40003325394948_2_alg».proof.Proof.KerRegion1
import proofs.«173796_j40003325394948_2_alg».proof.Proof.Chain
import proofs.«173796_j40003325394948_2_alg».proof.Proof.LogSigmoid
import proofs.«173796_j40003325394948_2_alg».proof.Proof.FiniteWeights
import proofs.«173796_j40003325394948_2_alg».proof.Proof.Names

noncomputable section

namespace Cert.Bridge

open Idealize.ShloMosaic Idealize.SL.Sem Cert.KernelIdeal Cert.KernelIdeal.Gen Cert.KernelIdeal.KerRun

/-! ## The body's values of the arguments are the network's -/

section Values
variable (A0 : FVec Ideal S512x784 .f32) (A1 : FVec Ideal S784x512 .f32) (A2 A3 A4 : FVec Ideal S512x512 .f32)
  (A6 : FVec Ideal S512x1 .f32) (A7 A8 A9 A10 : FVec Ideal S1x512 .f32) (A12 : FVec Ideal S1x1 .f32)

/-- The kernel's two shared intermediates, with the host prefix's mean weights and column sums named as the
    reference names them. -/
theorem kP18_eq : kP18 A0 A1 A2 A4 A7 A8 = Cert.Chain.P18 A0 A1 A2 A4 A7 A8 := by
  unfold kP18
  rw [Cert.Names.mOf_784, Cert.Names.mOf_512, Cert.Names.mOf_512, Cert.Names.colSum_784, Cert.Names.colSum_512,
    Cert.Names.colSum_512]

theorem kP19_eq : kP19 A0 A1 A2 A3 A4 A7 A8 A9 A10 = Cert.Chain.P19 A0 A1 A2 A3 A4 A7 A8 A9 A10 := by
  unfold kP19
  rw [Cert.Names.mOf_784, Cert.Names.mOf_512, Cert.Names.mOf_512, Cert.Names.mOf_512, Cert.Names.colSum_784,
    Cert.Names.colSum_512, Cert.Names.colSum_512]

variable (r1 : ∀ i, ∃ r : ℝ, A1 i = (r : EReal)) (r2 : ∀ i, ∃ r : ℝ, A2 i = (r : EReal))
  (r3 : ∀ i, ∃ r : ℝ, A3 i = (r : EReal)) (r4 : ∀ i, ∃ r : ℝ, A4 i = (r : EReal)) (r6 : ∀ i, ∃ r : ℝ, A6 i = (r : EReal))

include r1 r2 r3 r4 in
/-- The head's mean. -/
theorem hbar_eq : kHbar A0 A1 A2 A3 A4 A6 A7 A8 A9 A10 A12 = Cert.Spec.hbar A0 A1 A2 A3 A4 A6 A7 A8 A9 A10 A12 := by
  unfold kHbar
  rw [kP18_eq, kP19_eq, Cert.Names.mOf_col]
  exact Cert.Chain.chbar A0 A1 A2 A3 A4 A6 A7 A8 A9 A10 A12 r1 r2 r3 r4

include r1 r2 r3 r4 r6 in
/-- The head's standardized mean. -/
theorem hstd_eq : kHstd A0 A1 A2 A3 A4 A6 A7 A8 A9 A10 A12 = Cert.Spec.hstd A0 A1 A2 A3 A4 A6 A7 A8 A9 A10 A12 := by
  unfold kHstd
  rw [kP18_eq, kP19_eq, Cert.Names.mOf_col, Cert.Names.colSum_col]
  exact Cert.Chain.chstd A0 A1 A2 A3 A4 A6 A7 A8 A9 A10 A12 r1 r2 r3 r4 r6

include r1 r2 r3 r4 r6 in
/-- The log-probability: the kernel's log-sigmoid of the standardized mean is the reference's. -/
theorem logp_eq : kLogp A0 A1 A2 A3 A4 A6 A7 A8 A9 A10 A12 = Cert.Spec.logSigmoid (Cert.Spec.hstd A0 A1 A2 A3 A4 A6 A7 A8 A9 A10 A12) := by
  have e : kLogp A0 A1 A2 A3 A4 A6 A7 A8 A9 A10 A12 = Cert.LogSigmoid.kLogp (kHstd A0 A1 A2 A3 A4 A6 A7 A8 A9 A10 A12) := by
    unfold KerRun.kLogp kHstd
    exact Cert.LogSigmoid.pay5_eq _ _ _ _ _
  rw [e, Cert.LogSigmoid.kLogp_eq, hstd_eq A0 A1 A2 A3 A4 A6 A7 A8 A9 A10 A12 r1 r2 r3 r4 r6]

include r1 r2 r3 r4 in
/-- The covariance diagonal. -/
theorem d4_eq : kD4 A0 A1 A2 A3 A4 A7 A8 A9 A10 = Cert.Spec.d4 A0 A1 A2 A3 A4 A7 A8 A9 A10 := by
  unfold kD4
  rw [kP18_eq, kP19_eq]
  exact Cert.Chain.cd4 A0 A1 A2 A3 A4 A7 A8 A9 A10 r1 r2 r3 r4

end Values

/-! ## The run -/

/-- Under the precondition, the idealized kernel program terminates with the reference network's five results in
    its result buffers and its arguments unchanged. -/
theorem kernel_spec (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v75_0) = Cert.Spec.hbar (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12))
      ∧ r.2.mem ((c.tc : Thread nD τ).loc main_v75_1) = Cert.Spec.logSigmoid (F := Ideal) (Cert.Spec.hstd (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)))
      ∧ r.2.mem ((c.tc : Thread nD τ).loc main_v82) = Cert.Spec.diagEmbed (F := Ideal) (Cert.Spec.d4 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)))
      ∧ r.2.mem ((c.tc : Thread nD τ).loc main_v97) = Cert.Spec.loss (F := Ideal) (m ((c.tc : Thread nD τ).loc main_arg13)) (Cert.Spec.logSigmoid (F := Ideal) (Cert.Spec.hstd (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)))) (Cert.Spec.hstd (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)))
      ∧ r.2.mem ((c.tc : Thread nD τ).loc main_v111) = Cert.Spec.fracCorrect (F := Ideal) (m ((c.tc : Thread nD τ).loc main_arg13)) (Cert.Spec.hstd (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg12)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine (θ_run defs _ _).mono (fun r h c => ?_) (kernel_values (F := Ideal) m ρ)
  obtain ⟨e0, e1, e2, e3, e4, hargs⟩ := h c
  obtain ⟨r1, r2, r3, r4, r6⟩ := Cert.FiniteWeights.weights_real _ _ _ _ _ _ _ _ _ _ _ _ _ _ (hpre c)
  refine ⟨e0.trans (hbar_eq _ _ _ _ _ _ _ _ _ _ _ r1 r2 r3 r4), e1.trans (logp_eq _ _ _ _ _ _ _ _ _ _ _ r1 r2 r3 r4 r6),
    e2.trans ?_, e3.trans ?_, e4.trans ?_, hargs⟩
  · rw [Cert.Names.region1_spec (V3 m ρ) c ((V3_main_v81 m ρ c).trans Cert.Names.eye_eq), V3_d4 m ρ c,
      d4_eq _ _ _ _ _ _ _ _ _ r1 r2 r3 r4]
  · rw [Cert.Names.loss_eq, logp_eq _ _ _ _ _ _ _ _ _ _ _ r1 r2 r3 r4 r6, hstd_eq _ _ _ _ _ _ _ _ _ _ _ r1 r2 r3 r4 r6]
  · rw [Cert.Names.frac_eq, hstd_eq _ _ _ _ _ _ _ _ _ _ _ r1 r2 r3 r4 r6]

end Cert.Bridge

end
-- ==== Proof.Claims.lean ====
/-
  The claims.

  Both idealized programs are read back as the same named stages of the network: the kernel program ends with each
  result at a stage of the specification applied to its own argument arrays, and so does the reference.  From
  memories that agree on the arguments the two sets of results are therefore equal, stage by stage, as extended
  reals; each program leaves its arguments unchanged; and the idealization restates no operation.
-/
import proofs.«173796_j40003325394948_2_alg».proof.Defs
import proofs.«173796_j40003325394948_2_alg».proof.Proof.Gen.Kernel
import proofs.«173796_j40003325394948_2_alg».proof.Proof.Gen.Kernel.Frame
import proofs.«173796_j40003325394948_2_alg».proof.Proof.Gen.KernelIdeal
import proofs.«173796_j40003325394948_2_alg».proof.Proof.Gen.KernelIdeal.Frame
import proofs.«173796_j40003325394948_2_alg».proof.Proof.Gen.ReferenceIdeal
import proofs.«173796_j40003325394948_2_alg».proof.Proof.Gen.Pre_finite_inputs
import proofs.«173796_j40003325394948_2_alg».proof.Proof.Spec
import proofs.«173796_j40003325394948_2_alg».proof.Proof.RefRun
import proofs.«173796_j40003325394948_2_alg».proof.Proof.Bridge

noncomputable section

open Idealize.ShloMosaic Idealize.ShloMosaic.TcCoe Idealize.SL.Sem

namespace Cert.Proof.Claims

theorem frame_k : Cert.frame_Kernel := fun m ρ _ => Cert.Kernel.Gen.frame m ρ
theorem frame_ki : Cert.frame_KernelIdeal := fun m ρ _ => Cert.KernelIdeal.Gen.frame m ρ
/-- The reference runs and leaves its arguments unchanged: its run read back, the five results dropped. -/
theorem frame_ri : Cert.frame_ReferenceIdeal := fun m ρ _ =>
  (θ_run Cert.ReferenceIdeal.defs _ _).mono (fun _ h c => (h c).2.2.2.2.2) (Cert.ReferenceIdeal.RefRun.run_spec (F := Ideal) m ρ)

/-- The idealization rewrote no operation: nothing to restate. -/
theorem preserves : Cert.preserves_Kernel_KernelIdeal := trivial

/-- At `Ideal`, from memories agreeing on the arguments, the kernel program ends with each result at a stage of
    the specification applied to its argument arrays, and the reference ends with the same stage applied to its
    own argument arrays, which are the kernel's. -/
theorem algebraic : Cert.algebraic_KernelIdeal_ReferenceIdeal := by
  intro m ρ m' ρ' hpre hagree
  refine ⟨_, _, _, _, _, Cert.Bridge.kernel_spec m ρ hpre, ?_⟩
  refine (θ_run Cert.ReferenceIdeal.defs _ _).mono (fun _ h c => ?_) (Cert.ReferenceIdeal.RefRun.run_spec (F := Ideal) m' ρ')
  obtain ⟨r0, r1, r2, r3, r4, rargs⟩ := h c
  obtain ⟨a0, a1, a2, a3, a4, a5, a6, a7, a8, a9, a10, a11, a12, a13⟩ := hagree c
  exact ⟨r0.trans (by rw [a0, a1, a2, a3, a4, a6, a7, a8, a9, a10, a12]),
    r1.trans (by rw [a0, a1, a2, a3, a4, a6, a7, a8, a9, a10, a12]),
    r2.trans (by rw [a0, a1, a2, a3, a4, a7, a8, a9, a10]),
    r3.trans (by rw [a0, a1, a2, a3, a4, a6, a7, a8, a9, a10, a12, a13]),
    r4.trans (by rw [a0, a1, a2, a3, a4, a6, a7, a8, a9, a10, a12, a13]),
    rargs⟩

/-- Everything the certificate claims. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof.Claims

end
-- ==== Proof.lean ====
/-
  A binary-weight network evaluated by expectation propagation: a kernel program against a plain host program.

  Each weight w has mean m = 2·σ(w) − 1.  A layer maps a mean activation x̄ and a variance diagonal d to
  tanh(c · (x̄·m + θ) / √(d·m² + Σ_k (1 − m²)_k)); four layers and a scalar head give the head's mean, the log-sigmoid of
  its standardized mean, the last layer's variance spread along the diagonal of a [512,512,512] array, an expected
  loss and a fraction classified right.  The kernel program computes the chain in one kernel region, multiplying by the
  reciprocal square root of each variance, spreads the diagonal in a second region of 32 row blocks, and leaves the loss
  and the accuracy to host operations; the reference divides by the square root throughout.

  On the extended reals the two forms agree exactly where the variance is positive.  The precondition makes the five
  weight matrices real, so every |m| < 1 and every column sum of 1 − m² is positive; every activation is a tanh, so
  every incoming variance 1 − x̄² is non-negative; hence every variance divided by is positive, at all five places.
  The kernel's log-sigmoid, min(h,0) − log1p(e^(−|h|)), is the reference's −softplus(−h) at every extended real h.
  The rest is the same operations in the same order: both programs are read back as one list of named stages
  (Proof/Spec.lean) and their five results are equal stage by stage (Proof/Claims.lean).
-/
import proofs.«173796_j40003325394948_2_alg».proof.Defs
import proofs.«173796_j40003325394948_2_alg».proof.Proof.Gen.Kernel
import proofs.«173796_j40003325394948_2_alg».proof.Proof.Gen.Kernel.Skeleton
import proofs.«173796_j40003325394948_2_alg».proof.Proof.Gen.Kernel.Launch
import proofs.«173796_j40003325394948_2_alg».proof.Proof.Gen.Kernel.Points
import proofs.«173796_j40003325394948_2_alg».proof.Proof.Gen.Kernel.Frame
import proofs.«173796_j40003325394948_2_alg».proof.Proof.Gen.KernelIdeal
import proofs.«173796_j40003325394948_2_alg».proof.Proof.Gen.KernelIdeal.Skeleton
import proofs.«173796_j40003325394948_2_alg».proof.Proof.Gen.KernelIdeal.Launch
import proofs.«173796_j40003325394948_2_alg».proof.Proof.Gen.KernelIdeal.Points
import proofs.«173796_j40003325394948_2_alg».proof.Proof.Gen.KernelIdeal.Frame
import proofs.«173796_j40003325394948_2_alg».proof.Proof.Gen.ReferenceIdeal
import proofs.«173796_j40003325394948_2_alg».proof.Proof.Gen.Pre_finite_inputs
import proofs.«173796_j40003325394948_2_alg».proof.Proof.Claims
import Idealize.ShloMosaic.Adequacy
import Idealize.ShloMosaic.Init

noncomputable section

namespace Cert.Proof

/-- The certificate: the three programs run and keep their arguments, the idealization restates nothing, and the
    idealized kernel program and the idealized reference end with equal results. -/
theorem claim : Cert.Claim := Cert.Proof.Claims.claim

end Cert.Proof

end
